-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x3072 : Shape := ⟨3, ![4, 4096, 3072]⟩
abbrev S3072x3072 : Shape := ⟨2, ![3072, 3072]⟩
abbrev S3072 : Shape := ⟨1, ![3072]⟩
abbrev S16x16 : Shape := ⟨2, ![16, 16]⟩
abbrev S12x12 : Shape := ⟨2, ![12, 12]⟩
abbrev S_ : Shape := ⟨0, ![]⟩

class Facts : Prop where
  bcast_S_S4x4096x3072 : S_.BroadcastsInDim S4x4096x3072 (![] : Fin 0 → Fin S4x4096x3072.rank)
  reducesTo_S4x4096x3072_S_d0_1_2 : S4x4096x3072.ReducesTo [0, 1, 2] S_
  h_S_ : 0 < S_.numel
  bcast_S_S3072x3072 : S_.BroadcastsInDim S3072x3072 (![] : Fin 0 → Fin S3072x3072.rank)
  reducesTo_S3072x3072_S_d0_1 : S3072x3072.ReducesTo [0, 1] S_
  bcast_S_S3072 : S_.BroadcastsInDim S3072 (![] : Fin 0 → Fin S3072.rank)
  reducesTo_S3072_S_d0 : S3072.ReducesTo [0] S_
  bcast_S_S16x16 : S_.BroadcastsInDim S16x16 (![] : Fin 0 → Fin S16x16.rank)
  reducesTo_S16x16_S_d0_1 : S16x16.ReducesTo [0, 1] S_
  bcast_S_S12x12 : S_.BroadcastsInDim S12x12 (![] : Fin 0 → Fin S12x12.rank)
  reducesTo_S12x12_S_d0_1 : S12x12.ReducesTo [0, 1] S_

variable [Facts]

def fn_part2 {F : FTy → Type} [FloatOps F] (main_arg7 : FVec F S12x12 .f32) (main_v33 : IVec S_ 1) : IVec S_ 1 :=
  let main_v34 : FVec F S12x12 .f32 := Host.absf main_arg7
  let main_cst_12 : FVec F S_ .f32 := constant S_ .f32 0x7F800000#32
  let main_v35 : FVec F S12x12 .f32 := broadcastInDim S12x12 ![] bcast_S_S12x12 main_cst_12
  let main_v36 : IVec S12x12 1 := cmpf .olt main_v34 main_v35
  let main_c_13 : IVec S_ 1 := constantI S_ 1 1#1
  let main_v37 : IVec S_ 1 := (fun x v => Host.reduce IntOp.andi x v reducesTo_S12x12_S_d0_1 h_S_) main_v36 main_c_13
  let main_v38 : IVec S_ 1 := andi main_v33 main_v37
  main_v38

def fn_part1 {F : FTy → Type} [FloatOps F] (main_arg4 : FVec F S3072 .f32) (main_arg5 : FVec F S16x16 .f32) (main_arg6 : FVec F S16x16 .f32) (main_arg7 : FVec F S12x12 .f32) (main_v13 : IVec S_ 1) (main_v16 : IVec S3072x3072 1) : IVec S_ 1 :=
  let main_c_5 : IVec S_ 1 := constantI S_ 1 1#1
  let main_v17 : IVec S_ 1 := (fun x v => Host.reduce IntOp.andi x v reducesTo_S3072x3072_S_d0_1 h_S_) main_v16 main_c_5
  let main_v18 : IVec S_ 1 := andi main_v13 main_v17
  let main_v19 : FVec F S3072 .f32 := Host.absf main_arg4
  let main_cst_6 : FVec F S_ .f32 := constant S_ .f32 0x7F800000#32
  let main_v20 : FVec F S3072 .f32 := broadcastInDim S3072 ![] bcast_S_S3072 main_cst_6
  let main_v21 : IVec S3072 1 := cmpf .olt main_v19 main_v20
  let main_c_7 : IVec S_ 1 := constantI S_ 1 1#1
  let main_v22 : IVec S_ 1 := (fun x v => Host.reduce IntOp.andi x v reducesTo_S3072_S_d0 h_S_) main_v21 main_c_7
  let main_v23 : IVec S_ 1 := andi main_v18 main_v22
  let main_v24 : FVec F S16x16 .f32 := Host.absf main_arg5
  let main_cst_8 : FVec F S_ .f32 := constant S_ .f32 0x7F800000#32
  let main_v25 : FVec F S16x16 .f32 := broadcastInDim S16x16 ![] bcast_S_S16x16 main_cst_8
  let main_v26 : IVec S16x16 1 := cmpf .olt main_v24 main_v25
  let main_c_9 : IVec S_ 1 := constantI S_ 1 1#1
  let main_v27 : IVec S_ 1 := (fun x v => Host.reduce IntOp.andi x v reducesTo_S16x16_S_d0_1 h_S_) main_v26 main_c_9
  let main_v28 : IVec S_ 1 := andi main_v23 main_v27
  let main_v29 : FVec F S16x16 .f32 := Host.absf main_arg6
  let main_cst_10 : FVec F S_ .f32 := constant S_ .f32 0x7F800000#32
  let main_v30 : FVec F S16x16 .f32 := broadcastInDim S16x16 ![] bcast_S_S16x16 main_cst_10
  let main_v31 : IVec S16x16 1 := cmpf .olt main_v29 main_v30
  let main_c_11 : IVec S_ 1 := constantI S_ 1 1#1
  let main_v32 : IVec S_ 1 := (fun x v => Host.reduce IntOp.andi x v reducesTo_S16x16_S_d0_1 h_S_) main_v31 main_c_11
  let main_v33 : IVec S_ 1 := andi main_v28 main_v32
  fn_part2 (F := F) main_arg7 main_v33

def fn {F : FTy → Type} [FloatOps F] (main_arg0 : FVec F S4x4096x3072 .f32) (main_arg1 : FVec F S3072x3072 .f32) (main_arg2 : FVec F S3072 .f32) (main_arg3 : FVec F S3072x3072 .f32) (main_arg4 : FVec F S3072 .f32) (main_arg5 : FVec F S16x16 .f32) (main_arg6 : FVec F S16x16 .f32) (main_arg7 : FVec F S12x12 .f32) : IVec S_ 1 :=
  let main_v0 : FVec F S4x4096x3072 .f32 := Host.absf main_arg0
  let main_cst : FVec F S_ .f32 := constant S_ .f32 0x7F800000#32
  let main_v1 : FVec F S4x4096x3072 .f32 := broadcastInDim S4x4096x3072 ![] bcast_S_S4x4096x3072 main_cst
  let main_v2 : IVec S4x4096x3072 1 := cmpf .olt main_v0 main_v1
  let main_c : IVec S_ 1 := constantI S_ 1 1#1
  let main_v3 : IVec S_ 1 := (fun x v => Host.reduce IntOp.andi x v reducesTo_S4x4096x3072_S_d0_1_2 h_S_) main_v2 main_c
  let main_v4 : FVec F S3072x3072 .f32 := Host.absf main_arg1
  let main_cst_0 : FVec F S_ .f32 := constant S_ .f32 0x7F800000#32
  let main_v5 : FVec F S3072x3072 .f32 := broadcastInDim S3072x3072 ![] bcast_S_S3072x3072 main_cst_0
  let main_v6 : IVec S3072x3072 1 := cmpf .olt main_v4 main_v5
  let main_c_1 : IVec S_ 1 := constantI S_ 1 1#1
  let main_v7 : IVec S_ 1 := (fun x v => Host.reduce IntOp.andi x v reducesTo_S3072x3072_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S3072x3072 .f32 := Host.absf main_arg3
  let main_cst_4 : FVec F S_ .f32 := constant S_ .f32 0x7F800000#32
  let main_v15 : FVec F S3072x3072 .f32 := broadcastInDim S3072x3072 ![] bcast_S_S3072x3072 main_cst_4
  let main_v16 : IVec S3072x3072 1 := cmpf .olt main_v14 main_v15
  fn_part1 (F := F) main_arg4 main_arg5 main_arg6 main_arg7 main_v13 main_v16
-- ==== Kernel.lean ====
abbrev S4x4096x3072 : Shape := ⟨3, ![4, 4096, 3072]⟩
abbrev S3072x3072 : Shape := ⟨2, ![3072, 3072]⟩
abbrev S3072 : Shape := ⟨1, ![3072]⟩
abbrev S16x16 : Shape := ⟨2, ![16, 16]⟩
abbrev S12x12 : Shape := ⟨2, ![12, 12]⟩
abbrev S_ : Shape := ⟨0, ![]⟩
abbrev S1x3072 : Shape := ⟨2, ![1, 3072]⟩
abbrev S16x1x16x1 : Shape := ⟨4, ![16, 1, 16, 1]⟩
abbrev S1x16x1x16 : Shape := ⟨4, ![1, 16, 1, 16]⟩
abbrev S16x16x16x16 : Shape := ⟨4, ![16, 16, 16, 16]⟩
abbrev S256x256 : Shape := ⟨2, ![256, 256]⟩
abbrev S256x1x256x1 : Shape := ⟨4, ![256, 1, 256, 1]⟩
abbrev S1x12x1x12 : Shape := ⟨4, ![1, 12, 1, 12]⟩
abbrev S256x12x256x12 : Shape := ⟨4, ![256, 12, 256, 12]⟩
abbrev S1024x1024 : Shape := ⟨2, ![1024, 1024]⟩
abbrev S16384x3072 : Shape := ⟨2, ![16384, 3072]⟩

abbrev nBuf : Space → Nat
  | .hbm => 39
  | .vmem => 21
  | .smem => 0
  | _ => 0

abbrev bufTy : (tb : Table) → Fin (tcTables nBuf tb) → BufTy
  | .hbm, ⟨0, _⟩ => ⟨S4x4096x3072, .f32⟩
  | .hbm, ⟨1, _⟩ => ⟨S3072x3072, .f32⟩
  | .hbm, ⟨2, _⟩ => ⟨S3072, .f32⟩
  | .hbm, ⟨3, _⟩ => ⟨S3072x3072, .f32⟩
  | .hbm, ⟨4, _⟩ => ⟨S3072, .f32⟩
  | .hbm, ⟨5, _⟩ => ⟨S16x16, .f32⟩
  | .hbm, ⟨6, _⟩ => ⟨S16x16, .f32⟩
  | .hbm, ⟨7, _⟩ => ⟨S12x12, .f32⟩
  | .hbm, ⟨8, _⟩ => ⟨S3072, .f32⟩
  | .hbm, ⟨9, _⟩ => ⟨S_, .f32⟩
  | .hbm, ⟨10, _⟩ => ⟨S3072, .f32⟩
  | .hbm, ⟨11, _⟩ => ⟨S3072, .f32⟩
  | .hbm, ⟨12, _⟩ => ⟨S1x3072, .f32⟩
  | .hbm, ⟨13, _⟩ => ⟨S3072x3072, .f32⟩
  | .hbm, ⟨14, _⟩ => ⟨S3072x3072, .f32⟩
  | .hbm, ⟨15, _⟩ => ⟨S3072x3072, .bf16⟩
  | .hbm, ⟨16, _⟩ => ⟨S3072x3072, .bf16⟩
  | .hbm, ⟨17, _⟩ => ⟨S16x1x16x1, .f32⟩
  | .hbm, ⟨18, _⟩ => ⟨S1x16x1x16, .f32⟩
  | .hbm, ⟨19, _⟩ => ⟨S16x16x16x16, .f32⟩
  | .hbm, ⟨20, _⟩ => ⟨S16x16x16x16, .f32⟩
  | .hbm, ⟨21, _⟩ => ⟨S16x16x16x16, .f32⟩
  | .hbm, ⟨22, _⟩ => ⟨S256x256, .f32⟩
  | .hbm, ⟨23, _⟩ => ⟨S256x1x256x1, .f32⟩
  | .hbm, ⟨24, _⟩ => ⟨S1x12x1x12, .f32⟩
  | .hbm, ⟨25, _⟩ => ⟨S256x12x256x12, .f32⟩
  | .hbm, ⟨26, _⟩ => ⟨S256x12x256x12, .f32⟩
  | .hbm, ⟨27, _⟩ => ⟨S256x12x256x12, .f32⟩
  | .hbm, ⟨28, _⟩ => ⟨S3072x3072, .f32⟩
  | .hbm, ⟨29, _⟩ => ⟨S3072x3072, .bf16⟩
  | .hbm, ⟨30, _⟩ => ⟨S3072x3072, .bf16⟩
  | .hbm, ⟨31, _⟩ => ⟨S3072x3072, .bf16⟩
  | .hbm, ⟨32, _⟩ => ⟨S16384x3072, .f32⟩
  | .hbm, ⟨33, _⟩ => ⟨S16384x3072, .bf16⟩
  | .hbm, ⟨34, _⟩ => ⟨S16384x3072, .f32⟩
  | .hbm, ⟨35, _⟩ => ⟨S4x4096x3072, .f32⟩
  | .hbm, ⟨36, _⟩ => ⟨S_, .f32⟩
  | .hbm, ⟨37, _⟩ => ⟨S4x4096x3072, .f32⟩
  | .hbm, ⟨38, _⟩ => ⟨S4x4096x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .f32⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .f32⟩
  | .local _ .vmem, ⟨19, _⟩ => ⟨S1024x1024, .f32⟩
  | .local _ .vmem, ⟨20, _⟩ => ⟨S1024x1024, .f32⟩
  | _, _ => ⟨S4x4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_cst : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v7 : Ref sig .tc := ⟨.hbm, 22, rfl⟩
abbrev main_call2_v0 : Ref sig .tc := ⟨.hbm, 23, rfl⟩
abbrev main_call2_v1 : Ref sig .tc := ⟨.hbm, 24, rfl⟩
abbrev main_call2_v2 : Ref sig .tc := ⟨.hbm, 25, rfl⟩
abbrev main_call2_v3 : Ref sig .tc := ⟨.hbm, 26, rfl⟩
abbrev main_call2_v4 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst : Ref sig .tc := ⟨.hbm, 36, rfl⟩
abbrev main_v16 : Ref sig .tc := ⟨.hbm, 37, rfl⟩
abbrev main_v17 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨3, ![3, 3, 3], ![false, false, false]⟩

def k0_cond2 (i : grid0.Coords) : BitVec 1 :=
  let arg2 : BitVec 32 := BitVec.ofNat 32 (i 2).val
  let c2_i32 : BitVec 32 := 2#32
  let v13 : BitVec 1 := Scalar.cmpi .eq arg2 c2_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![3, 3, 3], ![false, false, false]⟩

def k1_cond2 (i : grid1.Coords) : BitVec 1 :=
  let arg2 : BitVec 32 := BitVec.ofNat 32 (i 2).val
  let c2_i32 : BitVec 32 := 2#32
  let v13 : BitVec 1 := Scalar.cmpi .eq arg2 c2_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![16, 3, 3], ![false, false, false]⟩

def k2_cond2 (i : grid2.Coords) : BitVec 1 :=
  let arg2 : BitVec 32 := BitVec.ofNat 32 (i 2).val
  let c2_i32 : BitVec 32 := 2#32
  let v13 : BitVec 1 := Scalar.cmpi .eq arg2 c2_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

class Facts₀ : Prop where
  bcast_S_S3072 : S_.BroadcastsInDim S3072 (![] : Fin 0 → Fin S3072.rank)
  bcast_S3072_S1x3072_1 : S3072.BroadcastsInDim S1x3072 (![1] : Fin 1 → Fin S1x3072.rank)
  bcast_S1x3072_S3072x3072_0_1 : S1x3072.BroadcastsInDim S3072x3072 (![0, 1] : Fin 2 → Fin S3072x3072.rank)
  bitsLt_bf16_f32 : FTy.bits .bf16 < FTy.bits .f32
  bcast_S16x16_S16x1x16x1_0_2 : S16x16.BroadcastsInDim S16x1x16x1 (![0, 2] : Fin 2 → Fin S16x1x16x1.rank)
  bcast_S16x16_S1x16x1x16_1_3 : S16x16.BroadcastsInDim S1x16x1x16 (![1, 3] : Fin 2 → Fin S1x16x1x16.rank)
  bcast_S16x1x16x1_S16x16x16x16_0_1_2_3 : S16x1x16x1.BroadcastsInDim S16x16x16x16 (![0, 1, 2, 3] : Fin 4 → Fin S16x16x16x16.rank)
  bcast_S1x16x1x16_S16x16x16x16_0_1_2_3 : S1x16x1x16.BroadcastsInDim S16x16x16x16 (![0, 1, 2, 3] : Fin 4 → Fin S16x16x16x16.rank)
  shapeCasts_S16x16x16x16_S256x256 : S16x16x16x16.ShapeCasts S256x256
  bcast_S256x256_S256x1x256x1_0_2 : S256x256.BroadcastsInDim S256x1x256x1 (![0, 2] : Fin 2 → Fin S256x1x256x1.rank)
  bcast_S12x12_S1x12x1x12_1_3 : S12x12.BroadcastsInDim S1x12x1x12 (![1, 3] : Fin 2 → Fin S1x12x1x12.rank)
  bcast_S256x1x256x1_S256x12x256x12_0_1_2_3 : S256x1x256x1.BroadcastsInDim S256x12x256x12 (![0, 1, 2, 3] : Fin 4 → Fin S256x12x256x12.rank)
  bcast_S1x12x1x12_S256x12x256x12_0_1_2_3 : S1x12x1x12.BroadcastsInDim S256x12x256x12 (![0, 1, 2, 3] : Fin 4 → Fin S256x12x256x12.rank)
  shapeCasts_S256x12x256x12_S3072x3072 : S256x12x256x12.ShapeCasts S3072x3072
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  shapeCasts_S4x4096x3072_S16384x3072 : S4x4096x3072.ShapeCasts S16384x3072
  shapeCasts_S16384x3072_S4x4096x3072 : S16384x3072.ShapeCasts S4x4096x3072
  bcast_S_S4x4096x3072 : S_.BroadcastsInDim S4x4096x3072 (![] : Fin 0 → Fin S4x4096x3072.rank)
  dot_S1024x1024_S1024x1024_S1024x1024_1_0_0_1_n_n_wf : DotDims.WF S1024x1024 S1024x1024 S1024x1024 [1] [0] [0] [1] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S3072x3072.size a
  hwx0_0 : ∀ i : grid0.Coords, EltTy.bits .bf16 = 32 ∨ (Rect.block (s := S3072x3072) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S3072x3072.size a
  hwx0_1 : ∀ i : grid0.Coords, EltTy.bits .bf16 = 32 ∨ (Rect.block (s := S3072x3072) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S3072x3072.size a
  hwx0_2 : ∀ i : grid0.Coords, EltTy.bits .bf16 = 32 ∨ (Rect.block (s := S3072x3072) S1024x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S3072x3072.size a
  hwx1_0 : ∀ i : grid1.Coords, EltTy.bits .bf16 = 32 ∨ (Rect.block (s := S3072x3072) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S3072x3072.size a
  hwx1_1 : ∀ i : grid1.Coords, EltTy.bits .bf16 = 32 ∨ (Rect.block (s := S3072x3072) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S3072x3072.size a
  hwx1_2 : ∀ i : grid1.Coords, EltTy.bits .bf16 = 32 ∨ (Rect.block (s := S3072x3072) S1024x1024.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S16384x3072.size a
  hwx2_0 : ∀ i : grid2.Coords, EltTy.bits .bf16 = 32 ∨ (Rect.block (s := S16384x3072) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S3072x3072.size a
  hwx2_1 : ∀ i : grid2.Coords, EltTy.bits .bf16 = 32 ∨ (Rect.block (s := S3072x3072) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S16384x3072.size a
  hwx2_2 : ∀ i : grid2.Coords, EltTy.bits .f32 = 32 ∨ (Rect.block (s := S16384x3072) S1024x1024.size (cc2_transform_2 i) (hinb2_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v5) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v9) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v13) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S4x4096x3072 : Shape := ⟨3, ![4, 4096, 3072]⟩
abbrev S3072x3072 : Shape := ⟨2, ![3072, 3072]⟩
abbrev S3072 : Shape := ⟨1, ![3072]⟩
abbrev S16x16 : Shape := ⟨2, ![16, 16]⟩
abbrev S12x12 : Shape := ⟨2, ![12, 12]⟩
abbrev S_ : Shape := ⟨0, ![]⟩
abbrev S1x3072 : Shape := ⟨2, ![1, 3072]⟩
abbrev S16x1x16x1 : Shape := ⟨4, ![16, 1, 16, 1]⟩
abbrev S1x16x1x16 : Shape := ⟨4, ![1, 16, 1, 16]⟩
abbrev S16x16x16x16 : Shape := ⟨4, ![16, 16, 16, 16]⟩
abbrev S256x256 : Shape := ⟨2, ![256, 256]⟩
abbrev S256x1x256x1 : Shape := ⟨4, ![256, 1, 256, 1]⟩
abbrev S1x12x1x12 : Shape := ⟨4, ![1, 12, 1, 12]⟩
abbrev S256x12x256x12 : Shape := ⟨4, ![256, 12, 256, 12]⟩

abbrev nBuf : Space → Nat
  | .hbm => 34
  | .vmem => 0
  | .smem => 0
  | _ => 0

abbrev bufTy : (tb : Table) → Fin (tcTables nBuf tb) → BufTy
  | .hbm, ⟨0, _⟩ => ⟨S4x4096x3072, .f32⟩
  | .hbm, ⟨1, _⟩ => ⟨S3072x3072, .f32⟩
  | .hbm, ⟨2, _⟩ => ⟨S3072, .f32⟩
  | .hbm, ⟨3, _⟩ => ⟨S3072x3072, .f32⟩
  | .hbm, ⟨4, _⟩ => ⟨S3072, .f32⟩
  | .hbm, ⟨5, _⟩ => ⟨S16x16, .f32⟩
  | .hbm, ⟨6, _⟩ => ⟨S16x16, .f32⟩
  | .hbm, ⟨7, _⟩ => ⟨S12x12, .f32⟩
  | .hbm, ⟨8, _⟩ => ⟨S3072, .f32⟩
  | .hbm, ⟨9, _⟩ => ⟨S_, .f32⟩
  | .hbm, ⟨10, _⟩ => ⟨S3072, .f32⟩
  | .hbm, ⟨11, _⟩ => ⟨S3072, .f32⟩
  | .hbm, ⟨12, _⟩ => ⟨S1x3072, .f32⟩
  | .hbm, ⟨13, _⟩ => ⟨S3072x3072, .f32⟩
  | .hbm, ⟨14, _⟩ => ⟨S3072x3072, .f32⟩
  | .hbm, ⟨15, _⟩ => ⟨S3072x3072, .f32⟩
  | .hbm, ⟨16, _⟩ => ⟨S16x1x16x1, .f32⟩
  | .hbm, ⟨17, _⟩ => ⟨S1x16x1x16, .f32⟩
  | .hbm, ⟨18, _⟩ => ⟨S16x16x16x16, .f32⟩
  | .hbm, ⟨19, _⟩ => ⟨S16x16x16x16, .f32⟩
  | .hbm, ⟨20, _⟩ => ⟨S16x16x16x16, .f32⟩
  | .hbm, ⟨21, _⟩ => ⟨S256x256, .f32⟩
  | .hbm, ⟨22, _⟩ => ⟨S256x1x256x1, .f32⟩
  | .hbm, ⟨23, _⟩ => ⟨S1x12x1x12, .f32⟩
  | .hbm, ⟨24, _⟩ => ⟨S256x12x256x12, .f32⟩
  | .hbm, ⟨25, _⟩ => ⟨S256x12x256x12, .f32⟩
  | .hbm, ⟨26, _⟩ => ⟨S256x12x256x12, .f32⟩
  | .hbm, ⟨27, _⟩ => ⟨S3072x3072, .f32⟩
  | .hbm, ⟨28, _⟩ => ⟨S3072x3072, .f32⟩
  | .hbm, ⟨29, _⟩ => ⟨S3072x3072, .f32⟩
  | .hbm, ⟨30, _⟩ => ⟨S4x4096x3072, .f32⟩
  | .hbm, ⟨31, _⟩ => ⟨S_, .f32⟩
  | .hbm, ⟨32, _⟩ => ⟨S4x4096x3072, .f32⟩
  | .hbm, ⟨33, _⟩ => ⟨S4x4096x3072, .f32⟩
  | _, _ => ⟨S4x4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_cst : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v6 : Ref sig .tc := ⟨.hbm, 21, rfl⟩
abbrev main_call2_v0 : Ref sig .tc := ⟨.hbm, 22, rfl⟩
abbrev main_call2_v1 : Ref sig .tc := ⟨.hbm, 23, rfl⟩
abbrev main_call2_v2 : Ref sig .tc := ⟨.hbm, 24, rfl⟩
abbrev main_call2_v3 : Ref sig .tc := ⟨.hbm, 25, rfl⟩
abbrev main_call2_v4 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩

abbrev nD : Nat := 1
abbrev τ : Topo := Topo.v7x

variable {F : FTy → Type} [FloatOps F]

class Facts₀ : Prop where
  bcast_S_S3072 : S_.BroadcastsInDim S3072 (![] : Fin 0 → Fin S3072.rank)
  bcast_S3072_S1x3072_1 : S3072.BroadcastsInDim S1x3072 (![1] : Fin 1 → Fin S1x3072.rank)
  bcast_S1x3072_S3072x3072_0_1 : S1x3072.BroadcastsInDim S3072x3072 (![0, 1] : Fin 2 → Fin S3072x3072.rank)
  bcast_S16x16_S16x1x16x1_0_2 : S16x16.BroadcastsInDim S16x1x16x1 (![0, 2] : Fin 2 → Fin S16x1x16x1.rank)
  bcast_S16x16_S1x16x1x16_1_3 : S16x16.BroadcastsInDim S1x16x1x16 (![1, 3] : Fin 2 → Fin S1x16x1x16.rank)
  bcast_S16x1x16x1_S16x16x16x16_0_1_2_3 : S16x1x16x1.BroadcastsInDim S16x16x16x16 (![0, 1, 2, 3] : Fin 4 → Fin S16x16x16x16.rank)
  bcast_S1x16x1x16_S16x16x16x16_0_1_2_3 : S1x16x1x16.BroadcastsInDim S16x16x16x16 (![0, 1, 2, 3] : Fin 4 → Fin S16x16x16x16.rank)
  shapeCasts_S16x16x16x16_S256x256 : S16x16x16x16.ShapeCasts S256x256
  bcast_S256x256_S256x1x256x1_0_2 : S256x256.BroadcastsInDim S256x1x256x1 (![0, 2] : Fin 2 → Fin S256x1x256x1.rank)
  bcast_S12x12_S1x12x1x12_1_3 : S12x12.BroadcastsInDim S1x12x1x12 (![1, 3] : Fin 2 → Fin S1x12x1x12.rank)
  bcast_S256x1x256x1_S256x12x256x12_0_1_2_3 : S256x1x256x1.BroadcastsInDim S256x12x256x12 (![0, 1, 2, 3] : Fin 4 → Fin S256x12x256x12.rank)
  bcast_S1x12x1x12_S256x12x256x12_0_1_2_3 : S1x12x1x12.BroadcastsInDim S256x12x256x12 (![0, 1, 2, 3] : Fin 4 → Fin S256x12x256x12.rank)
  shapeCasts_S256x12x256x12_S3072x3072 : S256x12x256x12.ShapeCasts S3072x3072
  transposes_S3072x3072_S3072x3072_1_0 : S3072x3072.Transposes [1, 0] S3072x3072
  bcast_S_S4x4096x3072 : S_.BroadcastsInDim S4x4096x3072 (![] : Fin 0 → Fin S4x4096x3072.rank)
  dot_S3072x3072_S3072x3072_S3072x3072_1_0_0_1_n_n_wf : DotDims.WF S3072x3072 S3072x3072 S3072x3072 [1] [0] [0] [1] [] []
  dot_S4x4096x3072_S3072x3072_S4x4096x3072_2_0_01_1_n_n_wf : DotDims.WF S4x4096x3072 S3072x3072 S4x4096x3072 [2] [0] [0, 1] [1] [] []

variable [Facts₀]

def dot_S3072x3072_S3072x3072_S3072x3072_1_0_0_1_n_n : DotDims S3072x3072 S3072x3072 S3072x3072 where
  lhsContracting := [1]
  rhsContracting := [0]
  lhsNonContracting := [0]
  rhsNonContracting := [1]
  lhsBatch := []
  rhsBatch := []
  wf := dot_S3072x3072_S3072x3072_S3072x3072_1_0_0_1_n_n_wf
def dot_S4x4096x3072_S3072x3072_S4x4096x3072_2_0_01_1_n_n : DotDims S4x4096x3072 S3072x3072 S4x4096x3072 where
  lhsContracting := [2]
  rhsContracting := [0]
  lhsNonContracting := [0, 1]
  rhsNonContracting := [1]
  lhsBatch := []
  rhsBatch := []
  wf := dot_S4x4096x3072_S3072x3072_S4x4096x3072_2_0_01_1_n_n_wf

class Facts : Prop extends Facts₀ where

variable [Facts]
-- ==== Proof.KB.Body0.lean ====
/-
  Region 0 of the program (one tiled matrix product): the kernel body run in each of its three control cases.
  The grid is (i, j, k) with k innermost; the body keeps a running sum in a scratch accumulator: at k = 0 it first
  clears the accumulator, at every k it adds the product of the two current input blocks, and at the last k it
  copies the accumulator into the output block. So a grid point t is in case A when t mod 3 = 0 (clear, add),
  case B when t mod 3 = 1 (add) and case C when t mod 3 = 2 (add, write out).
-/
import proofs.«174643_j41497974014138_1_alg».proof.Proof.Gen.Kernel.Launch
import proofs.«174643_j41497974014138_1_alg».proof.Proof.Gen.Kernel.Skeleton
import proofs.«174643_j41497974014138_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, decided over the grid -/

/-- "k = 0": the accumulator is cleared. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 3 = 0 :=
  (by decide +kernel : ∀ t : Fin grid0.N, cond0_0 (grid0.coords t) ↔ t.val % 3 = 0)

/-- "k = 2": the accumulator is written out. -/
abbrev cond0_1 (i : grid0.Coords) : Prop := k0_cond2 i = 1#1
theorem hcond0_1 : ∀ t : Fin cfg0.N, cond0_1 (grid0.coords t) ↔ t.val % 3 = 2 :=
  (by decide +kernel : ∀ t : Fin grid0.N, cond0_1 (grid0.coords t) ↔ t.val % 3 = 2)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
theorem liveAt0_2_C : ∀ t : Fin cfg0.N, ¬cond0_0 (grid0.coords t) → cond0_1 (grid0.coords t) → cfg0.idle 2 (grid0.coords t) = false := by decide +kernel

/-! ## The memrefs the body is called with -/

abbrev VO0_2 : View sig .tc .vmem S1024x1024 .bf16 := (Memref.whole cc0_stg2_0 : Memref sig .tc .vmem S1024x1024 .bf16).view
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S1024x1024 .f32 := Memref.whole cc0_scratch0
abbrev VS0_0 : View sig .tc .vmem S1024x1024 .f32 := scM0_0.view

/-! ## The body in each case: the pieces its stores leave, found by running it -/

set_option maxHeartbeats 1000000 in
/-- Case A (k = 0): both inputs read; the output block untouched; the accumulator, found at anything, ends
    with two stores (the clearing, then the first partial sum). -/
noncomputable def kernelRun0_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i)
    (x0 : Vec F S1024x1024 .bf16) (x1 : Vec F S1024x1024 .bf16) :
    Σ' (L2 : List (View.Piece (Elt F) S1024x1024 .bf16)), { LS0 : List (View.Piece (Elt F) S1024x1024 .f32) //
      ∀ (xi2 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- Case B (k = 1): both inputs read; the output block untouched; the accumulator, found at the running sum
    `xs0`, ends with one store (the running sum plus this point's product). -/
noncomputable def kernelRun0_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : ¬cond0_1 i)
    (x0 : Vec F S1024x1024 .bf16) (x1 : Vec F S1024x1024 .bf16) (xs0 : Vec F S1024x1024 .f32) :
    Σ' (L2 : List (View.Piece (Elt F) S1024x1024 .bf16)), { LS0 : List (View.Piece (Elt F) S1024x1024 .f32) //
      ∀ (xi2 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- Case C (k = 2): both inputs read; the accumulator, found at the running sum `xs0`, ends with one store;
    the output block, found at anything, ends with one store (the finished sum). -/
noncomputable def kernelRun0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) :
    Σ' (L2 : List (View.Piece (Elt F) S1024x1024 .bf16)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Gen

end
-- ==== Proof.KB.Frame0.lean ====
/-
  Region 0: what its output block and its accumulator hold after each grid point, the proof data of the pipeline, and the
  body obligation at every point. The accumulator is carried from a point to the next: after a point of case A it holds
  the first partial sum, after a point of case B or C the running sum of the point before plus this point's product; the
  output block is stored at the points of case C only (elsewhere the window is idle and is not written back).
-/
import proofs.«174643_j41497974014138_1_alg».proof.Proof.KB.Body0

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The scoped buffers other than this region's staging buffers and its accumulator (the other regions' own), each at some
    contents: carried through the region unopened. -/
abbrev restS0 (c : Dev nD) : sProp 𝕄 :=
  Pipeline.scopedRestBut (Ix := Unit) (Name := ℕ) (U := UR sig nD τ) (Lvl := ℕ) (Val := Elt F) spec0 c [cc0_scratch0]

/-- The region's untracked invariant with the accumulator split out as a memref owned at some contents. -/
theorem PhiA0_eq (c : Dev nD) :
    (Pipeline.ΦA spec0 c : sProp 𝕄)
      = iprop(iprop((∃ d, owns (c : Thread nD τ) scM0_0 fullShare d) ∗ restS0 (F := F) c) ∗ (∃ r, prngReg c r)) := by
  unfold Pipeline.ΦA
  rw [Pipeline.scopedRest_split_of_list spec0 c [cc0_scratch0] (by decide) (by decide)]
  simp only [scM0_0, owns_whole, bigSepL]
  try rfl

/-! ## What each case leaves -/

/-- Case A stores nothing into the output block: a placeholder nothing consults. -/
def out0_A_2 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i)
    (x0 : Vec F S1024x1024 .bf16) (x1 : Vec F S1024x1024 .bf16) : Vec F S1024x1024 .bf16 :=
  VO0_2.read (Elt F) (VO0_2.writes (Elt F) VO0_2.junk (kernelRun0_A c i arg3 harg3 arg4 harg4 arg5 harg5 arg6 harg6 hc0 hc1 x0 x1).1)
theorem scover0_A_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i)
    (x0 : Vec F S1024x1024 .bf16) (x1 : Vec F S1024x1024 .bf16) (y : S1024x1024.Idx) :
    ∃ pc ∈ (kernelRun0_A c i arg3 harg3 arg4 harg4 arg5 harg5 arg6 harg6 hc0 hc1 x0 x1).2.1, y ∈ pc.1.set :=
  View.cover_of_tiledL (kernelRun0_A c i arg3 harg3 arg4 harg4 arg5 harg5 arg6 harg6 hc0 hc1 x0 x1).2.1 S1024x1024.size (by sl_kernel_rfl) y
/-- What case A leaves in the accumulator. -/
def sout0_A_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i)
    (x0 : Vec F S1024x1024 .bf16) (x1 : Vec F S1024x1024 .bf16) : Vec F S1024x1024 .f32 :=
  VS0_0.read (Elt F) (VS0_0.writes (Elt F) VS0_0.junk (kernelRun0_A c i arg3 harg3 arg4 harg4 arg5 harg5 arg6 harg6 hc0 hc1 x0 x1).2.1)

/-- Case B stores nothing into the output block: a placeholder nothing consults. -/
def out0_B_2 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : ¬cond0_1 i)
    (x0 : Vec F S1024x1024 .bf16) (x1 : Vec F S1024x1024 .bf16) (xs0 : Vec F S1024x1024 .f32) : Vec F S1024x1024 .bf16 :=
  VO0_2.read (Elt F) (VO0_2.writes (Elt F) VO0_2.junk (kernelRun0_B c i arg3 harg3 arg4 harg4 arg5 harg5 arg6 harg6 hc0 hc1 x0 x1 xs0).1)
theorem scover0_B_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : ¬cond0_1 i)
    (x0 : Vec F S1024x1024 .bf16) (x1 : Vec F S1024x1024 .bf16) (xs0 : Vec F S1024x1024 .f32) (y : S1024x1024.Idx) :
    ∃ pc ∈ (kernelRun0_B c i arg3 harg3 arg4 harg4 arg5 harg5 arg6 harg6 hc0 hc1 x0 x1 xs0).2.1, y ∈ pc.1.set :=
  View.cover_of_tiledL (kernelRun0_B c i arg3 harg3 arg4 harg4 arg5 harg5 arg6 harg6 hc0 hc1 x0 x1 xs0).2.1 S1024x1024.size (by sl_kernel_rfl) y
/-- What case B leaves in the accumulator. -/
def sout0_B_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : ¬cond0_1 i)
    (x0 : Vec F S1024x1024 .bf16) (x1 : Vec F S1024x1024 .bf16) (xs0 : Vec F S1024x1024 .f32) : Vec F S1024x1024 .f32 :=
  VS0_0.read (Elt F) (VS0_0.writes (Elt F) VS0_0.junk (kernelRun0_B c i arg3 harg3 arg4 harg4 arg5 harg5 arg6 harg6 hc0 hc1 x0 x1 xs0).2.1)

theorem cover0_C_2 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) (y : S1024x1024.Idx) :
    ∃ pc ∈ (kernelRun0_C c i arg3 harg3 arg4 harg4 arg5 harg5 arg6 harg6 hc0 hc1 x0 x1 xs0).1, y ∈ pc.1.set :=
  View.cover_of_tiledL (kernelRun0_C c i arg3 harg3 arg4 harg4 arg5 harg5 arg6 harg6 hc0 hc1 x0 x1 xs0).1 S1024x1024.size (by sl_kernel_rfl) y
/-- What case C leaves in the output block. -/
def out0_C_2 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) : Vec F S1024x1024 .bf16 :=
  VO0_2.read (Elt F) (VO0_2.writes (Elt F) VO0_2.junk (kernelRun0_C c i arg3 harg3 arg4 harg4 arg5 harg5 arg6 harg6 hc0 hc1 x0 x1 xs0).1)
theorem scover0_C_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) (y : S1024x1024.Idx) :
    ∃ pc ∈ (kernelRun0_C c i arg3 harg3 arg4 harg4 arg5 harg5 arg6 harg6 hc0 hc1 x0 x1 xs0).2.1, y ∈ pc.1.set :=
  View.cover_of_tiledL (kernelRun0_C c i arg3 harg3 arg4 harg4 arg5 harg5 arg6 harg6 hc0 hc1 x0 x1 xs0).2.1 S1024x1024.size (by sl_kernel_rfl) y
/-- What case C leaves in the accumulator. -/
def sout0_C_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) : Vec F S1024x1024 .f32 :=
  VS0_0.read (Elt F) (VS0_0.writes (Elt F) VS0_0.junk (kernelRun0_C c i arg3 harg3 arg4 harg4 arg5 harg5 arg6 harg6 hc0 hc1 x0 x1 xs0).2.1)

/-! ## Point by point -/

/-- The output block and the accumulator after the body at position `n`: the case `n mod 3` selects, run on the point's
    input blocks, cases B and C over the accumulator the point before left. -/
def outsAt0 (c : Dev nD) : (n : ℕ) → n < cfg0.N → Vec F S1024x1024 .bf16 × Vec F S1024x1024 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 3 = 0 then
      if h1 : (n + 1) % 3 = 2 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 3 = 2 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 3 = 0) (h1 : ¬t.val % 3 = 2) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 3 = 0) (h1 : ¬t.val % 3 = 2) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 3 = 0) (h1 : t.val % 3 = 2) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point every scoped buffer at anything; afterwards the
    accumulator at what the point before left, and the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ restS0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2) ∗ restS0 (F := F) c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ restS0 (F := F) c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' buffers hold their blocks; `t mod 3` says which case the point is in; the
    invariant hands the body the accumulator at what the point before left (at anything at the first point) and takes
    it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 27 := lt_of_lt_of_eq t.isLt (show cfg0.N = 27 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 3 = 0
  · by_cases h1 : t.val % 3 = 2
    · exfalso; omega
    · rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, Hrest⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A_0 c _ _ _ _ _ _ _ _ _ _ _ _ _)
            iexact Hrest
          iexact Hg
        isplitl [Ho]; · iexact Ho
        isplitl [H0]; · iexact H0
        isplitl [H1]; · iexact H1
        iexists _; iexact H2
      · rw [PhiS0_castSucc V c t, PhiS0_pos V c _ _ hz]
        iintro ⟨⟨⟨HS0, Hrest⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A_0 c _ _ _ _ _ _ _ _ _ _ _ _ _)
            iexact Hrest
          iexact Hg
        isplitl [Ho]; · iexact Ho
        isplitl [H0]; · iexact H0
        isplitl [H1]; · iexact H1
        iexists _; iexact H2
  · have hz : t.val ≠ 0 := fun hz => h0 (by rw [hz])
    by_cases h1 : t.val % 3 = 2
    · rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [outsAt0_C V c t h0 h1]
      unfold out0_C_2 sout0_C_0; (try dsimp only)
      rw [PhiS0_castSucc V c t, PhiS0_pos V c _ _ hz]
      iintro ⟨⟨⟨HS0, Hrest⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_C_0 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold sout0_B_0; (try dsimp only)
      rw [PhiS0_castSucc V c t, PhiS0_pos V c _ _ hz]
      iintro ⟨⟨⟨HS0, Hrest⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_B_0 c _ _ _ _ _ _ _ _ _ _ _ _ _ _)
          iexact Hrest
        iexact Hg
      isplitl [Ho]; · iexact Ho
      isplitl [H0]; · iexact H0
      isplitl [H1]; · iexact H1
      iexists _; iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the untracked one back. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hrest⟩, Hg⟩
  isplitl [HS0 Hrest]
  · isplitl [HS0]
    · iexists _; iexact HS0
    iexact Hrest
  iexact Hg

theorem hout0 (c : Dev nD) : (dat0 V c).Φ (Fin.last cfg0.N) ⊢ Pipeline.ΦA spec0 c :=
  Phi_out0 V c _ (by rw [Fin.val_last]; have : cfg0.N = 27 := N_0; omega)

end Region0

end Cert.Kernel.Gen

end
-- ==== Proof.KB.Body1.lean ====
/-
  Region 1 of the program (one tiled matrix product): the kernel body run in each of its three control cases.
  The grid is (i, j, k) with k innermost; the body keeps a running sum in a scratch accumulator: at k = 0 it first
  clears the accumulator, at every k it adds the product of the two current input blocks, and at the last k it
  copies the accumulator into the output block. So a grid point t is in case A when t mod 3 = 0 (clear, add),
  case B when t mod 3 = 1 (add) and case C when t mod 3 = 2 (add, write out).
-/
import proofs.«174643_j41497974014138_1_alg».proof.Proof.Gen.Kernel.Launch
import proofs.«174643_j41497974014138_1_alg».proof.Proof.Gen.Kernel.Skeleton
import proofs.«174643_j41497974014138_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, decided over the grid -/

/-- "k = 0": the accumulator is cleared. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 3 = 0 :=
  (by decide +kernel : ∀ t : Fin grid1.N, cond1_0 (grid1.coords t) ↔ t.val % 3 = 0)

/-- "k = 2": the accumulator is written out. -/
abbrev cond1_1 (i : grid1.Coords) : Prop := k1_cond2 i = 1#1
theorem hcond1_1 : ∀ t : Fin cfg1.N, cond1_1 (grid1.coords t) ↔ t.val % 3 = 2 :=
  (by decide +kernel : ∀ t : Fin grid1.N, cond1_1 (grid1.coords t) ↔ t.val % 3 = 2)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
theorem liveAt1_2_C : ∀ t : Fin cfg1.N, ¬cond1_0 (grid1.coords t) → cond1_1 (grid1.coords t) → cfg1.idle 2 (grid1.coords t) = false := by decide +kernel

/-! ## The memrefs the body is called with -/

abbrev VO1_2 : View sig .tc .vmem S1024x1024 .bf16 := (Memref.whole cc1_stg2_0 : Memref sig .tc .vmem S1024x1024 .bf16).view
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .bf16 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1_0 : Memref sig .tc .vmem S1024x1024 .f32 := Memref.whole cc1_scratch0
abbrev VS1_0 : View sig .tc .vmem S1024x1024 .f32 := scM1_0.view

/-! ## The body in each case: the pieces its stores leave, found by running it -/

set_option maxHeartbeats 1000000 in
/-- Case A (k = 0): both inputs read; the output block untouched; the accumulator, found at anything, ends
    with two stores (the clearing, then the first partial sum). -/
noncomputable def kernelRun1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : cond1_0 i) (hc1 : ¬cond1_1 i)
    (x0 : Vec F S1024x1024 .bf16) (x1 : Vec F S1024x1024 .bf16) :
    Σ' (L2 : List (View.Piece (Elt F) S1024x1024 .bf16)), { LS0 : List (View.Piece (Elt F) S1024x1024 .f32) //
      ∀ (xi2 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg3 harg3 arg4 harg4 arg5 harg5 arg6 harg6) K } := by
  refine ⟨[], ?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- Case B (k = 1): both inputs read; the output block untouched; the accumulator, found at the running sum
    `xs0`, ends with one store (the running sum plus this point's product). -/
noncomputable def kernelRun1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond1_0 i) (hc1 : ¬cond1_1 i)
    (x0 : Vec F S1024x1024 .bf16) (x1 : Vec F S1024x1024 .bf16) (xs0 : Vec F S1024x1024 .f32) :
    Σ' (L2 : List (View.Piece (Elt F) S1024x1024 .bf16)), { LS0 : List (View.Piece (Elt F) S1024x1024 .f32) //
      ∀ (xi2 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg3 harg3 arg4 harg4 arg5 harg5 arg6 harg6) K } := by
  refine ⟨[], ?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- Case C (k = 2): both inputs read; the accumulator, found at the running sum `xs0`, ends with one store;
    the output block, found at anything, ends with one store (the finished sum). -/
noncomputable def kernelRun1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond1_0 i) (hc1 : cond1_1 i)
    (x0 : Vec F S1024x1024 .bf16) (x1 : Vec F S1024x1024 .bf16) (xs0 : Vec F S1024x1024 .f32) :
    Σ' (L2 : List (View.Piece (Elt F) S1024x1024 .bf16)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg3 harg3 arg4 harg4 arg5 harg5 arg6 harg6) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Gen

end
-- ==== Proof.KB.Frame1.lean ====
/-
  Region 1: what its output block and its accumulator hold after each grid point, the proof data of the pipeline, and the
  body obligation at every point. The accumulator is carried from a point to the next: after a point of case A it holds
  the first partial sum, after a point of case B or C the running sum of the point before plus this point's product; the
  output block is stored at the points of case C only (elsewhere the window is idle and is not written back).
-/
import proofs.«174643_j41497974014138_1_alg».proof.Proof.KB.Body1

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The scoped buffers other than this region's staging buffers and its accumulator (the other regions' own), each at some
    contents: carried through the region unopened. -/
abbrev restS1 (c : Dev nD) : sProp 𝕄 :=
  Pipeline.scopedRestBut (Ix := Unit) (Name := ℕ) (U := UR sig nD τ) (Lvl := ℕ) (Val := Elt F) spec1 c [cc1_scratch0]

/-- The region's untracked invariant with the accumulator split out as a memref owned at some contents. -/
theorem PhiA1_eq (c : Dev nD) :
    (Pipeline.ΦA spec1 c : sProp 𝕄)
      = iprop(iprop((∃ d, owns (c : Thread nD τ) scM1_0 fullShare d) ∗ restS1 (F := F) c) ∗ (∃ r, prngReg c r)) := by
  unfold Pipeline.ΦA
  rw [Pipeline.scopedRest_split_of_list spec1 c [cc1_scratch0] (by decide) (by decide)]
  simp only [scM1_0, owns_whole, bigSepL]
  try rfl

/-! ## What each case leaves -/

/-- Case A stores nothing into the output block: a placeholder nothing consults. -/
def out1_A_2 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : cond1_0 i) (hc1 : ¬cond1_1 i)
    (x0 : Vec F S1024x1024 .bf16) (x1 : Vec F S1024x1024 .bf16) : Vec F S1024x1024 .bf16 :=
  VO1_2.read (Elt F) (VO1_2.writes (Elt F) VO1_2.junk (kernelRun1_A c i arg3 harg3 arg4 harg4 arg5 harg5 arg6 harg6 hc0 hc1 x0 x1).1)
theorem scover1_A_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : cond1_0 i) (hc1 : ¬cond1_1 i)
    (x0 : Vec F S1024x1024 .bf16) (x1 : Vec F S1024x1024 .bf16) (y : S1024x1024.Idx) :
    ∃ pc ∈ (kernelRun1_A c i arg3 harg3 arg4 harg4 arg5 harg5 arg6 harg6 hc0 hc1 x0 x1).2.1, y ∈ pc.1.set :=
  View.cover_of_tiledL (kernelRun1_A c i arg3 harg3 arg4 harg4 arg5 harg5 arg6 harg6 hc0 hc1 x0 x1).2.1 S1024x1024.size (by sl_kernel_rfl) y
/-- What case A leaves in the accumulator. -/
def sout1_A_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : cond1_0 i) (hc1 : ¬cond1_1 i)
    (x0 : Vec F S1024x1024 .bf16) (x1 : Vec F S1024x1024 .bf16) : Vec F S1024x1024 .f32 :=
  VS1_0.read (Elt F) (VS1_0.writes (Elt F) VS1_0.junk (kernelRun1_A c i arg3 harg3 arg4 harg4 arg5 harg5 arg6 harg6 hc0 hc1 x0 x1).2.1)

/-- Case B stores nothing into the output block: a placeholder nothing consults. -/
def out1_B_2 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond1_0 i) (hc1 : ¬cond1_1 i)
    (x0 : Vec F S1024x1024 .bf16) (x1 : Vec F S1024x1024 .bf16) (xs0 : Vec F S1024x1024 .f32) : Vec F S1024x1024 .bf16 :=
  VO1_2.read (Elt F) (VO1_2.writes (Elt F) VO1_2.junk (kernelRun1_B c i arg3 harg3 arg4 harg4 arg5 harg5 arg6 harg6 hc0 hc1 x0 x1 xs0).1)
theorem scover1_B_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond1_0 i) (hc1 : ¬cond1_1 i)
    (x0 : Vec F S1024x1024 .bf16) (x1 : Vec F S1024x1024 .bf16) (xs0 : Vec F S1024x1024 .f32) (y : S1024x1024.Idx) :
    ∃ pc ∈ (kernelRun1_B c i arg3 harg3 arg4 harg4 arg5 harg5 arg6 harg6 hc0 hc1 x0 x1 xs0).2.1, y ∈ pc.1.set :=
  View.cover_of_tiledL (kernelRun1_B c i arg3 harg3 arg4 harg4 arg5 harg5 arg6 harg6 hc0 hc1 x0 x1 xs0).2.1 S1024x1024.size (by sl_kernel_rfl) y
/-- What case B leaves in the accumulator. -/
def sout1_B_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond1_0 i) (hc1 : ¬cond1_1 i)
    (x0 : Vec F S1024x1024 .bf16) (x1 : Vec F S1024x1024 .bf16) (xs0 : Vec F S1024x1024 .f32) : Vec F S1024x1024 .f32 :=
  VS1_0.read (Elt F) (VS1_0.writes (Elt F) VS1_0.junk (kernelRun1_B c i arg3 harg3 arg4 harg4 arg5 harg5 arg6 harg6 hc0 hc1 x0 x1 xs0).2.1)

theorem cover1_C_2 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond1_0 i) (hc1 : cond1_1 i)
    (x0 : Vec F S1024x1024 .bf16) (x1 : Vec F S1024x1024 .bf16) (xs0 : Vec F S1024x1024 .f32) (y : S1024x1024.Idx) :
    ∃ pc ∈ (kernelRun1_C c i arg3 harg3 arg4 harg4 arg5 harg5 arg6 harg6 hc0 hc1 x0 x1 xs0).1, y ∈ pc.1.set :=
  View.cover_of_tiledL (kernelRun1_C c i arg3 harg3 arg4 harg4 arg5 harg5 arg6 harg6 hc0 hc1 x0 x1 xs0).1 S1024x1024.size (by sl_kernel_rfl) y
/-- What case C leaves in the output block. -/
def out1_C_2 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond1_0 i) (hc1 : cond1_1 i)
    (x0 : Vec F S1024x1024 .bf16) (x1 : Vec F S1024x1024 .bf16) (xs0 : Vec F S1024x1024 .f32) : Vec F S1024x1024 .bf16 :=
  VO1_2.read (Elt F) (VO1_2.writes (Elt F) VO1_2.junk (kernelRun1_C c i arg3 harg3 arg4 harg4 arg5 harg5 arg6 harg6 hc0 hc1 x0 x1 xs0).1)
theorem scover1_C_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond1_0 i) (hc1 : cond1_1 i)
    (x0 : Vec F S1024x1024 .bf16) (x1 : Vec F S1024x1024 .bf16) (xs0 : Vec F S1024x1024 .f32) (y : S1024x1024.Idx) :
    ∃ pc ∈ (kernelRun1_C c i arg3 harg3 arg4 harg4 arg5 harg5 arg6 harg6 hc0 hc1 x0 x1 xs0).2.1, y ∈ pc.1.set :=
  View.cover_of_tiledL (kernelRun1_C c i arg3 harg3 arg4 harg4 arg5 harg5 arg6 harg6 hc0 hc1 x0 x1 xs0).2.1 S1024x1024.size (by sl_kernel_rfl) y
/-- What case C leaves in the accumulator. -/
def sout1_C_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond1_0 i) (hc1 : cond1_1 i)
    (x0 : Vec F S1024x1024 .bf16) (x1 : Vec F S1024x1024 .bf16) (xs0 : Vec F S1024x1024 .f32) : Vec F S1024x1024 .f32 :=
  VS1_0.read (Elt F) (VS1_0.writes (Elt F) VS1_0.junk (kernelRun1_C c i arg3 harg3 arg4 harg4 arg5 harg5 arg6 harg6 hc0 hc1 x0 x1 xs0).2.1)

/-! ## Point by point -/

/-- The output block and the accumulator after the body at position `n`: the case `n mod 3` selects, run on the point's
    input blocks, cases B and C over the accumulator the point before left. -/
def outsAt1 (c : Dev nD) : (n : ℕ) → n < cfg1.N → Vec F S1024x1024 .bf16 × Vec F S1024x1024 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 3 = 0 then
      if h1 : (n + 1) % 3 = 2 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 3 = 2 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 3 = 0) (h1 : ¬t.val % 3 = 2) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 3 = 0) (h1 : ¬t.val % 3 = 2) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 3 = 0) (h1 : t.val % 3 = 2) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point every scoped buffer at anything; afterwards the
    accumulator at what the point before left, and the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ restS1 (F := F) c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare ((outsAt1 V c n hn).2) ∗ restS1 (F := F) c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ restS1 (F := F) c) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' buffers hold their blocks; `t mod 3` says which case the point is in; the
    invariant hands the body the accumulator at what the point before left (at anything at the first point) and takes
    it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 27 := lt_of_lt_of_eq t.isLt (show cfg1.N = 27 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 3 = 0
  · by_cases h1 : t.val % 3 = 2
    · exfalso; omega
    · rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, Hrest⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A_0 c _ _ _ _ _ _ _ _ _ _ _ _ _)
            iexact Hrest
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨HS0, Hrest⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A_0 c _ _ _ _ _ _ _ _ _ _ _ _ _)
            iexact Hrest
          iexact Hg
        isplitl [Ho]; · iexact Ho
        isplitl [H0]; · iexact H0
        isplitl [H1]; · iexact H1
        iexists _; iexact H2
  · have hz : t.val ≠ 0 := fun hz => h0 (by rw [hz])
    by_cases h1 : t.val % 3 = 2
    · rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      rw [PhiS1_castSucc V c t, PhiS1_pos V c _ _ hz]
      iintro ⟨⟨⟨HS0, Hrest⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_C_0 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      rw [PhiS1_castSucc V c t, PhiS1_pos V c _ _ hz]
      iintro ⟨⟨⟨HS0, Hrest⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_B_0 c _ _ _ _ _ _ _ _ _ _ _ _ _ _)
          iexact Hrest
        iexact Hg
      isplitl [Ho]; · iexact Ho
      isplitl [H0]; · iexact H0
      isplitl [H1]; · iexact H1
      iexists _; iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the untracked one back. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hrest⟩, Hg⟩
  isplitl [HS0 Hrest]
  · isplitl [HS0]
    · iexists _; iexact HS0
    iexact Hrest
  iexact Hg

theorem hout1 (c : Dev nD) : (dat1 V c).Φ (Fin.last cfg1.N) ⊢ Pipeline.ΦA spec1 c :=
  Phi_out1 V c _ (by rw [Fin.val_last]; have : cfg1.N = 27 := N_1; omega)

end Region1

end Cert.Kernel.Gen

end
-- ==== Proof.KB.Body2.lean ====
/-
  Region 2 of the program (one tiled matrix product): the kernel body run in each of its three control cases.
  The grid is (i, j, k) with k innermost; the body keeps a running sum in a scratch accumulator: at k = 0 it first
  clears the accumulator, at every k it adds the product of the two current input blocks, and at the last k it
  copies the accumulator into the output block. So a grid point t is in case A when t mod 3 = 0 (clear, add),
  case B when t mod 3 = 1 (add) and case C when t mod 3 = 2 (add, write out).
-/
import proofs.«174643_j41497974014138_1_alg».proof.Proof.Gen.Kernel.Launch
import proofs.«174643_j41497974014138_1_alg».proof.Proof.Gen.Kernel.Skeleton
import proofs.«174643_j41497974014138_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, decided over the grid -/

/-- "k = 0": the accumulator is cleared. -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 3 = 0 :=
  (by decide +kernel : ∀ t : Fin grid2.N, cond2_0 (grid2.coords t) ↔ t.val % 3 = 0)

/-- "k = 2": the accumulator is written out. -/
abbrev cond2_1 (i : grid2.Coords) : Prop := k2_cond2 i = 1#1
theorem hcond2_1 : ∀ t : Fin cfg2.N, cond2_1 (grid2.coords t) ↔ t.val % 3 = 2 :=
  (by decide +kernel : ∀ t : Fin grid2.N, cond2_1 (grid2.coords t) ↔ t.val % 3 = 2)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem idleAt2_2_A : ∀ t : Fin cfg2.N, cond2_0 (grid2.coords t) → ¬cond2_1 (grid2.coords t) → cfg2.idle 2 (grid2.coords t) = true := by decide +kernel
theorem noFlush2_2_A : ∀ t : Fin cfg2.N, cond2_0 (grid2.coords t) → ¬cond2_1 (grid2.coords t) → (cfg2.win 2).flush t = false := by decide +kernel
theorem idleAt2_2_B : ∀ t : Fin cfg2.N, ¬cond2_0 (grid2.coords t) → ¬cond2_1 (grid2.coords t) → cfg2.idle 2 (grid2.coords t) = true := by decide +kernel
theorem noFlush2_2_B : ∀ t : Fin cfg2.N, ¬cond2_0 (grid2.coords t) → ¬cond2_1 (grid2.coords t) → (cfg2.win 2).flush t = false := by decide +kernel
theorem liveAt2_2_C : ∀ t : Fin cfg2.N, ¬cond2_0 (grid2.coords t) → cond2_1 (grid2.coords t) → cfg2.idle 2 (grid2.coords t) = false := by decide +kernel

/-! ## The memrefs the body is called with -/

abbrev VO2_2 : View sig .tc .vmem S1024x1024 .f32 := (Memref.whole cc2_stg2_0 : Memref sig .tc .vmem S1024x1024 .f32).view
abbrev ms2_0 (t : Fin cfg2.N) : Memref sig .tc .vmem S1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1024 .f32 := win2_2.stage (cfg2.slots t 2)
abbrev hs2_2 (t : Fin cfg2.N) : (ms2_2 t).IsWhole := hstage2_2 ((cfg2.slots t 2).cast nbuf2_2)
/-- The accumulator: a whole scoped buffer of the kernel's own. -/
abbrev scM2_0 : Memref sig .tc .vmem S1024x1024 .f32 := Memref.whole cc2_scratch0
abbrev VS2_0 : View sig .tc .vmem S1024x1024 .f32 := scM2_0.view

/-! ## The body in each case: the pieces its stores leave, found by running it -/

set_option maxHeartbeats 1000000 in
/-- Case A (k = 0): both inputs read; the output block untouched; the accumulator, found at anything, ends
    with two stores (the clearing, then the first partial sum). -/
noncomputable def kernelRun2_A (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond2_0 i) (hc1 : ¬cond2_1 i)
    (x0 : Vec F S1024x1024 .bf16) (x1 : Vec F S1024x1024 .bf16) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc2__matmul_kernel i arg3 harg3 arg4 harg4 arg5 harg5 arg6 harg6) K } := by
  refine ⟨[], ?_, fun xi2 E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- Case B (k = 1): both inputs read; the output block untouched; the accumulator, found at the running sum
    `xs0`, ends with one store (the running sum plus this point's product). -/
noncomputable def kernelRun2_B (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond2_0 i) (hc1 : ¬cond2_1 i)
    (x0 : Vec F S1024x1024 .bf16) (x1 : Vec F S1024x1024 .bf16) (xs0 : Vec F S1024x1024 .f32) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc2__matmul_kernel i arg3 harg3 arg4 harg4 arg5 harg5 arg6 harg6) K } := by
  refine ⟨[], ?_, fun xi2 E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- Case C (k = 2): both inputs read; the accumulator, found at the running sum `xs0`, ends with one store;
    the output block, found at anything, ends with one store (the finished sum). -/
noncomputable def kernelRun2_C (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond2_0 i) (hc1 : cond2_1 i)
    (x0 : Vec F S1024x1024 .bf16) (x1 : Vec F S1024x1024 .bf16) (xs0 : Vec F S1024x1024 .f32) :
    Σ' (L2 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc2__matmul_kernel i arg3 harg3 arg4 harg4 arg5 harg5 arg6 harg6) K } := by
  refine ⟨?_, ?_, fun E K => ?run⟩
  case run =>
    simp only [cc2__matmul_kernel_eq_skeleton]; unfold cc2__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Gen

end
-- ==== Proof.KB.Frame2.lean ====
/-
  Region 2: what its output block and its accumulator hold after each grid point, the proof data of the pipeline, and the
  body obligation at every point. The accumulator is carried from a point to the next: after a point of case A it holds
  the first partial sum, after a point of case B or C the running sum of the point before plus this point's product; the
  output block is stored at the points of case C only (elsewhere the window is idle and is not written back).
-/
import proofs.«174643_j41497974014138_1_alg».proof.Proof.KB.Body2

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The scoped buffers other than this region's staging buffers and its accumulator (the other regions' own), each at some
    contents: carried through the region unopened. -/
abbrev restS2 (c : Dev nD) : sProp 𝕄 :=
  Pipeline.scopedRestBut (Ix := Unit) (Name := ℕ) (U := UR sig nD τ) (Lvl := ℕ) (Val := Elt F) spec2 c [cc2_scratch0]

/-- The region's untracked invariant with the accumulator split out as a memref owned at some contents. -/
theorem PhiA2_eq (c : Dev nD) :
    (Pipeline.ΦA spec2 c : sProp 𝕄)
      = iprop(iprop((∃ d, owns (c : Thread nD τ) scM2_0 fullShare d) ∗ restS2 (F := F) c) ∗ (∃ r, prngReg c r)) := by
  unfold Pipeline.ΦA
  rw [Pipeline.scopedRest_split_of_list spec2 c [cc2_scratch0] (by decide) (by decide)]
  simp only [scM2_0, owns_whole, bigSepL]
  try rfl

/-! ## What each case leaves -/

/-- Case A stores nothing into the output block: a placeholder nothing consults. -/
def out2_A_2 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond2_0 i) (hc1 : ¬cond2_1 i)
    (x0 : Vec F S1024x1024 .bf16) (x1 : Vec F S1024x1024 .bf16) : Vec F S1024x1024 .f32 :=
  VO2_2.read (Elt F) (VO2_2.writes (Elt F) VO2_2.junk (kernelRun2_A c i arg3 harg3 arg4 harg4 arg5 harg5 arg6 harg6 hc0 hc1 x0 x1).1)
theorem scover2_A_0 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond2_0 i) (hc1 : ¬cond2_1 i)
    (x0 : Vec F S1024x1024 .bf16) (x1 : Vec F S1024x1024 .bf16) (y : S1024x1024.Idx) :
    ∃ pc ∈ (kernelRun2_A c i arg3 harg3 arg4 harg4 arg5 harg5 arg6 harg6 hc0 hc1 x0 x1).2.1, y ∈ pc.1.set :=
  View.cover_of_tiledL (kernelRun2_A c i arg3 harg3 arg4 harg4 arg5 harg5 arg6 harg6 hc0 hc1 x0 x1).2.1 S1024x1024.size (by sl_kernel_rfl) y
/-- What case A leaves in the accumulator. -/
def sout2_A_0 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond2_0 i) (hc1 : ¬cond2_1 i)
    (x0 : Vec F S1024x1024 .bf16) (x1 : Vec F S1024x1024 .bf16) : Vec F S1024x1024 .f32 :=
  VS2_0.read (Elt F) (VS2_0.writes (Elt F) VS2_0.junk (kernelRun2_A c i arg3 harg3 arg4 harg4 arg5 harg5 arg6 harg6 hc0 hc1 x0 x1).2.1)

/-- Case B stores nothing into the output block: a placeholder nothing consults. -/
def out2_B_2 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond2_0 i) (hc1 : ¬cond2_1 i)
    (x0 : Vec F S1024x1024 .bf16) (x1 : Vec F S1024x1024 .bf16) (xs0 : Vec F S1024x1024 .f32) : Vec F S1024x1024 .f32 :=
  VO2_2.read (Elt F) (VO2_2.writes (Elt F) VO2_2.junk (kernelRun2_B c i arg3 harg3 arg4 harg4 arg5 harg5 arg6 harg6 hc0 hc1 x0 x1 xs0).1)
theorem scover2_B_0 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond2_0 i) (hc1 : ¬cond2_1 i)
    (x0 : Vec F S1024x1024 .bf16) (x1 : Vec F S1024x1024 .bf16) (xs0 : Vec F S1024x1024 .f32) (y : S1024x1024.Idx) :
    ∃ pc ∈ (kernelRun2_B c i arg3 harg3 arg4 harg4 arg5 harg5 arg6 harg6 hc0 hc1 x0 x1 xs0).2.1, y ∈ pc.1.set :=
  View.cover_of_tiledL (kernelRun2_B c i arg3 harg3 arg4 harg4 arg5 harg5 arg6 harg6 hc0 hc1 x0 x1 xs0).2.1 S1024x1024.size (by sl_kernel_rfl) y
/-- What case B leaves in the accumulator. -/
def sout2_B_0 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond2_0 i) (hc1 : ¬cond2_1 i)
    (x0 : Vec F S1024x1024 .bf16) (x1 : Vec F S1024x1024 .bf16) (xs0 : Vec F S1024x1024 .f32) : Vec F S1024x1024 .f32 :=
  VS2_0.read (Elt F) (VS2_0.writes (Elt F) VS2_0.junk (kernelRun2_B c i arg3 harg3 arg4 harg4 arg5 harg5 arg6 harg6 hc0 hc1 x0 x1 xs0).2.1)

theorem cover2_C_2 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond2_0 i) (hc1 : cond2_1 i)
    (x0 : Vec F S1024x1024 .bf16) (x1 : Vec F S1024x1024 .bf16) (xs0 : Vec F S1024x1024 .f32) (y : S1024x1024.Idx) :
    ∃ pc ∈ (kernelRun2_C c i arg3 harg3 arg4 harg4 arg5 harg5 arg6 harg6 hc0 hc1 x0 x1 xs0).1, y ∈ pc.1.set :=
  View.cover_of_tiledL (kernelRun2_C c i arg3 harg3 arg4 harg4 arg5 harg5 arg6 harg6 hc0 hc1 x0 x1 xs0).1 S1024x1024.size (by sl_kernel_rfl) y
/-- What case C leaves in the output block. -/
def out2_C_2 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond2_0 i) (hc1 : cond2_1 i)
    (x0 : Vec F S1024x1024 .bf16) (x1 : Vec F S1024x1024 .bf16) (xs0 : Vec F S1024x1024 .f32) : Vec F S1024x1024 .f32 :=
  VO2_2.read (Elt F) (VO2_2.writes (Elt F) VO2_2.junk (kernelRun2_C c i arg3 harg3 arg4 harg4 arg5 harg5 arg6 harg6 hc0 hc1 x0 x1 xs0).1)
theorem scover2_C_0 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond2_0 i) (hc1 : cond2_1 i)
    (x0 : Vec F S1024x1024 .bf16) (x1 : Vec F S1024x1024 .bf16) (xs0 : Vec F S1024x1024 .f32) (y : S1024x1024.Idx) :
    ∃ pc ∈ (kernelRun2_C c i arg3 harg3 arg4 harg4 arg5 harg5 arg6 harg6 hc0 hc1 x0 x1 xs0).2.1, y ∈ pc.1.set :=
  View.cover_of_tiledL (kernelRun2_C c i arg3 harg3 arg4 harg4 arg5 harg5 arg6 harg6 hc0 hc1 x0 x1 xs0).2.1 S1024x1024.size (by sl_kernel_rfl) y
/-- What case C leaves in the accumulator. -/
def sout2_C_0 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond2_0 i) (hc1 : cond2_1 i)
    (x0 : Vec F S1024x1024 .bf16) (x1 : Vec F S1024x1024 .bf16) (xs0 : Vec F S1024x1024 .f32) : Vec F S1024x1024 .f32 :=
  VS2_0.read (Elt F) (VS2_0.writes (Elt F) VS2_0.junk (kernelRun2_C c i arg3 harg3 arg4 harg4 arg5 harg5 arg6 harg6 hc0 hc1 x0 x1 xs0).2.1)

/-! ## Point by point -/

/-- The output block and the accumulator after the body at position `n`: the case `n mod 3` selects, run on the point's
    input blocks, cases B and C over the accumulator the point before left. -/
def outsAt2 (c : Dev nD) : (n : ℕ) → n < cfg2.N → Vec F S1024x1024 .f32 × Vec F S1024x1024 .f32
  | 0, hn => (out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 3 = 0 then
      if h1 : (n + 1) % 3 = 2 then
        False.elim (by omega)
      else
        (out2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩))
    else
      if h1 : (n + 1) % 3 = 2 then
        (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
      else
        (out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

theorem outsAt2_A (c : Dev nD) (t : Fin cfg2.N) (h0 : t.val % 3 = 0) (h1 : ¬t.val % 3 = 2) :
    outsAt2 V c t.val t.isLt = (out2_A_2 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t), sout2_A_0 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans ((dif_neg h1).trans rfl)

theorem outsAt2_B (c : Dev nD) (t : Fin cfg2.N) (h0 : ¬t.val % 3 = 0) (h1 : ¬t.val % 3 = 2) :
    outsAt2 V c t.val t.isLt = (out2_B_2 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 3 = 0) (h1 : t.val % 3 = 2) :
    outsAt2 V c t.val t.isLt = (out2_C_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point every scoped buffer at anything; afterwards the
    accumulator at what the point before left, and the generator register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ restS2 (F := F) c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2_0 fullShare ((outsAt2 V c n hn).2) ∗ restS2 (F := F) c) ∗ (∃ r, prngReg c r)) := rfl
theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ restS2 (F := F) c) ∗ (∃ r, prngReg c r)) := by
  cases n with
  | zero => exact absurd rfl hz
  | succ n => rfl

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the inputs' buffers hold their blocks; `t mod 3` says which case the point is in; the
    invariant hands the body the accumulator at what the point before left (at anything at the first point) and takes
    it back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 144 := lt_of_lt_of_eq t.isLt (show cfg2.N = 144 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  by_cases h0 : t.val % 3 = 0
  · by_cases h1 : t.val % 3 = 2
    · exfalso; omega
    · rw [Dat.leavesExact_idle (dat2 V c) 2 t (idleAt2_2_A t ((hcond2_0 t).mpr h0) (fun h => h1 ((hcond2_1 t).mp h))) (noFlush2_2_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        iintro ⟨⟨⟨HS0, Hrest⟩, Hg⟩, Ho, ⟨%d0, H0⟩, ⟨%d1, H1⟩, ⟨%d2, H2⟩⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover2_A_0 c _ _ _ _ _ _ _ _ _ _ _ _ _)
            iexact Hrest
          iexact Hg
        isplitl [Ho]; · iexact Ho
        isplitl [H0]; · iexact H0
        isplitl [H1]; · iexact H1
        iexists _; iexact H2
      · rw [PhiS2_castSucc V c t, PhiS2_pos V c _ _ hz]
        iintro ⟨⟨⟨HS0, Hrest⟩, Hg⟩, Ho, ⟨%d0, H0⟩, ⟨%d1, H1⟩, ⟨%d2, H2⟩⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover2_A_0 c _ _ _ _ _ _ _ _ _ _ _ _ _)
            iexact Hrest
          iexact Hg
        isplitl [Ho]; · iexact Ho
        isplitl [H0]; · iexact H0
        isplitl [H1]; · iexact H1
        iexists _; iexact H2
  · have hz : t.val ≠ 0 := fun hz => h0 (by rw [hz])
    by_cases h1 : t.val % 3 = 2
    · rw [show (dat2 V c).leavesExact 2 t = owns (c : Thread nD τ) (ms2_2 t) fullShare ((dat2 V c).after 2 t) from by
        unfold Dat.leavesExact; rw [liveAt2_2_C t (fun h => h0 ((hcond2_0 t).mp h)) ((hcond2_1 t).mpr h1)], after2_2]
      rw [outsAt2_C V c t h0 h1]
      unfold out2_C_2 sout2_C_0; (try dsimp only)
      rw [PhiS2_castSucc V c t, PhiS2_pos V c _ _ hz]
      iintro ⟨⟨⟨HS0, Hrest⟩, Hg⟩, Ho, ⟨%d0, H0⟩, ⟨%d1, H1⟩, ⟨%d2, H2⟩⟩
      iapply ((kernelRun2_C c (grid2.coords t) _ _ _ _ _ _ _ _ (fun h => h0 ((hcond2_0 t).mp h)) ((hcond2_1 t).mpr h1) (iblk2 V c 0 t) (iblk2 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_C_0 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_C_2 c _ _ _ _ _ _ _ _ _ _ _ _ _ _)
    · rw [Dat.leavesExact_idle (dat2 V c) 2 t (idleAt2_2_B t (fun h => h0 ((hcond2_0 t).mp h)) (fun h => h1 ((hcond2_1 t).mp h))) (noFlush2_2_B t (fun h => h0 ((hcond2_0 t).mp h)) (fun h => h1 ((hcond2_1 t).mp h)))]
      rw [outsAt2_B V c t h0 h1]
      unfold sout2_B_0; (try dsimp only)
      rw [PhiS2_castSucc V c t, PhiS2_pos V c _ _ hz]
      iintro ⟨⟨⟨HS0, Hrest⟩, Hg⟩, Ho, ⟨%d0, H0⟩, ⟨%d1, H1⟩, ⟨%d2, H2⟩⟩
      iapply ((kernelRun2_B c (grid2.coords t) _ _ _ _ _ _ _ _ (fun h => h0 ((hcond2_0 t).mp h)) (fun h => h1 ((hcond2_1 t).mp h)) (iblk2 V c 0 t) (iblk2 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_B_0 c _ _ _ _ _ _ _ _ _ _ _ _ _ _)
          iexact Hrest
        iexact Hg
      isplitl [Ho]; · iexact Ho
      isplitl [H0]; · iexact H0
      isplitl [H1]; · iexact H1
      iexists _; iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the untracked one back. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hrest⟩, Hg⟩
  isplitl [HS0 Hrest]
  · isplitl [HS0]
    · iexists _; iexact HS0
    iexact Hrest
  iexact Hg

theorem hout2 (c : Dev nD) : (dat2 V c).Φ (Fin.last cfg2.N) ⊢ Pipeline.ΦA spec2 c :=
  Phi_out2 V c _ (by rw [Fin.val_last]; have : cfg2.N = 144 := N_2; omega)

end Region2

end Cert.Kernel.Gen

end
-- ==== Proof.KB.Run.lean ====
/-
  The whole program's run: the contents of every unscoped buffer at each boundary between two items of the program (a
  stretch of host operations, or one of the three tiled matrix products), the three regions as segments over the thread
  state "every unscoped buffer at the boundary's contents, the generator register at some state, nothing owed", and the
  run itself: every weakly fair execution terminates with every unscoped buffer at the last boundary's contents.
-/
import proofs.«174643_j41497974014138_1_alg».proof.Proof.KB.Frame0
import proofs.«174643_j41497974014138_1_alg».proof.Proof.KB.Frame1
import proofs.«174643_j41497974014138_1_alg».proof.Proof.KB.Frame2
import proofs.«174643_j41497974014138_1_alg».proof.Proof.Gen.Kernel.Regions
import Idealize.ShloMosaic.Lib.Pipeline.RegionsLoop

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- After the six host stretches before region 0 (the scaled factor, the Kronecker product and their conversions). -/
abbrev Wq6 (c : Dev nD) : Valuation τ sig (Elt F) := V6 m c
abbrev Rd6 : (c : Dev nD) → (b : Ref sig .tc) → Buf (Elt F) ((c : Thread nD τ).loc b) := fun c b => Wq6 m c b

/-- After region 0: its arrays at what its write-backs leave (the inputs as entered, the output every block written),
    every other buffer as entered. -/
def Wq7 (c : Dev nD) : Valuation τ sig (Elt F) :=
  Pipeline.withArrays spec0 c (Wq6 m c) fun w => (dat0 (Rd6 m) c).arrAt w cfg0.N
theorem Wq7_arr (c : Dev nD) (w : Fin cfg0.W) :
    Wq7 m c (Proc.devRef .tc (Pipeline.arrRef spec0 w)) = (dat0 (Rd6 m) c).arrAt w cfg0.N := by
  unfold Wq7; exact Pipeline.withArrays_arr spec0 launch0.win.arr_inj c _ _ w
theorem Wq7_of_ne (c : Dev nD) (b : Ref sig .tc) (hb : ∀ w, Pipeline.arrRef spec0 w ≠ b) :
    Wq7 m c (Proc.devRef .tc b) = Wq6 m c (Proc.devRef .tc b) := by
  unfold Wq7; exact Pipeline.withArrays_of_ne spec0 c _ _ b hb
/-- The same read at the TensorCore's references. -/
abbrev Rd7 : (c : Dev nD) → (b : Ref sig .tc) → Buf (Elt F) ((c : Thread nD τ).loc b) := fun c b => Wq7 m c b
theorem hF0 (c : Dev nD) (w : Fin cfg0.W) : (dat0 (Rd6 m) c).arrAt w cfg0.N = Rd7 m c (Pipeline.arrRef spec0 w) :=
  (Wq7_arr m c w).symm
theorem hrest0 (c : Dev nD) : ∀ b, b ∉ Finset.univ.image (Pipeline.arrRef spec0) → Rd7 m c b = Rd6 m c b :=
  fun b hb => Wq7_of_ne m c b fun w e => hb (Finset.mem_image.mpr ⟨w, Finset.mem_univ _, e⟩)

/-- After region 1: its arrays at what its write-backs leave (the inputs as entered, the output every block written),
    every other buffer as entered. -/
def Wq8 (c : Dev nD) : Valuation τ sig (Elt F) :=
  Pipeline.withArrays spec1 c (Wq7 m c) fun w => (dat1 (Rd7 m) c).arrAt w cfg1.N
theorem Wq8_arr (c : Dev nD) (w : Fin cfg1.W) :
    Wq8 m c (Proc.devRef .tc (Pipeline.arrRef spec1 w)) = (dat1 (Rd7 m) c).arrAt w cfg1.N := by
  unfold Wq8; exact Pipeline.withArrays_arr spec1 launch1.win.arr_inj c _ _ w
theorem Wq8_of_ne (c : Dev nD) (b : Ref sig .tc) (hb : ∀ w, Pipeline.arrRef spec1 w ≠ b) :
    Wq8 m c (Proc.devRef .tc b) = Wq7 m c (Proc.devRef .tc b) := by
  unfold Wq8; exact Pipeline.withArrays_of_ne spec1 c _ _ b hb
/-- The same read at the TensorCore's references. -/
abbrev Rd8 : (c : Dev nD) → (b : Ref sig .tc) → Buf (Elt F) ((c : Thread nD τ).loc b) := fun c b => Wq8 m c b
theorem hF1 (c : Dev nD) (w : Fin cfg1.W) : (dat1 (Rd7 m) c).arrAt w cfg1.N = Rd8 m c (Pipeline.arrRef spec1 w) :=
  (Wq8_arr m c w).symm
theorem hrest1 (c : Dev nD) : ∀ b, b ∉ Finset.univ.image (Pipeline.arrRef spec1) → Rd8 m c b = Rd7 m c b :=
  fun b hb => Wq8_of_ne m c b fun w e => hb (Finset.mem_image.mpr ⟨w, Finset.mem_univ _, e⟩)

/-- After the host stretch between regions 1 and 2 (the activations flattened to rows). -/
abbrev Wq9 (c : Dev nD) : Valuation τ sig (Elt F) := StableHlo.after hostOps2 (Wq8 m c)
abbrev Rd9 : (c : Dev nD) → (b : Ref sig .tc) → Buf (Elt F) ((c : Thread nD τ).loc b) := fun c b => Wq9 m c b

/-- After region 2: its arrays at what its write-backs leave (the inputs as entered, the output every block written),
    every other buffer as entered. -/
def Wq10 (c : Dev nD) : Valuation τ sig (Elt F) :=
  Pipeline.withArrays spec2 c (Wq9 m c) fun w => (dat2 (Rd9 m) c).arrAt w cfg2.N
theorem Wq10_arr (c : Dev nD) (w : Fin cfg2.W) :
    Wq10 m c (Proc.devRef .tc (Pipeline.arrRef spec2 w)) = (dat2 (Rd9 m) c).arrAt w cfg2.N := by
  unfold Wq10; exact Pipeline.withArrays_arr spec2 launch2.win.arr_inj c _ _ w
theorem Wq10_of_ne (c : Dev nD) (b : Ref sig .tc) (hb : ∀ w, Pipeline.arrRef spec2 w ≠ b) :
    Wq10 m c (Proc.devRef .tc b) = Wq9 m c (Proc.devRef .tc b) := by
  unfold Wq10; exact Pipeline.withArrays_of_ne spec2 c _ _ b hb
/-- The same read at the TensorCore's references. -/
abbrev Rd10 : (c : Dev nD) → (b : Ref sig .tc) → Buf (Elt F) ((c : Thread nD τ).loc b) := fun c b => Wq10 m c b
theorem hF2 (c : Dev nD) (w : Fin cfg2.W) : (dat2 (Rd9 m) c).arrAt w cfg2.N = Rd10 m c (Pipeline.arrRef spec2 w) :=
  (Wq10_arr m c w).symm
theorem hrest2 (c : Dev nD) : ∀ b, b ∉ Finset.univ.image (Pipeline.arrRef spec2) → Rd10 m c b = Rd9 m c b :=
  fun b hb => Wq10_of_ne m c b fun w e => hb (Finset.mem_image.mpr ⟨w, Finset.mem_univ _, e⟩)

/-- After the last host stretch (the result reshaped and scaled by one). -/
abbrev Wq11 (c : Dev nD) : Valuation τ sig (Elt F) := StableHlo.after hostOps3 (Wq10 m c)

/-- A buffer that no host operation writes and that is no region's array ends as launched. -/
theorem Wq11_kept (c : Dev nD) (r : Ref sig .tc) (h3 : r ∉ hostOps3_W) (hr2 : ∀ w, Pipeline.arrRef spec2 w ≠ r) (h2 : r ∉ hostOps2_W)
    (hr1 : ∀ w, Pipeline.arrRef spec1 w ≠ r) (hr0 : ∀ w, Pipeline.arrRef spec0 w ≠ r)
    (h05 : r ∉ hostOps0_5_W) (h04 : r ∉ hostOps0_4_W) (h03 : r ∉ hostOps0_3_W) (h02 : r ∉ hostOps0_2_W) (h01 : r ∉ hostOps0_1_W) (h00 : r ∉ hostOps0_W) :
    Wq11 m c (Proc.devRef .tc r) = m ((c : Thread nD τ).loc r) :=
  (StableHlo.after_of_writes_sub hostOps3 _ hostOps3_writes h3).trans <| (Wq10_of_ne m c r hr2).trans <|
    (StableHlo.after_of_writes_sub hostOps2 _ hostOps2_writes h2).trans <| (Wq8_of_ne m c r hr1).trans <| (Wq7_of_ne m c r hr0).trans <|
    (V6_of m c r h05).trans <| (V5_of m c r h04).trans <| (V4_of m c r h03).trans <| (V3_of m c r h02).trans <| (V2_of m c r h01).trans <| (V1_of m c r h00).trans rfl

/-! ## The proof data family and the thread state -/

def pdatsH : (p : Fin 3) → (c : Dev nD) → Dat τ (Elt F) Unit ℕ (UR sig nD τ) ℕ (Pipeline.pin (pcfgs (F := F)) adm p) c
  | ⟨0, _⟩ => fun c => dat0 (Rd6 m) c
  | ⟨1, _⟩ => fun c => dat1 (Rd7 m) c
  | ⟨2, _⟩ => fun c => dat2 (Rd9 m) c
abbrev 𝒱H : Variants := Variants.none
abbrev LH : GSem nD τ sig → Finset Unit := fun _ => ∅
abbrev lvH : GSem nD τ sig → Unit → ℕ := fun _ _ => 0
/-- What rides beside the buffers through every segment: the generator register at some state, and the core owing nothing. -/
abbrev RH (c : Dev nD) : sProp 𝕄 := iprop((∃ r, prngReg c r) ∗ ∃ W, owes (c : Thread nD τ) (0 : CellTallies nD τ sig Unit) W)
/-- A host stretch as a segment over the unscoped references. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

-- a library lemma stated over a pinned configuration unifies with the printed one only when unification may unfold
-- plain definitions in a metavariable's type
set_option backward.isDefEq.respectTransparency.types false in
/-- Region 0 over the thread state: entered with every unscoped buffer at the contents before it, left with them at the
    contents after it. Its arrays are split out of the unscoped buffers and put back at their final contents; the
    generator register goes into the region's invariant and comes out; nothing is owed. -/
def regH0 : Pipeline.RegionSeg (pcfgs (F := F)) adm (pdatsH m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (Rd6 m) c).loose
  hwaits := Pipeline.hwaits_of_owed_zero _ _ _ _ LH lvH 0 fun _ _ => rfl
  pre c := iprop(StableHlo.held (c : Thread nD τ) (Pipeline.ucRefs τ sig) (Wq6 m c) ∗ RH c)
  post c := iprop(StableHlo.held (c : Thread nD τ) (Pipeline.ucRefs τ sig) (Wq7 m c) ∗ RH c)
  X c := iprop(∃ r, prngReg c r)
  Y c := iprop(∃ r, prngReg c r)
  Z c := Pipeline.unscopedRest (Ix := Unit) (Name := ℕ) (U := UR sig nD τ) (Lvl := ℕ) spec0 c (Rd6 m c)
  hentry c := by
    rw [Pipeline.ownSems0_none]
    have hsplit := Pipeline.arrays_of_unscopedBufs (p := 0) (pcfgs (F := F)) adm (pdatsH m) launch0.win launch0.arr_whole c
      ((pdatsH m 0 c).share_full fun _ => rfl) (Rd6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdatsH m 0 c).Φ (Fin.last _) ⊢ Pipeline.ΦA spec0 c from hout0 (Rd6 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsH m) ((pdatsH m 0 c).share_full fun _ => rfl)
      (Rd6 m c) (Rd7 m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over a pinned configuration unifies with the printed one only when unification may unfold
-- plain definitions in a metavariable's type
set_option backward.isDefEq.respectTransparency.types false in
/-- Region 1 over the thread state: entered with every unscoped buffer at the contents before it, left with them at the
    contents after it. Its arrays are split out of the unscoped buffers and put back at their final contents; the
    generator register goes into the region's invariant and comes out; nothing is owed. -/
def regH1 : Pipeline.RegionSeg (pcfgs (F := F)) adm (pdatsH m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (Rd7 m) c).loose
  hwaits := Pipeline.hwaits_of_owed_zero _ _ _ _ LH lvH 1 fun _ _ => rfl
  pre c := iprop(StableHlo.held (c : Thread nD τ) (Pipeline.ucRefs τ sig) (Wq7 m c) ∗ RH c)
  post c := iprop(StableHlo.held (c : Thread nD τ) (Pipeline.ucRefs τ sig) (Wq8 m c) ∗ RH c)
  X c := iprop(∃ r, prngReg c r)
  Y c := iprop(∃ r, prngReg c r)
  Z c := Pipeline.unscopedRest (Ix := Unit) (Name := ℕ) (U := UR sig nD τ) (Lvl := ℕ) spec1 c (Rd7 m c)
  hentry c := by
    rw [Pipeline.ownSems0_none]
    have hsplit := Pipeline.arrays_of_unscopedBufs (p := 1) (pcfgs (F := F)) adm (pdatsH m) launch1.win launch1.arr_whole c
      ((pdatsH m 1 c).share_full fun _ => rfl) (Rd7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdatsH m 1 c).Φ (Fin.last _) ⊢ Pipeline.ΦA spec1 c from hout1 (Rd7 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsH m) ((pdatsH m 1 c).share_full fun _ => rfl)
      (Rd7 m c) (Rd8 m c) ((pdatsH m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over a pinned configuration unifies with the printed one only when unification may unfold
-- plain definitions in a metavariable's type
set_option backward.isDefEq.respectTransparency.types false in
/-- Region 2 over the thread state: entered with every unscoped buffer at the contents before it, left with them at the
    contents after it. Its arrays are split out of the unscoped buffers and put back at their final contents; the
    generator register goes into the region's invariant and comes out; nothing is owed. -/
def regH2 : Pipeline.RegionSeg (pcfgs (F := F)) adm (pdatsH m) () defs₀ 𝒱H LH lvH 2 where
  win := launch2.win.to₀
  block_pos := launch2.block_pos
  stage_whole := launch2.stage_whole
  K := PEmpty
  osem k := k.elim
  ho := Pipeline.OwnSemFacts.none _
  hbody c := (body_obligation2 (Rd9 m) c).loose
  hwaits := Pipeline.hwaits_of_owed_zero _ _ _ _ LH lvH 2 fun _ _ => rfl
  pre c := iprop(StableHlo.held (c : Thread nD τ) (Pipeline.ucRefs τ sig) (Wq9 m c) ∗ RH c)
  post c := iprop(StableHlo.held (c : Thread nD τ) (Pipeline.ucRefs τ sig) (Wq10 m c) ∗ RH c)
  X c := iprop(∃ r, prngReg c r)
  Y c := iprop(∃ r, prngReg c r)
  Z c := Pipeline.unscopedRest (Ix := Unit) (Name := ℕ) (U := UR sig nD τ) (Lvl := ℕ) spec2 c (Rd9 m c)
  hentry c := by
    rw [Pipeline.ownSems0_none]
    have hsplit := Pipeline.arrays_of_unscopedBufs (p := 2) (pcfgs (F := F)) adm (pdatsH m) launch2.win launch2.arr_whole c
      ((pdatsH m 2 c).share_full fun _ => rfl) (Rd9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdatsH m 2 c).Φ (Fin.last _) ⊢ Pipeline.ΦA spec2 c from hout2 (Rd9 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdatsH m) ((pdatsH m 2 c).share_full fun _ => rfl)
      (Rd9 m c) (Rd10 m c) ((pdatsH m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segsH : List (Pipeline.Seg (pcfgs (F := F)) adm (pdatsH m) () defs₀ 𝒱H LH lvH) :=
  [ .host (hsegH hostOps0 hostOps0_sub hostOps0_fresh (V0 m)),
    .host (hsegH hostOps0_1 hostOps0_1_sub hostOps0_1_fresh (V1 m)),
    .host (hsegH hostOps0_2 hostOps0_2_sub hostOps0_2_fresh (V2 m)),
    .host (hsegH hostOps0_3 hostOps0_3_sub hostOps0_3_fresh (V3 m)),
    .host (hsegH hostOps0_4 hostOps0_4_sub hostOps0_4_fresh (V4 m)),
    .host (hsegH hostOps0_5 hostOps0_5_sub hostOps0_5_fresh (V5 m)),
    .region (regH0 m),
    .region (regH1 m),
    .host (hsegH hostOps2 hostOps2_sub hostOps2_fresh (Wq8 m)),
    .region (regH2 m),
    .host (hsegH hostOps3 hostOps3_sub hostOps3_fresh (Wq10 m)) ]

theorem main_runH (c : Dev nD) : main (F := F) c = Pipeline.Seg.run (segsH m) := (main_chain c).trans (by chain_rfl)

set_option backward.isDefEq.respectTransparency.types false in
/-- THE RUN. From any memory with zero counters every weakly fair execution of the program terminates, nothing
    faulting, and every final state holds every unscoped buffer at the last boundary's contents. -/
theorem run_all {Q : PUnit × MemSt nD τ sig (Elt F) → Prop}
    (hQ : ∀ s : MemSt nD τ sig (Elt F), (∀ c : Dev nD, ∀ b ∈ Pipeline.ucRefs τ sig, s.mem (((c : Thread nD τ)).1, b) = Wq11 m c b) → Q (⟨⟩, s)) :
    θ_run defs (onTc (τ := τ) (main (F := F))) ⟨m, fun _ => 0, ρ⟩ Q :=
  Pipeline.θ_run_regions_kit (pcfgs (F := F)) adm (pdatsH m) () cellOf_inj emb₁ defs₀ 𝒱H LH lvH m ρ main (segsH m)
    (fun c Q => by rw [main_runH m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ RH c))
    (Tₙ := fun c => iprop(StableHlo.held (c : Thread nD τ) (Pipeline.ucRefs τ sig) (Wq11 m c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl,
      fun c => (show iprop(StableHlo.held (c : Thread nD τ) (Pipeline.ucRefs τ sig) (Wq11 m c) ∗ RH c)
          ⊢ iprop(iprop(StableHlo.held (c : Thread nD τ) (Pipeline.ucRefs τ sig) (Wq11 m c) ∗ ∃ r, prngReg c r)
              ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach LH lvH fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wq11 m c b)
    (hfin := fun c s' => by
      iintro ⟨⟨Hh, -⟩, HSI⟩
      unfold StableHlo.held
      imodintro
      iapply (pointsTo_read_all (Pipeline.ucRefs τ sig) (fun b => (((c : Thread nD τ)).1, b)) (Wq11 m c) s')
      isplitl [Hh] <;> iassumption)
    (hQ := hQ)

/-- The frame: every argument array ends as launched. -/
theorem frameH : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  run_all m ρ fun s h c =>
    ⟨(h c _ (mem_ucH main_arg0 (by decide))).trans (Wq11_kept m c main_arg0 (by decide) (by decide) (by decide) (by decide) (by decide) (by decide) (by decide) (by decide) (by decide) (by decide) (by decide)),
     (h c _ (mem_ucH main_arg1 (by decide))).trans (Wq11_kept m c main_arg1 (by decide) (by decide) (by decide) (by decide) (by decide) (by decide) (by decide) (by decide) (by decide) (by decide) (by decide)),
     (h c _ (mem_ucH main_arg2 (by decide))).trans (Wq11_kept m c main_arg2 (by decide) (by decide) (by decide) (by decide) (by decide) (by decide) (by decide) (by decide) (by decide) (by decide) (by decide)),
     (h c _ (mem_ucH main_arg3 (by decide))).trans (Wq11_kept m c main_arg3 (by decide) (by decide) (by decide) (by decide) (by decide) (by decide) (by decide) (by decide) (by decide) (by decide) (by decide)),
     (h c _ (mem_ucH main_arg4 (by decide))).trans (Wq11_kept m c main_arg4 (by decide) (by decide) (by decide) (by decide) (by decide) (by decide) (by decide) (by decide) (by decide) (by decide) (by decide)),
     (h c _ (mem_ucH main_arg5 (by decide))).trans (Wq11_kept m c main_arg5 (by decide) (by decide) (by decide) (by decide) (by decide) (by decide) (by decide) (by decide) (by decide) (by decide) (by decide)),
     (h c _ (mem_ucH main_arg6 (by decide))).trans (Wq11_kept m c main_arg6 (by decide) (by decide) (by decide) (by decide) (by decide) (by decide) (by decide) (by decide) (by decide) (by decide) (by decide)),
     (h c _ (mem_ucH main_arg7 (by decide))).trans (Wq11_kept m c main_arg7 (by decide) (by decide) (by decide) (by decide) (by decide) (by decide) (by decide) (by decide) (by decide) (by decide) (by decide))⟩

end Cert.Kernel.Gen

end
-- ==== Proof.KI.Body0.lean ====
/-
  Region 0 of the program (one tiled matrix product): the kernel body run in each of its three control cases.
  The grid is (i, j, k) with k innermost; the body keeps a running sum in a scratch accumulator: at k = 0 it first
  clears the accumulator, at every k it adds the product of the two current input blocks, and at the last k it
  copies the accumulator into the output block. So a grid point t is in case A when t mod 3 = 0 (clear, add),
  case B when t mod 3 = 1 (add) and case C when t mod 3 = 2 (add, write out).
-/
import proofs.«174643_j41497974014138_1_alg».proof.Proof.Gen.KernelIdeal.Launch
import proofs.«174643_j41497974014138_1_alg».proof.Proof.Gen.KernelIdeal.Skeleton
import proofs.«174643_j41497974014138_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, decided over the grid -/

/-- "k = 0": the accumulator is cleared. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 3 = 0 :=
  (by decide +kernel : ∀ t : Fin grid0.N, cond0_0 (grid0.coords t) ↔ t.val % 3 = 0)

/-- "k = 2": the accumulator is written out. -/
abbrev cond0_1 (i : grid0.Coords) : Prop := k0_cond2 i = 1#1
theorem hcond0_1 : ∀ t : Fin cfg0.N, cond0_1 (grid0.coords t) ↔ t.val % 3 = 2 :=
  (by decide +kernel : ∀ t : Fin grid0.N, cond0_1 (grid0.coords t) ↔ t.val % 3 = 2)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
theorem liveAt0_2_C : ∀ t : Fin cfg0.N, ¬cond0_0 (grid0.coords t) → cond0_1 (grid0.coords t) → cfg0.idle 2 (grid0.coords t) = false := by decide +kernel

/-! ## The memrefs the body is called with -/

abbrev VO0_2 : View sig .tc .vmem S1024x1024 .bf16 := (Memref.whole cc0_stg2_0 : Memref sig .tc .vmem S1024x1024 .bf16).view
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S1024x1024 .f32 := Memref.whole cc0_scratch0
abbrev VS0_0 : View sig .tc .vmem S1024x1024 .f32 := scM0_0.view

/-! ## The body in each case: the pieces its stores leave, found by running it -/

set_option maxHeartbeats 1000000 in
/-- Case A (k = 0): both inputs read; the output block untouched; the accumulator, found at anything, ends
    with two stores (the clearing, then the first partial sum). -/
noncomputable def kernelRun0_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i)
    (x0 : Vec F S1024x1024 .bf16) (x1 : Vec F S1024x1024 .bf16) :
    Σ' (L2 : List (View.Piece (Elt F) S1024x1024 .bf16)), { LS0 : List (View.Piece (Elt F) S1024x1024 .f32) //
      ∀ (xi2 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- Case B (k = 1): both inputs read; the output block untouched; the accumulator, found at the running sum
    `xs0`, ends with one store (the running sum plus this point's product). -/
noncomputable def kernelRun0_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : ¬cond0_1 i)
    (x0 : Vec F S1024x1024 .bf16) (x1 : Vec F S1024x1024 .bf16) (xs0 : Vec F S1024x1024 .f32) :
    Σ' (L2 : List (View.Piece (Elt F) S1024x1024 .bf16)), { LS0 : List (View.Piece (Elt F) S1024x1024 .f32) //
      ∀ (xi2 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- Case C (k = 2): both inputs read; the accumulator, found at the running sum `xs0`, ends with one store;
    the output block, found at anything, ends with one store (the finished sum). -/
noncomputable def kernelRun0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) :
    Σ' (L2 : List (View.Piece (Elt F) S1024x1024 .bf16)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Gen

end
-- ==== Proof.KI.Frame0.lean ====
/-
  Region 0: what its output block and its accumulator hold after each grid point, the proof data of the pipeline, and the
  body obligation at every point. The accumulator is carried from a point to the next: after a point of case A it holds
  the first partial sum, after a point of case B or C the running sum of the point before plus this point's product; the
  output block is stored at the points of case C only (elsewhere the window is idle and is not written back).
-/
import proofs.«174643_j41497974014138_1_alg».proof.Proof.KI.Body0

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The scoped buffers other than this region's staging buffers and its accumulator (the other regions' own), each at some
    contents: carried through the region unopened. -/
abbrev restS0 (c : Dev nD) : sProp 𝕄 :=
  Pipeline.scopedRestBut (Ix := Unit) (Name := ℕ) (U := UR sig nD τ) (Lvl := ℕ) (Val := Elt F) spec0 c [cc0_scratch0]

/-- The region's untracked invariant with the accumulator split out as a memref owned at some contents. -/
theorem PhiA0_eq (c : Dev nD) :
    (Pipeline.ΦA spec0 c : sProp 𝕄)
      = iprop(iprop((∃ d, owns (c : Thread nD τ) scM0_0 fullShare d) ∗ restS0 (F := F) c) ∗ (∃ r, prngReg c r)) := by
  unfold Pipeline.ΦA
  rw [Pipeline.scopedRest_split_of_list spec0 c [cc0_scratch0] (by decide) (by decide)]
  simp only [scM0_0, owns_whole, bigSepL]
  try rfl

/-! ## What each case leaves -/

/-- Case A stores nothing into the output block: a placeholder nothing consults. -/
def out0_A_2 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i)
    (x0 : Vec F S1024x1024 .bf16) (x1 : Vec F S1024x1024 .bf16) : Vec F S1024x1024 .bf16 :=
  VO0_2.read (Elt F) (VO0_2.writes (Elt F) VO0_2.junk (kernelRun0_A c i arg3 harg3 arg4 harg4 arg5 harg5 arg6 harg6 hc0 hc1 x0 x1).1)
theorem scover0_A_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i)
    (x0 : Vec F S1024x1024 .bf16) (x1 : Vec F S1024x1024 .bf16) (y : S1024x1024.Idx) :
    ∃ pc ∈ (kernelRun0_A c i arg3 harg3 arg4 harg4 arg5 harg5 arg6 harg6 hc0 hc1 x0 x1).2.1, y ∈ pc.1.set :=
  View.cover_of_tiledL (kernelRun0_A c i arg3 harg3 arg4 harg4 arg5 harg5 arg6 harg6 hc0 hc1 x0 x1).2.1 S1024x1024.size (by sl_kernel_rfl) y
/-- What case A leaves in the accumulator. -/
def sout0_A_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i)
    (x0 : Vec F S1024x1024 .bf16) (x1 : Vec F S1024x1024 .bf16) : Vec F S1024x1024 .f32 :=
  VS0_0.read (Elt F) (VS0_0.writes (Elt F) VS0_0.junk (kernelRun0_A c i arg3 harg3 arg4 harg4 arg5 harg5 arg6 harg6 hc0 hc1 x0 x1).2.1)

/-- Case B stores nothing into the output block: a placeholder nothing consults. -/
def out0_B_2 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : ¬cond0_1 i)
    (x0 : Vec F S1024x1024 .bf16) (x1 : Vec F S1024x1024 .bf16) (xs0 : Vec F S1024x1024 .f32) : Vec F S1024x1024 .bf16 :=
  VO0_2.read (Elt F) (VO0_2.writes (Elt F) VO0_2.junk (kernelRun0_B c i arg3 harg3 arg4 harg4 arg5 harg5 arg6 harg6 hc0 hc1 x0 x1 xs0).1)
theorem scover0_B_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : ¬cond0_1 i)
    (x0 : Vec F S1024x1024 .bf16) (x1 : Vec F S1024x1024 .bf16) (xs0 : Vec F S1024x1024 .f32) (y : S1024x1024.Idx) :
    ∃ pc ∈ (kernelRun0_B c i arg3 harg3 arg4 harg4 arg5 harg5 arg6 harg6 hc0 hc1 x0 x1 xs0).2.1, y ∈ pc.1.set :=
  View.cover_of_tiledL (kernelRun0_B c i arg3 harg3 arg4 harg4 arg5 harg5 arg6 harg6 hc0 hc1 x0 x1 xs0).2.1 S1024x1024.size (by sl_kernel_rfl) y
/-- What case B leaves in the accumulator. -/
def sout0_B_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : ¬cond0_1 i)
    (x0 : Vec F S1024x1024 .bf16) (x1 : Vec F S1024x1024 .bf16) (xs0 : Vec F S1024x1024 .f32) : Vec F S1024x1024 .f32 :=
  VS0_0.read (Elt F) (VS0_0.writes (Elt F) VS0_0.junk (kernelRun0_B c i arg3 harg3 arg4 harg4 arg5 harg5 arg6 harg6 hc0 hc1 x0 x1 xs0).2.1)

theorem cover0_C_2 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) (y : S1024x1024.Idx) :
    ∃ pc ∈ (kernelRun0_C c i arg3 harg3 arg4 harg4 arg5 harg5 arg6 harg6 hc0 hc1 x0 x1 xs0).1, y ∈ pc.1.set :=
  View.cover_of_tiledL (kernelRun0_C c i arg3 harg3 arg4 harg4 arg5 harg5 arg6 harg6 hc0 hc1 x0 x1 xs0).1 S1024x1024.size (by sl_kernel_rfl) y
/-- What case C leaves in the output block. -/
def out0_C_2 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) : Vec F S1024x1024 .bf16 :=
  VO0_2.read (Elt F) (VO0_2.writes (Elt F) VO0_2.junk (kernelRun0_C c i arg3 harg3 arg4 harg4 arg5 harg5 arg6 harg6 hc0 hc1 x0 x1 xs0).1)
theorem scover0_C_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) (y : S1024x1024.Idx) :
    ∃ pc ∈ (kernelRun0_C c i arg3 harg3 arg4 harg4 arg5 harg5 arg6 harg6 hc0 hc1 x0 x1 xs0).2.1, y ∈ pc.1.set :=
  View.cover_of_tiledL (kernelRun0_C c i arg3 harg3 arg4 harg4 arg5 harg5 arg6 harg6 hc0 hc1 x0 x1 xs0).2.1 S1024x1024.size (by sl_kernel_rfl) y
/-- What case C leaves in the accumulator. -/
def sout0_C_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) : Vec F S1024x1024 .f32 :=
  VS0_0.read (Elt F) (VS0_0.writes (Elt F) VS0_0.junk (kernelRun0_C c i arg3 harg3 arg4 harg4 arg5 harg5 arg6 harg6 hc0 hc1 x0 x1 xs0).2.1)

/-! ## Point by point -/

/-- The output block and the accumulator after the body at position `n`: the case `n mod 3` selects, run on the point's
    input blocks, cases B and C over the accumulator the point before left. -/
def outsAt0 (c : Dev nD) : (n : ℕ) → n < cfg0.N → Vec F S1024x1024 .bf16 × Vec F S1024x1024 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 3 = 0 then
      if h1 : (n + 1) % 3 = 2 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 3 = 2 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 3 = 0) (h1 : ¬t.val % 3 = 2) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 3 = 0) (h1 : ¬t.val % 3 = 2) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 3 = 0) (h1 : t.val % 3 = 2) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point every scoped buffer at anything; afterwards the
    accumulator at what the point before left, and the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ restS0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2) ∗ restS0 (F := F) c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ restS0 (F := F) c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' buffers hold their blocks; `t mod 3` says which case the point is in; the
    invariant hands the body the accumulator at what the point before left (at anything at the first point) and takes
    it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 27 := lt_of_lt_of_eq t.isLt (show cfg0.N = 27 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 3 = 0
  · by_cases h1 : t.val % 3 = 2
    · exfalso; omega
    · rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, Hrest⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A_0 c _ _ _ _ _ _ _ _ _ _ _ _ _)
            iexact Hrest
          iexact Hg
        isplitl [Ho]; · iexact Ho
        isplitl [H0]; · iexact H0
        isplitl [H1]; · iexact H1
        iexists _; iexact H2
      · rw [PhiS0_castSucc V c t, PhiS0_pos V c _ _ hz]
        iintro ⟨⟨⟨HS0, Hrest⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A_0 c _ _ _ _ _ _ _ _ _ _ _ _ _)
            iexact Hrest
          iexact Hg
        isplitl [Ho]; · iexact Ho
        isplitl [H0]; · iexact H0
        isplitl [H1]; · iexact H1
        iexists _; iexact H2
  · have hz : t.val ≠ 0 := fun hz => h0 (by rw [hz])
    by_cases h1 : t.val % 3 = 2
    · rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [outsAt0_C V c t h0 h1]
      unfold out0_C_2 sout0_C_0; (try dsimp only)
      rw [PhiS0_castSucc V c t, PhiS0_pos V c _ _ hz]
      iintro ⟨⟨⟨HS0, Hrest⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_C_0 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold sout0_B_0; (try dsimp only)
      rw [PhiS0_castSucc V c t, PhiS0_pos V c _ _ hz]
      iintro ⟨⟨⟨HS0, Hrest⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_B_0 c _ _ _ _ _ _ _ _ _ _ _ _ _ _)
          iexact Hrest
        iexact Hg
      isplitl [Ho]; · iexact Ho
      isplitl [H0]; · iexact H0
      isplitl [H1]; · iexact H1
      iexists _; iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the untracked one back. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hrest⟩, Hg⟩
  isplitl [HS0 Hrest]
  · isplitl [HS0]
    · iexists _; iexact HS0
    iexact Hrest
  iexact Hg

theorem hout0 (c : Dev nD) : (dat0 V c).Φ (Fin.last cfg0.N) ⊢ Pipeline.ΦA spec0 c :=
  Phi_out0 V c _ (by rw [Fin.val_last]; have : cfg0.N = 27 := N_0; omega)

end Region0

end Cert.KernelIdeal.Gen

end
-- ==== Proof.KI.Body1.lean ====
/-
  Region 1 of the program (one tiled matrix product): the kernel body run in each of its three control cases.
  The grid is (i, j, k) with k innermost; the body keeps a running sum in a scratch accumulator: at k = 0 it first
  clears the accumulator, at every k it adds the product of the two current input blocks, and at the last k it
  copies the accumulator into the output block. So a grid point t is in case A when t mod 3 = 0 (clear, add),
  case B when t mod 3 = 1 (add) and case C when t mod 3 = 2 (add, write out).
-/
import proofs.«174643_j41497974014138_1_alg».proof.Proof.Gen.KernelIdeal.Launch
import proofs.«174643_j41497974014138_1_alg».proof.Proof.Gen.KernelIdeal.Skeleton
import proofs.«174643_j41497974014138_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, decided over the grid -/

/-- "k = 0": the accumulator is cleared. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 3 = 0 :=
  (by decide +kernel : ∀ t : Fin grid1.N, cond1_0 (grid1.coords t) ↔ t.val % 3 = 0)

/-- "k = 2": the accumulator is written out. -/
abbrev cond1_1 (i : grid1.Coords) : Prop := k1_cond2 i = 1#1
theorem hcond1_1 : ∀ t : Fin cfg1.N, cond1_1 (grid1.coords t) ↔ t.val % 3 = 2 :=
  (by decide +kernel : ∀ t : Fin grid1.N, cond1_1 (grid1.coords t) ↔ t.val % 3 = 2)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
theorem liveAt1_2_C : ∀ t : Fin cfg1.N, ¬cond1_0 (grid1.coords t) → cond1_1 (grid1.coords t) → cfg1.idle 2 (grid1.coords t) = false := by decide +kernel

/-! ## The memrefs the body is called with -/

abbrev VO1_2 : View sig .tc .vmem S1024x1024 .bf16 := (Memref.whole cc1_stg2_0 : Memref sig .tc .vmem S1024x1024 .bf16).view
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .bf16 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1_0 : Memref sig .tc .vmem S1024x1024 .f32 := Memref.whole cc1_scratch0
abbrev VS1_0 : View sig .tc .vmem S1024x1024 .f32 := scM1_0.view

/-! ## The body in each case: the pieces its stores leave, found by running it -/

set_option maxHeartbeats 1000000 in
/-- Case A (k = 0): both inputs read; the output block untouched; the accumulator, found at anything, ends
    with two stores (the clearing, then the first partial sum). -/
noncomputable def kernelRun1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : cond1_0 i) (hc1 : ¬cond1_1 i)
    (x0 : Vec F S1024x1024 .bf16) (x1 : Vec F S1024x1024 .bf16) :
    Σ' (L2 : List (View.Piece (Elt F) S1024x1024 .bf16)), { LS0 : List (View.Piece (Elt F) S1024x1024 .f32) //
      ∀ (xi2 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg3 harg3 arg4 harg4 arg5 harg5 arg6 harg6) K } := by
  refine ⟨[], ?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- Case B (k = 1): both inputs read; the output block untouched; the accumulator, found at the running sum
    `xs0`, ends with one store (the running sum plus this point's product). -/
noncomputable def kernelRun1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond1_0 i) (hc1 : ¬cond1_1 i)
    (x0 : Vec F S1024x1024 .bf16) (x1 : Vec F S1024x1024 .bf16) (xs0 : Vec F S1024x1024 .f32) :
    Σ' (L2 : List (View.Piece (Elt F) S1024x1024 .bf16)), { LS0 : List (View.Piece (Elt F) S1024x1024 .f32) //
      ∀ (xi2 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg3 harg3 arg4 harg4 arg5 harg5 arg6 harg6) K } := by
  refine ⟨[], ?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- Case C (k = 2): both inputs read; the accumulator, found at the running sum `xs0`, ends with one store;
    the output block, found at anything, ends with one store (the finished sum). -/
noncomputable def kernelRun1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond1_0 i) (hc1 : cond1_1 i)
    (x0 : Vec F S1024x1024 .bf16) (x1 : Vec F S1024x1024 .bf16) (xs0 : Vec F S1024x1024 .f32) :
    Σ' (L2 : List (View.Piece (Elt F) S1024x1024 .bf16)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg3 harg3 arg4 harg4 arg5 harg5 arg6 harg6) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Gen

end
-- ==== Proof.KI.Frame1.lean ====
/-
  Region 1: what its output block and its accumulator hold after each grid point, the proof data of the pipeline, and the
  body obligation at every point. The accumulator is carried from a point to the next: after a point of case A it holds
  the first partial sum, after a point of case B or C the running sum of the point before plus this point's product; the
  output block is stored at the points of case C only (elsewhere the window is idle and is not written back).
-/
import proofs.«174643_j41497974014138_1_alg».proof.Proof.KI.Body1

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The scoped buffers other than this region's staging buffers and its accumulator (the other regions' own), each at some
    contents: carried through the region unopened. -/
abbrev restS1 (c : Dev nD) : sProp 𝕄 :=
  Pipeline.scopedRestBut (Ix := Unit) (Name := ℕ) (U := UR sig nD τ) (Lvl := ℕ) (Val := Elt F) spec1 c [cc1_scratch0]

/-- The region's untracked invariant with the accumulator split out as a memref owned at some contents. -/
theorem PhiA1_eq (c : Dev nD) :
    (Pipeline.ΦA spec1 c : sProp 𝕄)
      = iprop(iprop((∃ d, owns (c : Thread nD τ) scM1_0 fullShare d) ∗ restS1 (F := F) c) ∗ (∃ r, prngReg c r)) := by
  unfold Pipeline.ΦA
  rw [Pipeline.scopedRest_split_of_list spec1 c [cc1_scratch0] (by decide) (by decide)]
  simp only [scM1_0, owns_whole, bigSepL]
  try rfl

/-! ## What each case leaves -/

/-- Case A stores nothing into the output block: a placeholder nothing consults. -/
def out1_A_2 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : cond1_0 i) (hc1 : ¬cond1_1 i)
    (x0 : Vec F S1024x1024 .bf16) (x1 : Vec F S1024x1024 .bf16) : Vec F S1024x1024 .bf16 :=
  VO1_2.read (Elt F) (VO1_2.writes (Elt F) VO1_2.junk (kernelRun1_A c i arg3 harg3 arg4 harg4 arg5 harg5 arg6 harg6 hc0 hc1 x0 x1).1)
theorem scover1_A_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : cond1_0 i) (hc1 : ¬cond1_1 i)
    (x0 : Vec F S1024x1024 .bf16) (x1 : Vec F S1024x1024 .bf16) (y : S1024x1024.Idx) :
    ∃ pc ∈ (kernelRun1_A c i arg3 harg3 arg4 harg4 arg5 harg5 arg6 harg6 hc0 hc1 x0 x1).2.1, y ∈ pc.1.set :=
  View.cover_of_tiledL (kernelRun1_A c i arg3 harg3 arg4 harg4 arg5 harg5 arg6 harg6 hc0 hc1 x0 x1).2.1 S1024x1024.size (by sl_kernel_rfl) y
/-- What case A leaves in the accumulator. -/
def sout1_A_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : cond1_0 i) (hc1 : ¬cond1_1 i)
    (x0 : Vec F S1024x1024 .bf16) (x1 : Vec F S1024x1024 .bf16) : Vec F S1024x1024 .f32 :=
  VS1_0.read (Elt F) (VS1_0.writes (Elt F) VS1_0.junk (kernelRun1_A c i arg3 harg3 arg4 harg4 arg5 harg5 arg6 harg6 hc0 hc1 x0 x1).2.1)

/-- Case B stores nothing into the output block: a placeholder nothing consults. -/
def out1_B_2 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond1_0 i) (hc1 : ¬cond1_1 i)
    (x0 : Vec F S1024x1024 .bf16) (x1 : Vec F S1024x1024 .bf16) (xs0 : Vec F S1024x1024 .f32) : Vec F S1024x1024 .bf16 :=
  VO1_2.read (Elt F) (VO1_2.writes (Elt F) VO1_2.junk (kernelRun1_B c i arg3 harg3 arg4 harg4 arg5 harg5 arg6 harg6 hc0 hc1 x0 x1 xs0).1)
theorem scover1_B_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond1_0 i) (hc1 : ¬cond1_1 i)
    (x0 : Vec F S1024x1024 .bf16) (x1 : Vec F S1024x1024 .bf16) (xs0 : Vec F S1024x1024 .f32) (y : S1024x1024.Idx) :
    ∃ pc ∈ (kernelRun1_B c i arg3 harg3 arg4 harg4 arg5 harg5 arg6 harg6 hc0 hc1 x0 x1 xs0).2.1, y ∈ pc.1.set :=
  View.cover_of_tiledL (kernelRun1_B c i arg3 harg3 arg4 harg4 arg5 harg5 arg6 harg6 hc0 hc1 x0 x1 xs0).2.1 S1024x1024.size (by sl_kernel_rfl) y
/-- What case B leaves in the accumulator. -/
def sout1_B_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond1_0 i) (hc1 : ¬cond1_1 i)
    (x0 : Vec F S1024x1024 .bf16) (x1 : Vec F S1024x1024 .bf16) (xs0 : Vec F S1024x1024 .f32) : Vec F S1024x1024 .f32 :=
  VS1_0.read (Elt F) (VS1_0.writes (Elt F) VS1_0.junk (kernelRun1_B c i arg3 harg3 arg4 harg4 arg5 harg5 arg6 harg6 hc0 hc1 x0 x1 xs0).2.1)

theorem cover1_C_2 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond1_0 i) (hc1 : cond1_1 i)
    (x0 : Vec F S1024x1024 .bf16) (x1 : Vec F S1024x1024 .bf16) (xs0 : Vec F S1024x1024 .f32) (y : S1024x1024.Idx) :
    ∃ pc ∈ (kernelRun1_C c i arg3 harg3 arg4 harg4 arg5 harg5 arg6 harg6 hc0 hc1 x0 x1 xs0).1, y ∈ pc.1.set :=
  View.cover_of_tiledL (kernelRun1_C c i arg3 harg3 arg4 harg4 arg5 harg5 arg6 harg6 hc0 hc1 x0 x1 xs0).1 S1024x1024.size (by sl_kernel_rfl) y
/-- What case C leaves in the output block. -/
def out1_C_2 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond1_0 i) (hc1 : cond1_1 i)
    (x0 : Vec F S1024x1024 .bf16) (x1 : Vec F S1024x1024 .bf16) (xs0 : Vec F S1024x1024 .f32) : Vec F S1024x1024 .bf16 :=
  VO1_2.read (Elt F) (VO1_2.writes (Elt F) VO1_2.junk (kernelRun1_C c i arg3 harg3 arg4 harg4 arg5 harg5 arg6 harg6 hc0 hc1 x0 x1 xs0).1)
theorem scover1_C_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond1_0 i) (hc1 : cond1_1 i)
    (x0 : Vec F S1024x1024 .bf16) (x1 : Vec F S1024x1024 .bf16) (xs0 : Vec F S1024x1024 .f32) (y : S1024x1024.Idx) :
    ∃ pc ∈ (kernelRun1_C c i arg3 harg3 arg4 harg4 arg5 harg5 arg6 harg6 hc0 hc1 x0 x1 xs0).2.1, y ∈ pc.1.set :=
  View.cover_of_tiledL (kernelRun1_C c i arg3 harg3 arg4 harg4 arg5 harg5 arg6 harg6 hc0 hc1 x0 x1 xs0).2.1 S1024x1024.size (by sl_kernel_rfl) y
/-- What case C leaves in the accumulator. -/
def sout1_C_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond1_0 i) (hc1 : cond1_1 i)
    (x0 : Vec F S1024x1024 .bf16) (x1 : Vec F S1024x1024 .bf16) (xs0 : Vec F S1024x1024 .f32) : Vec F S1024x1024 .f32 :=
  VS1_0.read (Elt F) (VS1_0.writes (Elt F) VS1_0.junk (kernelRun1_C c i arg3 harg3 arg4 harg4 arg5 harg5 arg6 harg6 hc0 hc1 x0 x1 xs0).2.1)

/-! ## Point by point -/

/-- The output block and the accumulator after the body at position `n`: the case `n mod 3` selects, run on the point's
    input blocks, cases B and C over the accumulator the point before left. -/
def outsAt1 (c : Dev nD) : (n : ℕ) → n < cfg1.N → Vec F S1024x1024 .bf16 × Vec F S1024x1024 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 3 = 0 then
      if h1 : (n + 1) % 3 = 2 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 3 = 2 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 3 = 0) (h1 : ¬t.val % 3 = 2) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 3 = 0) (h1 : ¬t.val % 3 = 2) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 3 = 0) (h1 : t.val % 3 = 2) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point every scoped buffer at anything; afterwards the
    accumulator at what the point before left, and the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ restS1 (F := F) c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare ((outsAt1 V c n hn).2) ∗ restS1 (F := F) c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ restS1 (F := F) c) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' buffers hold their blocks; `t mod 3` says which case the point is in; the
    invariant hands the body the accumulator at what the point before left (at anything at the first point) and takes
    it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 27 := lt_of_lt_of_eq t.isLt (show cfg1.N = 27 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 3 = 0
  · by_cases h1 : t.val % 3 = 2
    · exfalso; omega
    · rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, Hrest⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A_0 c _ _ _ _ _ _ _ _ _ _ _ _ _)
            iexact Hrest
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨HS0, Hrest⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A_0 c _ _ _ _ _ _ _ _ _ _ _ _ _)
            iexact Hrest
          iexact Hg
        isplitl [Ho]; · iexact Ho
        isplitl [H0]; · iexact H0
        isplitl [H1]; · iexact H1
        iexists _; iexact H2
  · have hz : t.val ≠ 0 := fun hz => h0 (by rw [hz])
    by_cases h1 : t.val % 3 = 2
    · rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      rw [PhiS1_castSucc V c t, PhiS1_pos V c _ _ hz]
      iintro ⟨⟨⟨HS0, Hrest⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_C_0 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      rw [PhiS1_castSucc V c t, PhiS1_pos V c _ _ hz]
      iintro ⟨⟨⟨HS0, Hrest⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_B_0 c _ _ _ _ _ _ _ _ _ _ _ _ _ _)
          iexact Hrest
        iexact Hg
      isplitl [Ho]; · iexact Ho
      isplitl [H0]; · iexact H0
      isplitl [H1]; · iexact H1
      iexists _; iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the untracked one back. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hrest⟩, Hg⟩
  isplitl [HS0 Hrest]
  · isplitl [HS0]
    · iexists _; iexact HS0
    iexact Hrest
  iexact Hg

theorem hout1 (c : Dev nD) : (dat1 V c).Φ (Fin.last cfg1.N) ⊢ Pipeline.ΦA spec1 c :=
  Phi_out1 V c _ (by rw [Fin.val_last]; have : cfg1.N = 27 := N_1; omega)

end Region1

end Cert.KernelIdeal.Gen

end
-- ==== Proof.KI.Body2.lean ====
/-
  Region 2 of the program (one tiled matrix product): the kernel body run in each of its three control cases.
  The grid is (i, j, k) with k innermost; the body keeps a running sum in a scratch accumulator: at k = 0 it first
  clears the accumulator, at every k it adds the product of the two current input blocks, and at the last k it
  copies the accumulator into the output block. So a grid point t is in case A when t mod 3 = 0 (clear, add),
  case B when t mod 3 = 1 (add) and case C when t mod 3 = 2 (add, write out).
-/
import proofs.«174643_j41497974014138_1_alg».proof.Proof.Gen.KernelIdeal.Launch
import proofs.«174643_j41497974014138_1_alg».proof.Proof.Gen.KernelIdeal.Skeleton
import proofs.«174643_j41497974014138_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, decided over the grid -/

/-- "k = 0": the accumulator is cleared. -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 3 = 0 :=
  (by decide +kernel : ∀ t : Fin grid2.N, cond2_0 (grid2.coords t) ↔ t.val % 3 = 0)

/-- "k = 2": the accumulator is written out. -/
abbrev cond2_1 (i : grid2.Coords) : Prop := k2_cond2 i = 1#1
theorem hcond2_1 : ∀ t : Fin cfg2.N, cond2_1 (grid2.coords t) ↔ t.val % 3 = 2 :=
  (by decide +kernel : ∀ t : Fin grid2.N, cond2_1 (grid2.coords t) ↔ t.val % 3 = 2)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem idleAt2_2_A : ∀ t : Fin cfg2.N, cond2_0 (grid2.coords t) → ¬cond2_1 (grid2.coords t) → cfg2.idle 2 (grid2.coords t) = true := by decide +kernel
theorem noFlush2_2_A : ∀ t : Fin cfg2.N, cond2_0 (grid2.coords t) → ¬cond2_1 (grid2.coords t) → (cfg2.win 2).flush t = false := by decide +kernel
theorem idleAt2_2_B : ∀ t : Fin cfg2.N, ¬cond2_0 (grid2.coords t) → ¬cond2_1 (grid2.coords t) → cfg2.idle 2 (grid2.coords t) = true := by decide +kernel
theorem noFlush2_2_B : ∀ t : Fin cfg2.N, ¬cond2_0 (grid2.coords t) → ¬cond2_1 (grid2.coords t) → (cfg2.win 2).flush t = false := by decide +kernel
theorem liveAt2_2_C : ∀ t : Fin cfg2.N, ¬cond2_0 (grid2.coords t) → cond2_1 (grid2.coords t) → cfg2.idle 2 (grid2.coords t) = false := by decide +kernel

/-! ## The memrefs the body is called with -/

abbrev VO2_2 : View sig .tc .vmem S1024x1024 .f32 := (Memref.whole cc2_stg2_0 : Memref sig .tc .vmem S1024x1024 .f32).view
abbrev ms2_0 (t : Fin cfg2.N) : Memref sig .tc .vmem S1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1024 .f32 := win2_2.stage (cfg2.slots t 2)
abbrev hs2_2 (t : Fin cfg2.N) : (ms2_2 t).IsWhole := hstage2_2 ((cfg2.slots t 2).cast nbuf2_2)
/-- The accumulator: a whole scoped buffer of the kernel's own. -/
abbrev scM2_0 : Memref sig .tc .vmem S1024x1024 .f32 := Memref.whole cc2_scratch0
abbrev VS2_0 : View sig .tc .vmem S1024x1024 .f32 := scM2_0.view

/-! ## The body in each case: the pieces its stores leave, found by running it -/

set_option maxHeartbeats 1000000 in
/-- Case A (k = 0): both inputs read; the output block untouched; the accumulator, found at anything, ends
    with two stores (the clearing, then the first partial sum). -/
noncomputable def kernelRun2_A (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond2_0 i) (hc1 : ¬cond2_1 i)
    (x0 : Vec F S1024x1024 .bf16) (x1 : Vec F S1024x1024 .bf16) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc2__matmul_kernel i arg3 harg3 arg4 harg4 arg5 harg5 arg6 harg6) K } := by
  refine ⟨[], ?_, fun xi2 E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- Case B (k = 1): both inputs read; the output block untouched; the accumulator, found at the running sum
    `xs0`, ends with one store (the running sum plus this point's product). -/
noncomputable def kernelRun2_B (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond2_0 i) (hc1 : ¬cond2_1 i)
    (x0 : Vec F S1024x1024 .bf16) (x1 : Vec F S1024x1024 .bf16) (xs0 : Vec F S1024x1024 .f32) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc2__matmul_kernel i arg3 harg3 arg4 harg4 arg5 harg5 arg6 harg6) K } := by
  refine ⟨[], ?_, fun xi2 E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- Case C (k = 2): both inputs read; the accumulator, found at the running sum `xs0`, ends with one store;
    the output block, found at anything, ends with one store (the finished sum). -/
noncomputable def kernelRun2_C (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond2_0 i) (hc1 : cond2_1 i)
    (x0 : Vec F S1024x1024 .bf16) (x1 : Vec F S1024x1024 .bf16) (xs0 : Vec F S1024x1024 .f32) :
    Σ' (L2 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc2__matmul_kernel i arg3 harg3 arg4 harg4 arg5 harg5 arg6 harg6) K } := by
  refine ⟨?_, ?_, fun E K => ?run⟩
  case run =>
    simp only [cc2__matmul_kernel_eq_skeleton]; unfold cc2__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Gen

end
-- ==== Proof.KI.Frame2.lean ====
/-
  Region 2: what its output block and its accumulator hold after each grid point, the proof data of the pipeline, and the
  body obligation at every point. The accumulator is carried from a point to the next: after a point of case A it holds
  the first partial sum, after a point of case B or C the running sum of the point before plus this point's product; the
  output block is stored at the points of case C only (elsewhere the window is idle and is not written back).
-/
import proofs.«174643_j41497974014138_1_alg».proof.Proof.KI.Body2

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The scoped buffers other than this region's staging buffers and its accumulator (the other regions' own), each at some
    contents: carried through the region unopened. -/
abbrev restS2 (c : Dev nD) : sProp 𝕄 :=
  Pipeline.scopedRestBut (Ix := Unit) (Name := ℕ) (U := UR sig nD τ) (Lvl := ℕ) (Val := Elt F) spec2 c [cc2_scratch0]

/-- The region's untracked invariant with the accumulator split out as a memref owned at some contents. -/
theorem PhiA2_eq (c : Dev nD) :
    (Pipeline.ΦA spec2 c : sProp 𝕄)
      = iprop(iprop((∃ d, owns (c : Thread nD τ) scM2_0 fullShare d) ∗ restS2 (F := F) c) ∗ (∃ r, prngReg c r)) := by
  unfold Pipeline.ΦA
  rw [Pipeline.scopedRest_split_of_list spec2 c [cc2_scratch0] (by decide) (by decide)]
  simp only [scM2_0, owns_whole, bigSepL]
  try rfl

/-! ## What each case leaves -/

/-- Case A stores nothing into the output block: a placeholder nothing consults. -/
def out2_A_2 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond2_0 i) (hc1 : ¬cond2_1 i)
    (x0 : Vec F S1024x1024 .bf16) (x1 : Vec F S1024x1024 .bf16) : Vec F S1024x1024 .f32 :=
  VO2_2.read (Elt F) (VO2_2.writes (Elt F) VO2_2.junk (kernelRun2_A c i arg3 harg3 arg4 harg4 arg5 harg5 arg6 harg6 hc0 hc1 x0 x1).1)
theorem scover2_A_0 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond2_0 i) (hc1 : ¬cond2_1 i)
    (x0 : Vec F S1024x1024 .bf16) (x1 : Vec F S1024x1024 .bf16) (y : S1024x1024.Idx) :
    ∃ pc ∈ (kernelRun2_A c i arg3 harg3 arg4 harg4 arg5 harg5 arg6 harg6 hc0 hc1 x0 x1).2.1, y ∈ pc.1.set :=
  View.cover_of_tiledL (kernelRun2_A c i arg3 harg3 arg4 harg4 arg5 harg5 arg6 harg6 hc0 hc1 x0 x1).2.1 S1024x1024.size (by sl_kernel_rfl) y
/-- What case A leaves in the accumulator. -/
def sout2_A_0 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond2_0 i) (hc1 : ¬cond2_1 i)
    (x0 : Vec F S1024x1024 .bf16) (x1 : Vec F S1024x1024 .bf16) : Vec F S1024x1024 .f32 :=
  VS2_0.read (Elt F) (VS2_0.writes (Elt F) VS2_0.junk (kernelRun2_A c i arg3 harg3 arg4 harg4 arg5 harg5 arg6 harg6 hc0 hc1 x0 x1).2.1)

/-- Case B stores nothing into the output block: a placeholder nothing consults. -/
def out2_B_2 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond2_0 i) (hc1 : ¬cond2_1 i)
    (x0 : Vec F S1024x1024 .bf16) (x1 : Vec F S1024x1024 .bf16) (xs0 : Vec F S1024x1024 .f32) : Vec F S1024x1024 .f32 :=
  VO2_2.read (Elt F) (VO2_2.writes (Elt F) VO2_2.junk (kernelRun2_B c i arg3 harg3 arg4 harg4 arg5 harg5 arg6 harg6 hc0 hc1 x0 x1 xs0).1)
theorem scover2_B_0 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond2_0 i) (hc1 : ¬cond2_1 i)
    (x0 : Vec F S1024x1024 .bf16) (x1 : Vec F S1024x1024 .bf16) (xs0 : Vec F S1024x1024 .f32) (y : S1024x1024.Idx) :
    ∃ pc ∈ (kernelRun2_B c i arg3 harg3 arg4 harg4 arg5 harg5 arg6 harg6 hc0 hc1 x0 x1 xs0).2.1, y ∈ pc.1.set :=
  View.cover_of_tiledL (kernelRun2_B c i arg3 harg3 arg4 harg4 arg5 harg5 arg6 harg6 hc0 hc1 x0 x1 xs0).2.1 S1024x1024.size (by sl_kernel_rfl) y
/-- What case B leaves in the accumulator. -/
def sout2_B_0 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond2_0 i) (hc1 : ¬cond2_1 i)
    (x0 : Vec F S1024x1024 .bf16) (x1 : Vec F S1024x1024 .bf16) (xs0 : Vec F S1024x1024 .f32) : Vec F S1024x1024 .f32 :=
  VS2_0.read (Elt F) (VS2_0.writes (Elt F) VS2_0.junk (kernelRun2_B c i arg3 harg3 arg4 harg4 arg5 harg5 arg6 harg6 hc0 hc1 x0 x1 xs0).2.1)

theorem cover2_C_2 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond2_0 i) (hc1 : cond2_1 i)
    (x0 : Vec F S1024x1024 .bf16) (x1 : Vec F S1024x1024 .bf16) (xs0 : Vec F S1024x1024 .f32) (y : S1024x1024.Idx) :
    ∃ pc ∈ (kernelRun2_C c i arg3 harg3 arg4 harg4 arg5 harg5 arg6 harg6 hc0 hc1 x0 x1 xs0).1, y ∈ pc.1.set :=
  View.cover_of_tiledL (kernelRun2_C c i arg3 harg3 arg4 harg4 arg5 harg5 arg6 harg6 hc0 hc1 x0 x1 xs0).1 S1024x1024.size (by sl_kernel_rfl) y
/-- What case C leaves in the output block. -/
def out2_C_2 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond2_0 i) (hc1 : cond2_1 i)
    (x0 : Vec F S1024x1024 .bf16) (x1 : Vec F S1024x1024 .bf16) (xs0 : Vec F S1024x1024 .f32) : Vec F S1024x1024 .f32 :=
  VO2_2.read (Elt F) (VO2_2.writes (Elt F) VO2_2.junk (kernelRun2_C c i arg3 harg3 arg4 harg4 arg5 harg5 arg6 harg6 hc0 hc1 x0 x1 xs0).1)
theorem scover2_C_0 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond2_0 i) (hc1 : cond2_1 i)
    (x0 : Vec F S1024x1024 .bf16) (x1 : Vec F S1024x1024 .bf16) (xs0 : Vec F S1024x1024 .f32) (y : S1024x1024.Idx) :
    ∃ pc ∈ (kernelRun2_C c i arg3 harg3 arg4 harg4 arg5 harg5 arg6 harg6 hc0 hc1 x0 x1 xs0).2.1, y ∈ pc.1.set :=
  View.cover_of_tiledL (kernelRun2_C c i arg3 harg3 arg4 harg4 arg5 harg5 arg6 harg6 hc0 hc1 x0 x1 xs0).2.1 S1024x1024.size (by sl_kernel_rfl) y
/-- What case C leaves in the accumulator. -/
def sout2_C_0 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond2_0 i) (hc1 : cond2_1 i)
    (x0 : Vec F S1024x1024 .bf16) (x1 : Vec F S1024x1024 .bf16) (xs0 : Vec F S1024x1024 .f32) : Vec F S1024x1024 .f32 :=
  VS2_0.read (Elt F) (VS2_0.writes (Elt F) VS2_0.junk (kernelRun2_C c i arg3 harg3 arg4 harg4 arg5 harg5 arg6 harg6 hc0 hc1 x0 x1 xs0).2.1)

/-! ## Point by point -/

/-- The output block and the accumulator after the body at position `n`: the case `n mod 3` selects, run on the point's
    input blocks, cases B and C over the accumulator the point before left. -/
def outsAt2 (c : Dev nD) : (n : ℕ) → n < cfg2.N → Vec F S1024x1024 .f32 × Vec F S1024x1024 .f32
  | 0, hn => (out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 3 = 0 then
      if h1 : (n + 1) % 3 = 2 then
        False.elim (by omega)
      else
        (out2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩))
    else
      if h1 : (n + 1) % 3 = 2 then
        (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
      else
        (out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

theorem outsAt2_A (c : Dev nD) (t : Fin cfg2.N) (h0 : t.val % 3 = 0) (h1 : ¬t.val % 3 = 2) :
    outsAt2 V c t.val t.isLt = (out2_A_2 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t), sout2_A_0 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans ((dif_neg h1).trans rfl)

theorem outsAt2_B (c : Dev nD) (t : Fin cfg2.N) (h0 : ¬t.val % 3 = 0) (h1 : ¬t.val % 3 = 2) :
    outsAt2 V c t.val t.isLt = (out2_B_2 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 3 = 0) (h1 : t.val % 3 = 2) :
    outsAt2 V c t.val t.isLt = (out2_C_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point every scoped buffer at anything; afterwards the
    accumulator at what the point before left, and the generator register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ restS2 (F := F) c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2_0 fullShare ((outsAt2 V c n hn).2) ∗ restS2 (F := F) c) ∗ (∃ r, prngReg c r)) := rfl
theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ restS2 (F := F) c) ∗ (∃ r, prngReg c r)) := by
  cases n with
  | zero => exact absurd rfl hz
  | succ n => rfl

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the inputs' buffers hold their blocks; `t mod 3` says which case the point is in; the
    invariant hands the body the accumulator at what the point before left (at anything at the first point) and takes
    it back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 144 := lt_of_lt_of_eq t.isLt (show cfg2.N = 144 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  by_cases h0 : t.val % 3 = 0
  · by_cases h1 : t.val % 3 = 2
    · exfalso; omega
    · rw [Dat.leavesExact_idle (dat2 V c) 2 t (idleAt2_2_A t ((hcond2_0 t).mpr h0) (fun h => h1 ((hcond2_1 t).mp h))) (noFlush2_2_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        iintro ⟨⟨⟨HS0, Hrest⟩, Hg⟩, Ho, ⟨%d0, H0⟩, ⟨%d1, H1⟩, ⟨%d2, H2⟩⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover2_A_0 c _ _ _ _ _ _ _ _ _ _ _ _ _)
            iexact Hrest
          iexact Hg
        isplitl [Ho]; · iexact Ho
        isplitl [H0]; · iexact H0
        isplitl [H1]; · iexact H1
        iexists _; iexact H2
      · rw [PhiS2_castSucc V c t, PhiS2_pos V c _ _ hz]
        iintro ⟨⟨⟨HS0, Hrest⟩, Hg⟩, Ho, ⟨%d0, H0⟩, ⟨%d1, H1⟩, ⟨%d2, H2⟩⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover2_A_0 c _ _ _ _ _ _ _ _ _ _ _ _ _)
            iexact Hrest
          iexact Hg
        isplitl [Ho]; · iexact Ho
        isplitl [H0]; · iexact H0
        isplitl [H1]; · iexact H1
        iexists _; iexact H2
  · have hz : t.val ≠ 0 := fun hz => h0 (by rw [hz])
    by_cases h1 : t.val % 3 = 2
    · rw [show (dat2 V c).leavesExact 2 t = owns (c : Thread nD τ) (ms2_2 t) fullShare ((dat2 V c).after 2 t) from by
        unfold Dat.leavesExact; rw [liveAt2_2_C t (fun h => h0 ((hcond2_0 t).mp h)) ((hcond2_1 t).mpr h1)], after2_2]
      rw [outsAt2_C V c t h0 h1]
      unfold out2_C_2 sout2_C_0; (try dsimp only)
      rw [PhiS2_castSucc V c t, PhiS2_pos V c _ _ hz]
      iintro ⟨⟨⟨HS0, Hrest⟩, Hg⟩, Ho, ⟨%d0, H0⟩, ⟨%d1, H1⟩, ⟨%d2, H2⟩⟩
      iapply ((kernelRun2_C c (grid2.coords t) _ _ _ _ _ _ _ _ (fun h => h0 ((hcond2_0 t).mp h)) ((hcond2_1 t).mpr h1) (iblk2 V c 0 t) (iblk2 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_C_0 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_C_2 c _ _ _ _ _ _ _ _ _ _ _ _ _ _)
    · rw [Dat.leavesExact_idle (dat2 V c) 2 t (idleAt2_2_B t (fun h => h0 ((hcond2_0 t).mp h)) (fun h => h1 ((hcond2_1 t).mp h))) (noFlush2_2_B t (fun h => h0 ((hcond2_0 t).mp h)) (fun h => h1 ((hcond2_1 t).mp h)))]
      rw [outsAt2_B V c t h0 h1]
      unfold sout2_B_0; (try dsimp only)
      rw [PhiS2_castSucc V c t, PhiS2_pos V c _ _ hz]
      iintro ⟨⟨⟨HS0, Hrest⟩, Hg⟩, Ho, ⟨%d0, H0⟩, ⟨%d1, H1⟩, ⟨%d2, H2⟩⟩
      iapply ((kernelRun2_B c (grid2.coords t) _ _ _ _ _ _ _ _ (fun h => h0 ((hcond2_0 t).mp h)) (fun h => h1 ((hcond2_1 t).mp h)) (iblk2 V c 0 t) (iblk2 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_B_0 c _ _ _ _ _ _ _ _ _ _ _ _ _ _)
          iexact Hrest
        iexact Hg
      isplitl [Ho]; · iexact Ho
      isplitl [H0]; · iexact H0
      isplitl [H1]; · iexact H1
      iexists _; iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the untracked one back. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hrest⟩, Hg⟩
  isplitl [HS0 Hrest]
  · isplitl [HS0]
    · iexists _; iexact HS0
    iexact Hrest
  iexact Hg

theorem hout2 (c : Dev nD) : (dat2 V c).Φ (Fin.last cfg2.N) ⊢ Pipeline.ΦA spec2 c :=
  Phi_out2 V c _ (by rw [Fin.val_last]; have : cfg2.N = 144 := N_2; omega)

end Region2

end Cert.KernelIdeal.Gen

end
-- ==== Proof.KI.Run.lean ====
/-
  The whole program's run: the contents of every unscoped buffer at each boundary between two items of the program (a
  stretch of host operations, or one of the three tiled matrix products), the three regions as segments over the thread
  state "every unscoped buffer at the boundary's contents, the generator register at some state, nothing owed", and the
  run itself: every weakly fair execution terminates with every unscoped buffer at the last boundary's contents.
-/
import proofs.«174643_j41497974014138_1_alg».proof.Proof.KI.Frame0
import proofs.«174643_j41497974014138_1_alg».proof.Proof.KI.Frame1
import proofs.«174643_j41497974014138_1_alg».proof.Proof.KI.Frame2
import proofs.«174643_j41497974014138_1_alg».proof.Proof.Gen.KernelIdeal.Regions
import Idealize.ShloMosaic.Lib.Pipeline.RegionsLoop

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- After the six host stretches before region 0 (the scaled factor, the Kronecker product and their conversions). -/
abbrev Wq6 (c : Dev nD) : Valuation τ sig (Elt F) := V6 m c
abbrev Rd6 : (c : Dev nD) → (b : Ref sig .tc) → Buf (Elt F) ((c : Thread nD τ).loc b) := fun c b => Wq6 m c b

/-- After region 0: its arrays at what its write-backs leave (the inputs as entered, the output every block written),
    every other buffer as entered. -/
def Wq7 (c : Dev nD) : Valuation τ sig (Elt F) :=
  Pipeline.withArrays spec0 c (Wq6 m c) fun w => (dat0 (Rd6 m) c).arrAt w cfg0.N
theorem Wq7_arr (c : Dev nD) (w : Fin cfg0.W) :
    Wq7 m c (Proc.devRef .tc (Pipeline.arrRef spec0 w)) = (dat0 (Rd6 m) c).arrAt w cfg0.N := by
  unfold Wq7; exact Pipeline.withArrays_arr spec0 launch0.win.arr_inj c _ _ w
theorem Wq7_of_ne (c : Dev nD) (b : Ref sig .tc) (hb : ∀ w, Pipeline.arrRef spec0 w ≠ b) :
    Wq7 m c (Proc.devRef .tc b) = Wq6 m c (Proc.devRef .tc b) := by
  unfold Wq7; exact Pipeline.withArrays_of_ne spec0 c _ _ b hb
/-- The same read at the TensorCore's references. -/
abbrev Rd7 : (c : Dev nD) → (b : Ref sig .tc) → Buf (Elt F) ((c : Thread nD τ).loc b) := fun c b => Wq7 m c b
theorem hF0 (c : Dev nD) (w : Fin cfg0.W) : (dat0 (Rd6 m) c).arrAt w cfg0.N = Rd7 m c (Pipeline.arrRef spec0 w) :=
  (Wq7_arr m c w).symm
theorem hrest0 (c : Dev nD) : ∀ b, b ∉ Finset.univ.image (Pipeline.arrRef spec0) → Rd7 m c b = Rd6 m c b :=
  fun b hb => Wq7_of_ne m c b fun w e => hb (Finset.mem_image.mpr ⟨w, Finset.mem_univ _, e⟩)

/-- After region 1: its arrays at what its write-backs leave (the inputs as entered, the output every block written),
    every other buffer as entered. -/
def Wq8 (c : Dev nD) : Valuation τ sig (Elt F) :=
  Pipeline.withArrays spec1 c (Wq7 m c) fun w => (dat1 (Rd7 m) c).arrAt w cfg1.N
theorem Wq8_arr (c : Dev nD) (w : Fin cfg1.W) :
    Wq8 m c (Proc.devRef .tc (Pipeline.arrRef spec1 w)) = (dat1 (Rd7 m) c).arrAt w cfg1.N := by
  unfold Wq8; exact Pipeline.withArrays_arr spec1 launch1.win.arr_inj c _ _ w
theorem Wq8_of_ne (c : Dev nD) (b : Ref sig .tc) (hb : ∀ w, Pipeline.arrRef spec1 w ≠ b) :
    Wq8 m c (Proc.devRef .tc b) = Wq7 m c (Proc.devRef .tc b) := by
  unfold Wq8; exact Pipeline.withArrays_of_ne spec1 c _ _ b hb
/-- The same read at the TensorCore's references. -/
abbrev Rd8 : (c : Dev nD) → (b : Ref sig .tc) → Buf (Elt F) ((c : Thread nD τ).loc b) := fun c b => Wq8 m c b
theorem hF1 (c : Dev nD) (w : Fin cfg1.W) : (dat1 (Rd7 m) c).arrAt w cfg1.N = Rd8 m c (Pipeline.arrRef spec1 w) :=
  (Wq8_arr m c w).symm
theorem hrest1 (c : Dev nD) : ∀ b, b ∉ Finset.univ.image (Pipeline.arrRef spec1) → Rd8 m c b = Rd7 m c b :=
  fun b hb => Wq8_of_ne m c b fun w e => hb (Finset.mem_image.mpr ⟨w, Finset.mem_univ _, e⟩)

/-- After the host stretch between regions 1 and 2 (the activations flattened to rows). -/
abbrev Wq9 (c : Dev nD) : Valuation τ sig (Elt F) := StableHlo.after hostOps2 (Wq8 m c)
abbrev Rd9 : (c : Dev nD) → (b : Ref sig .tc) → Buf (Elt F) ((c : Thread nD τ).loc b) := fun c b => Wq9 m c b

/-- After region 2: its arrays at what its write-backs leave (the inputs as entered, the output every block written),
    every other buffer as entered. -/
def Wq10 (c : Dev nD) : Valuation τ sig (Elt F) :=
  Pipeline.withArrays spec2 c (Wq9 m c) fun w => (dat2 (Rd9 m) c).arrAt w cfg2.N
theorem Wq10_arr (c : Dev nD) (w : Fin cfg2.W) :
    Wq10 m c (Proc.devRef .tc (Pipeline.arrRef spec2 w)) = (dat2 (Rd9 m) c).arrAt w cfg2.N := by
  unfold Wq10; exact Pipeline.withArrays_arr spec2 launch2.win.arr_inj c _ _ w
theorem Wq10_of_ne (c : Dev nD) (b : Ref sig .tc) (hb : ∀ w, Pipeline.arrRef spec2 w ≠ b) :
    Wq10 m c (Proc.devRef .tc b) = Wq9 m c (Proc.devRef .tc b) := by
  unfold Wq10; exact Pipeline.withArrays_of_ne spec2 c _ _ b hb
/-- The same read at the TensorCore's references. -/
abbrev Rd10 : (c : Dev nD) → (b : Ref sig .tc) → Buf (Elt F) ((c : Thread nD τ).loc b) := fun c b => Wq10 m c b
theorem hF2 (c : Dev nD) (w : Fin cfg2.W) : (dat2 (Rd9 m) c).arrAt w cfg2.N = Rd10 m c (Pipeline.arrRef spec2 w) :=
  (Wq10_arr m c w).symm
theorem hrest2 (c : Dev nD) : ∀ b, b ∉ Finset.univ.image (Pipeline.arrRef spec2) → Rd10 m c b = Rd9 m c b :=
  fun b hb => Wq10_of_ne m c b fun w e => hb (Finset.mem_image.mpr ⟨w, Finset.mem_univ _, e⟩)

/-- After the last host stretch (the result reshaped and scaled by one). -/
abbrev Wq11 (c : Dev nD) : Valuation τ sig (Elt F) := StableHlo.after hostOps3 (Wq10 m c)

/-- A buffer that no host operation writes and that is no region's array ends as launched. -/
theorem Wq11_kept (c : Dev nD) (r : Ref sig .tc) (h3 : r ∉ hostOps3_W) (hr2 : ∀ w, Pipeline.arrRef spec2 w ≠ r) (h2 : r ∉ hostOps2_W)
    (hr1 : ∀ w, Pipeline.arrRef spec1 w ≠ r) (hr0 : ∀ w, Pipeline.arrRef spec0 w ≠ r)
    (h05 : r ∉ hostOps0_5_W) (h04 : r ∉ hostOps0_4_W) (h03 : r ∉ hostOps0_3_W) (h02 : r ∉ hostOps0_2_W) (h01 : r ∉ hostOps0_1_W) (h00 : r ∉ hostOps0_W) :
    Wq11 m c (Proc.devRef .tc r) = m ((c : Thread nD τ).loc r) :=
  (StableHlo.after_of_writes_sub hostOps3 _ hostOps3_writes h3).trans <| (Wq10_of_ne m c r hr2).trans <|
    (StableHlo.after_of_writes_sub hostOps2 _ hostOps2_writes h2).trans <| (Wq8_of_ne m c r hr1).trans <| (Wq7_of_ne m c r hr0).trans <|
    (V6_of m c r h05).trans <| (V5_of m c r h04).trans <| (V4_of m c r h03).trans <| (V3_of m c r h02).trans <| (V2_of m c r h01).trans <| (V1_of m c r h00).trans rfl

/-! ## The proof data family and the thread state -/

def pdatsH : (p : Fin 3) → (c : Dev nD) → Dat τ (Elt F) Unit ℕ (UR sig nD τ) ℕ (Pipeline.pin (pcfgs (F := F)) adm p) c
  | ⟨0, _⟩ => fun c => dat0 (Rd6 m) c
  | ⟨1, _⟩ => fun c => dat1 (Rd7 m) c
  | ⟨2, _⟩ => fun c => dat2 (Rd9 m) c
abbrev 𝒱H : Variants := Variants.none
abbrev LH : GSem nD τ sig → Finset Unit := fun _ => ∅
abbrev lvH : GSem nD τ sig → Unit → ℕ := fun _ _ => 0
/-- What rides beside the buffers through every segment: the generator register at some state, and the core owing nothing. -/
abbrev RH (c : Dev nD) : sProp 𝕄 := iprop((∃ r, prngReg c r) ∗ ∃ W, owes (c : Thread nD τ) (0 : CellTallies nD τ sig Unit) W)
/-- A host stretch as a segment over the unscoped references. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

-- a library lemma stated over a pinned configuration unifies with the printed one only when unification may unfold
-- plain definitions in a metavariable's type
set_option backward.isDefEq.respectTransparency.types false in
/-- Region 0 over the thread state: entered with every unscoped buffer at the contents before it, left with them at the
    contents after it. Its arrays are split out of the unscoped buffers and put back at their final contents; the
    generator register goes into the region's invariant and comes out; nothing is owed. -/
def regH0 : Pipeline.RegionSeg (pcfgs (F := F)) adm (pdatsH m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (Rd6 m) c).loose
  hwaits := Pipeline.hwaits_of_owed_zero _ _ _ _ LH lvH 0 fun _ _ => rfl
  pre c := iprop(StableHlo.held (c : Thread nD τ) (Pipeline.ucRefs τ sig) (Wq6 m c) ∗ RH c)
  post c := iprop(StableHlo.held (c : Thread nD τ) (Pipeline.ucRefs τ sig) (Wq7 m c) ∗ RH c)
  X c := iprop(∃ r, prngReg c r)
  Y c := iprop(∃ r, prngReg c r)
  Z c := Pipeline.unscopedRest (Ix := Unit) (Name := ℕ) (U := UR sig nD τ) (Lvl := ℕ) spec0 c (Rd6 m c)
  hentry c := by
    rw [Pipeline.ownSems0_none]
    have hsplit := Pipeline.arrays_of_unscopedBufs (p := 0) (pcfgs (F := F)) adm (pdatsH m) launch0.win launch0.arr_whole c
      ((pdatsH m 0 c).share_full fun _ => rfl) (Rd6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdatsH m 0 c).Φ (Fin.last _) ⊢ Pipeline.ΦA spec0 c from hout0 (Rd6 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsH m) ((pdatsH m 0 c).share_full fun _ => rfl)
      (Rd6 m c) (Rd7 m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over a pinned configuration unifies with the printed one only when unification may unfold
-- plain definitions in a metavariable's type
set_option backward.isDefEq.respectTransparency.types false in
/-- Region 1 over the thread state: entered with every unscoped buffer at the contents before it, left with them at the
    contents after it. Its arrays are split out of the unscoped buffers and put back at their final contents; the
    generator register goes into the region's invariant and comes out; nothing is owed. -/
def regH1 : Pipeline.RegionSeg (pcfgs (F := F)) adm (pdatsH m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (Rd7 m) c).loose
  hwaits := Pipeline.hwaits_of_owed_zero _ _ _ _ LH lvH 1 fun _ _ => rfl
  pre c := iprop(StableHlo.held (c : Thread nD τ) (Pipeline.ucRefs τ sig) (Wq7 m c) ∗ RH c)
  post c := iprop(StableHlo.held (c : Thread nD τ) (Pipeline.ucRefs τ sig) (Wq8 m c) ∗ RH c)
  X c := iprop(∃ r, prngReg c r)
  Y c := iprop(∃ r, prngReg c r)
  Z c := Pipeline.unscopedRest (Ix := Unit) (Name := ℕ) (U := UR sig nD τ) (Lvl := ℕ) spec1 c (Rd7 m c)
  hentry c := by
    rw [Pipeline.ownSems0_none]
    have hsplit := Pipeline.arrays_of_unscopedBufs (p := 1) (pcfgs (F := F)) adm (pdatsH m) launch1.win launch1.arr_whole c
      ((pdatsH m 1 c).share_full fun _ => rfl) (Rd7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdatsH m 1 c).Φ (Fin.last _) ⊢ Pipeline.ΦA spec1 c from hout1 (Rd7 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsH m) ((pdatsH m 1 c).share_full fun _ => rfl)
      (Rd7 m c) (Rd8 m c) ((pdatsH m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over a pinned configuration unifies with the printed one only when unification may unfold
-- plain definitions in a metavariable's type
set_option backward.isDefEq.respectTransparency.types false in
/-- Region 2 over the thread state: entered with every unscoped buffer at the contents before it, left with them at the
    contents after it. Its arrays are split out of the unscoped buffers and put back at their final contents; the
    generator register goes into the region's invariant and comes out; nothing is owed. -/
def regH2 : Pipeline.RegionSeg (pcfgs (F := F)) adm (pdatsH m) () defs₀ 𝒱H LH lvH 2 where
  win := launch2.win.to₀
  block_pos := launch2.block_pos
  stage_whole := launch2.stage_whole
  K := PEmpty
  osem k := k.elim
  ho := Pipeline.OwnSemFacts.none _
  hbody c := (body_obligation2 (Rd9 m) c).loose
  hwaits := Pipeline.hwaits_of_owed_zero _ _ _ _ LH lvH 2 fun _ _ => rfl
  pre c := iprop(StableHlo.held (c : Thread nD τ) (Pipeline.ucRefs τ sig) (Wq9 m c) ∗ RH c)
  post c := iprop(StableHlo.held (c : Thread nD τ) (Pipeline.ucRefs τ sig) (Wq10 m c) ∗ RH c)
  X c := iprop(∃ r, prngReg c r)
  Y c := iprop(∃ r, prngReg c r)
  Z c := Pipeline.unscopedRest (Ix := Unit) (Name := ℕ) (U := UR sig nD τ) (Lvl := ℕ) spec2 c (Rd9 m c)
  hentry c := by
    rw [Pipeline.ownSems0_none]
    have hsplit := Pipeline.arrays_of_unscopedBufs (p := 2) (pcfgs (F := F)) adm (pdatsH m) launch2.win launch2.arr_whole c
      ((pdatsH m 2 c).share_full fun _ => rfl) (Rd9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdatsH m 2 c).Φ (Fin.last _) ⊢ Pipeline.ΦA spec2 c from hout2 (Rd9 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdatsH m) ((pdatsH m 2 c).share_full fun _ => rfl)
      (Rd9 m c) (Rd10 m c) ((pdatsH m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segsH : List (Pipeline.Seg (pcfgs (F := F)) adm (pdatsH m) () defs₀ 𝒱H LH lvH) :=
  [ .host (hsegH hostOps0 hostOps0_sub hostOps0_fresh (V0 m)),
    .host (hsegH hostOps0_1 hostOps0_1_sub hostOps0_1_fresh (V1 m)),
    .host (hsegH hostOps0_2 hostOps0_2_sub hostOps0_2_fresh (V2 m)),
    .host (hsegH hostOps0_3 hostOps0_3_sub hostOps0_3_fresh (V3 m)),
    .host (hsegH hostOps0_4 hostOps0_4_sub hostOps0_4_fresh (V4 m)),
    .host (hsegH hostOps0_5 hostOps0_5_sub hostOps0_5_fresh (V5 m)),
    .region (regH0 m),
    .region (regH1 m),
    .host (hsegH hostOps2 hostOps2_sub hostOps2_fresh (Wq8 m)),
    .region (regH2 m),
    .host (hsegH hostOps3 hostOps3_sub hostOps3_fresh (Wq10 m)) ]

theorem main_runH (c : Dev nD) : main (F := F) c = Pipeline.Seg.run (segsH m) := (main_chain c).trans (by chain_rfl)

set_option backward.isDefEq.respectTransparency.types false in
/-- THE RUN. From any memory with zero counters every weakly fair execution of the program terminates, nothing
    faulting, and every final state holds every unscoped buffer at the last boundary's contents. -/
theorem run_all {Q : PUnit × MemSt nD τ sig (Elt F) → Prop}
    (hQ : ∀ s : MemSt nD τ sig (Elt F), (∀ c : Dev nD, ∀ b ∈ Pipeline.ucRefs τ sig, s.mem (((c : Thread nD τ)).1, b) = Wq11 m c b) → Q (⟨⟩, s)) :
    θ_run defs (onTc (τ := τ) (main (F := F))) ⟨m, fun _ => 0, ρ⟩ Q :=
  Pipeline.θ_run_regions_kit (pcfgs (F := F)) adm (pdatsH m) () cellOf_inj emb₁ defs₀ 𝒱H LH lvH m ρ main (segsH m)
    (fun c Q => by rw [main_runH m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ RH c))
    (Tₙ := fun c => iprop(StableHlo.held (c : Thread nD τ) (Pipeline.ucRefs τ sig) (Wq11 m c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl,
      fun c => (show iprop(StableHlo.held (c : Thread nD τ) (Pipeline.ucRefs τ sig) (Wq11 m c) ∗ RH c)
          ⊢ iprop(iprop(StableHlo.held (c : Thread nD τ) (Pipeline.ucRefs τ sig) (Wq11 m c) ∗ ∃ r, prngReg c r)
              ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach LH lvH fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wq11 m c b)
    (hfin := fun c s' => by
      iintro ⟨⟨Hh, -⟩, HSI⟩
      unfold StableHlo.held
      imodintro
      iapply (pointsTo_read_all (Pipeline.ucRefs τ sig) (fun b => (((c : Thread nD τ)).1, b)) (Wq11 m c) s')
      isplitl [Hh] <;> iassumption)
    (hQ := hQ)

/-- The frame: every argument array ends as launched. -/
theorem frameH : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  run_all m ρ fun s h c =>
    ⟨(h c _ (mem_ucH main_arg0 (by decide))).trans (Wq11_kept m c main_arg0 (by decide) (by decide) (by decide) (by decide) (by decide) (by decide) (by decide) (by decide) (by decide) (by decide) (by decide)),
     (h c _ (mem_ucH main_arg1 (by decide))).trans (Wq11_kept m c main_arg1 (by decide) (by decide) (by decide) (by decide) (by decide) (by decide) (by decide) (by decide) (by decide) (by decide) (by decide)),
     (h c _ (mem_ucH main_arg2 (by decide))).trans (Wq11_kept m c main_arg2 (by decide) (by decide) (by decide) (by decide) (by decide) (by decide) (by decide) (by decide) (by decide) (by decide) (by decide)),
     (h c _ (mem_ucH main_arg3 (by decide))).trans (Wq11_kept m c main_arg3 (by decide) (by decide) (by decide) (by decide) (by decide) (by decide) (by decide) (by decide) (by decide) (by decide) (by decide)),
     (h c _ (mem_ucH main_arg4 (by decide))).trans (Wq11_kept m c main_arg4 (by decide) (by decide) (by decide) (by decide) (by decide) (by decide) (by decide) (by decide) (by decide) (by decide) (by decide)),
     (h c _ (mem_ucH main_arg5 (by decide))).trans (Wq11_kept m c main_arg5 (by decide) (by decide) (by decide) (by decide) (by decide) (by decide) (by decide) (by decide) (by decide) (by decide) (by decide)),
     (h c _ (mem_ucH main_arg6 (by decide))).trans (Wq11_kept m c main_arg6 (by decide) (by decide) (by decide) (by decide) (by decide) (by decide) (by decide) (by decide) (by decide) (by decide) (by decide)),
     (h c _ (mem_ucH main_arg7 (by decide))).trans (Wq11_kept m c main_arg7 (by decide) (by decide) (by decide) (by decide) (by decide) (by decide) (by decide) (by decide) (by decide) (by decide) (by decide))⟩

end Cert.KernelIdeal.Gen

end
-- ==== Proof.RefRead.lean ====
/-
  The reference program's run, read one host operation at a time.
-/
import proofs.«174643_j41497974014138_1_alg».proof.Defs
import proofs.«174643_j41497974014138_1_alg».proof.Proof.Gen.ReferenceIdeal.Read
-- ==== Proof.KI.Host.lean ====
/-
  The contents of the kernel program's host-side buffers at the boundaries between its items, at the ideal values, as
  the reference's own terms of the argument arrays: the factor U scaled columnwise by relu(S + δ), the factor V, the
  Kronecker product, the activations flattened to rows — a conversion to bf16 is the identity there — and what the last
  host stretch makes of region 2's output (a reshape back, and a product with the constant one).
-/
import proofs.«174643_j41497974014138_1_alg».proof.Proof.KI.Run
import proofs.«174643_j41497974014138_1_alg».proof.Proof.Gen.ReferenceIdeal.Read
import Idealize.ShloMosaic.Lib.StableHlo.Run
import Idealize.ShloMosaic.PureOps.Ideal

noncomputable section

namespace Cert.KernelIdeal.Val

open Cert.KernelIdeal Cert.KernelIdeal.Gen Idealize.ShloMosaic Idealize.ShloMosaic.TcCoe Idealize.SL.Sem

variable (m : (ℓ : Loc nD τ sig) → Buf (Elt Ideal) ℓ)

/-- Region 0's left operand: U scaled columnwise by relu(S + δ), the reference's own term. -/
theorem v5_eq (c : Dev nD) : Rd6 (F := Ideal) m c main_v5
    = Cert.ReferenceIdeal.Read.val_main_v4 (F := Ideal) (m ((c : Thread nD τ).loc main_arg1)) (m ((c : Thread nD τ).loc main_arg2)) (m ((c : Thread nD τ).loc main_arg4)) := by
  show V6 (F := Ideal) m c (Proc.devRef .tc main_v5) = _
  dsimp only [V6, V5, V4, V3, V2, V1, V0, hostOps0, hostOps0_1, hostOps0_2, hostOps0_3, hostOps0_4, hostOps0_5]
  after_results
  rfl

/-- Region 0's right operand: V. -/
theorem v6_eq (c : Dev nD) : Rd6 (F := Ideal) m c main_v6 = m ((c : Thread nD τ).loc main_arg3) := by
  show V6 (F := Ideal) m c (Proc.devRef .tc main_v6) = _
  dsimp only [V6, V5, V4, V3, V2, V1, V0, hostOps0, hostOps0_1, hostOps0_2, hostOps0_3, hostOps0_4, hostOps0_5]
  after_results
  rfl

/-- Region 1's left operand: the Kronecker product, the reference's own term (region 0 does not touch it). -/
theorem v9_eq (c : Dev nD) : Rd7 (F := Ideal) m c main_v9
    = Cert.ReferenceIdeal.Read.val_main_v7 (F := Ideal) (m ((c : Thread nD τ).loc main_arg5)) (m ((c : Thread nD τ).loc main_arg6)) (m ((c : Thread nD τ).loc main_arg7)) := by
  refine (Wq7_of_ne m c main_v9 (by decide)).trans ?_
  show V6 (F := Ideal) m c (Proc.devRef .tc main_v9) = _
  dsimp only [V6, V5, V4, V3, V2, V1, V0, hostOps0, hostOps0_1, hostOps0_2, hostOps0_3, hostOps0_4, hostOps0_5]
  after_results
  rfl

/-- Region 1's right operand is region 0's output. -/
theorem v10_eq (c : Dev nD) : Rd7 (F := Ideal) m c main_v10 = (dat0 (Rd6 m) c).arrAt 2 cfg0.N := Wq7_arr m c 2

/-- The activations reach region 2's entry as launched. -/
theorem arg0_Wq8 (c : Dev nD) : Wq8 (F := Ideal) m c (Proc.devRef .tc main_arg0) = m ((c : Thread nD τ).loc main_arg0) :=
  (Wq8_of_ne m c main_arg0 (by decide)).trans <| (Wq7_of_ne m c main_arg0 (by decide)).trans <|
    (V6_of m c main_arg0 (by decide)).trans <| (V5_of m c main_arg0 (by decide)).trans <| (V4_of m c main_arg0 (by decide)).trans <|
    (V3_of m c main_arg0 (by decide)).trans <| (V2_of m c main_arg0 (by decide)).trans <| (V1_of m c main_arg0 (by decide)).trans rfl

/-- Region 2's left operand: the activations flattened to [16384, 3072]. -/
theorem v13_eq (c : Dev nD) : Rd9 (F := Ideal) m c main_v13
    = shapeCast S16384x3072 (m ((c : Thread nD τ).loc main_arg0)) shapeCasts_S4x4096x3072_S16384x3072 := by
  show StableHlo.after hostOps2 (Wq8 m c) (Proc.devRef .tc main_v13) = _
  dsimp only [hostOps2]
  after_results
  rw [arg0_Wq8]
  rfl

/-- Region 2's right operand is region 1's output (the host stretch between them does not write it). -/
theorem v11_eq (c : Dev nD) : Rd9 (F := Ideal) m c main_v11 = (dat1 (Rd7 m) c).arrAt 2 cfg1.N :=
  (StableHlo.after_of_writes_sub hostOps2 _ hostOps2_writes (by decide)).trans (Wq8_arr m c 2)

/-- Region 2's output. -/
theorem v14_eq (c : Dev nD) : Wq10 (F := Ideal) m c (Proc.devRef .tc main_v14) = (dat2 (Rd9 m) c).arrAt 2 cfg2.N := Wq10_arr m c 2

/-- The program's result: region 2's output reshaped to [4, 4096, 3072], times the constant one. -/
theorem v17_eq (c : Dev nD) : (Wq11 (F := Ideal) m c (Proc.devRef .tc main_v17) : FVec Ideal S4x4096x3072 .f32)
    = mulf (shapeCast S4x4096x3072 (Wq10 (F := Ideal) m c (Proc.devRef .tc main_v14) : FVec Ideal S16384x3072 .f32) shapeCasts_S16384x3072_S4x4096x3072)
        (broadcastInDim S4x4096x3072 ![] bcast_S_S4x4096x3072 (constant (F := Ideal) S_ .f32 0x3F800000#32)) := by
  dsimp only [Wq11, hostOps3]
  after_results
  rfl

end Cert.KernelIdeal.Val

end
-- ==== Proof.KI.MatProd.lean ====
/-
  The three matrix products of the program, on the extended reals, as whole-array functions: A·B and A·Bᵀ of two
  [3072, 3072] arrays, and X·B of a [16384, 3072] array of rows with a [3072, 3072] array.
-/
import proofs.«174643_j41497974014138_1_alg».proof.KernelIdeal
import Idealize.ShloMosaic.Lib.ValueIdx
import Idealize.ShloMosaic.PureOps.Ideal

noncomputable section

namespace Cert.KernelIdeal.Val

open Cert.KernelIdeal Idealize.ShloMosaic Idealize.ShloMosaic.ValueIdx

/-- Entry (o, b) of A·B: the sum over k of A(o, k) · B(k, b). -/
def mm (A B : S3072x3072.Idx → EReal) : S3072x3072.Idx → EReal :=
  fun i => ∑ k : Fin 3072, A (ix2 (⟨(i 0).val, idx2_lt0 i⟩ : Fin 3072) k) * B (ix2 k (⟨(i 1).val, idx2_lt1 i⟩ : Fin 3072))
theorem mm_apply (A B : S3072x3072.Idx → EReal) (o b : Fin 3072) :
    mm A B (ix2 o b) = ∑ k : Fin 3072, A (ix2 o k) * B (ix2 k b) := rfl

/-- Entry (a, o) of A·Bᵀ: the sum over b of A(a, b) · B(o, b). -/
def mmT (A B : S3072x3072.Idx → EReal) : S3072x3072.Idx → EReal :=
  fun i => ∑ k : Fin 3072, A (ix2 (⟨(i 0).val, idx2_lt0 i⟩ : Fin 3072) k) * B (ix2 (⟨(i 1).val, idx2_lt1 i⟩ : Fin 3072) k)
theorem mmT_apply (A B : S3072x3072.Idx → EReal) (a o : Fin 3072) :
    mmT A B (ix2 a o) = ∑ b : Fin 3072, A (ix2 a b) * B (ix2 o b) := rfl

/-- Entry (r, o) of X·B for X a [16384, 3072] array of rows. -/
def mmR (X : S16384x3072.Idx → EReal) (B : S3072x3072.Idx → EReal) : S16384x3072.Idx → EReal :=
  fun i => ∑ k : Fin 3072, X (ix2 (⟨(i 0).val, idx2_lt0 i⟩ : Fin 16384) k) * B (ix2 k (⟨(i 1).val, idx2_lt1 i⟩ : Fin 3072))
theorem mmR_apply (X : S16384x3072.Idx → EReal) (B : S3072x3072.Idx → EReal) (r : Fin 16384) (o : Fin 3072) :
    mmR X B (ix2 r o) = ∑ a : Fin 3072, X (ix2 r a) * B (ix2 a o) := rfl

end Cert.KernelIdeal.Val

end
-- ==== Proof.KI.Payload.lean ====
/-
  The three matmul kernels' store payloads, read at one element of a 1024 × 1024 block, at the ideal values
  (extended reals; the bf16 / f32 format changes are the identity there).

  * the first payload of each kernel is the zero block the accumulator starts from: every element is 0;
  * the second payload adds to the accumulator block the product of the two operand blocks: element (p, c) is
    acc (p, c) + Σ_k x0 (p, k) · x1 (k, c) for the kernels that contract the left operand's columns with the right
    operand's rows, and acc (p, c) + Σ_k x0 (p, k) · x1 (c, k) for the kernel that contracts the columns of BOTH
    operands (a product with the transposed right operand);
  * the third payload narrows the accumulator to the output format: at the ideal values it is the accumulator itself.
-/
import proofs.«174643_j41497974014138_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx Idealize.SL.Sem

/-! ## The two contractions' operand indices, coordinate by coordinate -/

/-- Rows-by-columns contraction: the left operand's row is the output's row. -/
theorem nn_lhs_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
/-- Its column is the contraction position. -/
theorem nn_lhs_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
/-- The right operand's row is the contraction position. -/
theorem nn_rhs_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
/-- Its column is the output's column. -/
theorem nn_rhs_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- Columns-by-columns contraction: the left operand's row is the output's row. -/
theorem nt_lhs_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
/-- Its column is the contraction position. -/
theorem nt_lhs_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
/-- The right operand's row is the output's column. -/
theorem nt_rhs_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
/-- Its column is the contraction position. -/
theorem nt_rhs_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-! ## The two block products into a zero accumulator, at an element -/

/-- Rows by columns: element (p, c) of the product is Σ_k a (p, k) · b (k, c). -/
theorem matmul_nn_apply (a b : FVec Ideal S1024x1024 .bf16) (p c : Fin 1024) :
    matmul dot_S1024x1024_S1024x1024_S1024x1024_1_0_0_1_n_n none a b (constant S1024x1024 .f32 0x00000000#32) (ix2 p c)
      = ∑ k : Fin 1024, a (ix2 p k) * b (ix2 k c) := by
  simp only [matmul]
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p c) ((contrEquiv1 dot_S1024x1024_S1024x1024_S1024x1024_1_0_0_1_n_n 1024 rfl rfl).symm k) = ix2 p k := funext fun d => Fin.ext (by
    match d with
    | ⟨0, _⟩ => exact nn_lhs_0 _ _
    | ⟨1, _⟩ => exact (nn_lhs_1 _ _).trans hk)
  have er : dot_S1024x1024_S1024x1024_S1024x1024_1_0_0_1_n_n.rhsIdx (ix2 p c) ((contrEquiv1 dot_S1024x1024_S1024x1024_S1024x1024_1_0_0_1_n_n 1024 rfl rfl).symm k) = ix2 k c := funext fun d => Fin.ext (by
    match d with
    | ⟨0, _⟩ => exact (nn_rhs_0 _ _).trans hk
    | ⟨1, _⟩ => exact nn_rhs_1 _ _)
  rw [el, er]

/-- Columns by columns: element (p, c) of the product is Σ_k a (p, k) · b (c, k). -/
theorem matmul_nt_apply (a b : FVec Ideal S1024x1024 .bf16) (p c : Fin 1024) :
    matmul dot_S1024x1024_S1024x1024_S1024x1024_1_1_0_0_n_n none a b (constant S1024x1024 .f32 0x00000000#32) (ix2 p c)
      = ∑ k : Fin 1024, a (ix2 p k) * b (ix2 c k) := by
  simp only [matmul]
  rw [Ideal.matmul_constant_zero_apply, ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p c) ((contrEquiv1 dot_S1024x1024_S1024x1024_S1024x1024_1_1_0_0_n_n 1024 rfl rfl).symm k) = ix2 p k := funext fun d => Fin.ext (by
    match d with
    | ⟨0, _⟩ => exact nt_lhs_0 _ _
    | ⟨1, _⟩ => exact (nt_lhs_1 _ _).trans hk)
  have er : dot_S1024x1024_S1024x1024_S1024x1024_1_1_0_0_n_n.rhsIdx (ix2 p c) ((contrEquiv1 dot_S1024x1024_S1024x1024_S1024x1024_1_1_0_0_n_n 1024 rfl rfl).symm k) = ix2 c k := funext fun d => Fin.ext (by
    match d with
    | ⟨0, _⟩ => exact nt_rhs_0 _ _
    | ⟨1, _⟩ => exact (nt_rhs_1 _ _).trans hk)
  rw [el, er]

/-! ## The payloads at an element -/

/-- The first kernel's accumulator starts from the zero block. -/
theorem k0_pay1_apply (p c : Fin 1024) : k0_pay1 (F := Ideal) (ix2 p c) = 0 := by
  unfold k0_pay1
  rw [shapeCast_self]
  exact Ideal.ofBits_zero_f32
/-- The second kernel's accumulator starts from the zero block. -/
theorem k1_pay1_apply (p c : Fin 1024) : k1_pay1 (F := Ideal) (ix2 p c) = 0 := by
  unfold k1_pay1
  rw [shapeCast_self]
  exact Ideal.ofBits_zero_f32
/-- The third kernel's accumulator starts from the zero block. -/
theorem k2_pay1_apply (p c : Fin 1024) : k2_pay1 (F := Ideal) (ix2 p c) = 0 := by
  unfold k2_pay1
  rw [shapeCast_self]
  exact Ideal.ofBits_zero_f32

/-- The first kernel's accumulation step: the accumulator plus the rows-by-columns product of the two blocks. -/
theorem k0_pay2_apply (x0 x1 : Vec Ideal S1024x1024 .bf16) (acc : Vec Ideal S1024x1024 .f32) (p c : Fin 1024) :
    k0_pay2 (F := Ideal) x0 x1 acc (ix2 p c) = acc (ix2 p c) + ∑ k : Fin 1024, x0 (ix2 p k) * x1 (ix2 k c) := by
  unfold k0_pay2
  simp only [shapeCast_self]
  rw [addf_apply, matmul_nn_apply]
/-- The second kernel's accumulation step: the accumulator plus the product of the left block with the TRANSPOSED right
    block (both operands are contracted along their columns). -/
theorem k1_pay2_apply (x0 x1 : Vec Ideal S1024x1024 .bf16) (acc : Vec Ideal S1024x1024 .f32) (p c : Fin 1024) :
    k1_pay2 (F := Ideal) x0 x1 acc (ix2 p c) = acc (ix2 p c) + ∑ k : Fin 1024, x0 (ix2 p k) * x1 (ix2 c k) := by
  unfold k1_pay2
  simp only [shapeCast_self]
  rw [addf_apply, matmul_nt_apply]
/-- The third kernel's accumulation step: the accumulator plus the rows-by-columns product of the two blocks. -/
theorem k2_pay2_apply (x0 x1 : Vec Ideal S1024x1024 .bf16) (acc : Vec Ideal S1024x1024 .f32) (p c : Fin 1024) :
    k2_pay2 (F := Ideal) x0 x1 acc (ix2 p c) = acc (ix2 p c) + ∑ k : Fin 1024, x0 (ix2 p k) * x1 (ix2 k c) := by
  unfold k2_pay2
  simp only [shapeCast_self]
  rw [addf_apply, matmul_nn_apply]

/-- The first kernel's output block is the accumulator narrowed to the output format: at the ideal values, itself. -/
theorem k0_pay3_apply (v : Vec Ideal S1024x1024 .f32) (p c : Fin 1024) : k0_pay3 (F := Ideal) v (ix2 p c) = v (ix2 p c) := rfl
/-- The second kernel's output block likewise. -/
theorem k1_pay3_apply (v : Vec Ideal S1024x1024 .f32) (p c : Fin 1024) : k1_pay3 (F := Ideal) v (ix2 p c) = v (ix2 p c) := rfl

end Cert.KernelIdeal.Payload

end
-- ==== Proof.LibBlockSum.lean ====
/-
  A sum over 3072 consecutive indices, cut into its three consecutive blocks of 1024.

  In any additive commutative monoid, for a function f on the indices 0 … 3071, adding to zero first the sum of f over
  the indices 0 … 1023, then the sum over 1024 … 2047, then the sum over 2048 … 3071 gives the sum of f over all 3072
  indices: the index range is the disjoint union of the three blocks, and a finite sum over a disjoint union is the sum
  of the sums. Nothing about the monoid is used beyond associativity, commutativity and the neutral element, so the law
  holds in particular for the extended reals, where no finiteness assumption is needed.

  The left side is written in exactly the order an accumulation that starts from zero and adds one block per step
  produces it: ((0 + block 0) + block 1) + block 2.
-/
import Mathlib.Algebra.BigOperators.Fin

open scoped BigOperators

namespace Cert.LibBlockSum

/-- The sum over an index range of length a + b + c is the sum over its first a indices, plus the sum over the next b,
    plus the sum over the last c. -/
theorem sum_univ_add_add {M : Type*} [AddCommMonoid M] {a b c : ℕ} (f : Fin (a + b + c) → M) :
    ∑ k : Fin (a + b + c), f k
      = (∑ k : Fin a, f (Fin.castAdd c (Fin.castAdd b k)) + ∑ k : Fin b, f (Fin.castAdd c (Fin.natAdd a k)))
          + ∑ k : Fin c, f (Fin.natAdd (a + b) k) := by
  rw [Fin.sum_univ_add, Fin.sum_univ_add]

/-- Three blocks of 1024 make 3072: accumulating from zero the sums of f over the blocks 0 … 1023, 1024 … 2047 and
    2048 … 3071, in this order, gives the sum of f over 0 … 3071. -/
theorem sum_three_blocks {M : Type*} [AddCommMonoid M] (f : Fin 3072 → M) :
    ((0 + ∑ k : Fin 1024, f ⟨k.val, by omega⟩) + ∑ k : Fin 1024, f ⟨1024 + k.val, by omega⟩)
        + ∑ k : Fin 1024, f ⟨2048 + k.val, by omega⟩ = ∑ k : Fin 3072, f k := by
  rw [zero_add]
  exact (sum_univ_add_add (a := 1024) (b := 1024) (c := 1024) f).symm

end Cert.LibBlockSum
-- ==== Proof.KI.Value0.lean ====
/-
  Region 0 (the first tiled matrix product): the array it leaves is the plain product of its two input arrays.

  The grid is (i, j, k) with k innermost, every block 1024 × 1024. At the three consecutive points k = 0, 1, 2 of
  one output block (i, j) the body accumulates, from zero, the products of block (i, k) of the left array with block
  (k, j) of the right array; at k = 2 it copies the accumulator into the output block. So element (p, q) of output
  block (i, j) is ((0 + Σ_k' L(1024 i + p, k') R(k', 1024 j + q)) + Σ_k' L(…, 1024 + k') R(1024 + k', …))
  + Σ_k' L(…, 2048 + k') R(2048 + k', …) over k' below 1024, which is the sum over all 3072 contraction positions;
  the output blocks tile the array, so the array ends holding the product, entry by entry.
-/
import proofs.«174643_j41497974014138_1_alg».proof.Proof.KI.Frame0
import proofs.«174643_j41497974014138_1_alg».proof.Proof.KI.Payload
import proofs.«174643_j41497974014138_1_alg».proof.Proof.LibBlockSum
import proofs.«174643_j41497974014138_1_alg».proof.Proof.KI.MatProd
import Idealize.ShloMosaic.Lib.Pipeline.Value
import Idealize.ShloMosaic.Lib.ValueIdx
import Idealize.ShloMosaic.Lib.Tactic

set_option maxRecDepth 16384

noncomputable section

open scoped BigOperators

namespace Cert.KernelIdeal.Val

open Cert.KernelIdeal Cert.KernelIdeal.Gen Cert.KernelIdeal.Payload
open Idealize.ShloMosaic Idealize.ShloMosaic.TcCoe Idealize.ShloMosaic.ValueIdx Idealize.SL.Sem
open Idealize.ShloMosaic.Pipeline (Dat)

theorem hz0 : (![0, 0] : Fin 2 → Nat) = fun _ => 0 := funext fun a => by fin_cases a <;> rfl

/-! ## What each case's stores leave, as the payloads of the blocks read -/

section Pieces0
variable {F : FTy → Type} [FloatOps F]

/-- At k = 0 the accumulator is cleared and the first product added: the accumulation step over the zero block. -/
theorem soutA0_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i)
    (x0 x1 : Vec F S1024x1024 .bf16) :
    sout0_A_0 c i arg3 harg3 arg4 harg4 arg5 harg5 arg6 harg6 hc0 hc1 x0 x1 = k0_pay2 x0 x1 k0_pay1 := by
  unfold sout0_A_0
  rw [View.read_writes_eq_canon _ _ _ (scover0_A_0 c i arg3 harg3 arg4 harg4 arg5 harg5 arg6 harg6 hc0 hc1 x0 x1)]
  unfold kernelRun0_A
  dsimp only
  try sl_unfold_words
  rw [View.canon_cons_unit_zero (S := S1024x1024) hz0, View.readCov_unit_zero (S := S1024x1024) _ hz0]
  simp only [View.readAt_eq_ld, harg3.read_unread, harg4.read_unread, View.ld_unit_zero (S := S1024x1024) hz0]

/-- At k = 1 the product is added onto what the accumulator held. -/
theorem soutB0_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : ¬cond0_1 i)
    (x0 x1 : Vec F S1024x1024 .bf16) (xs0 : Vec F S1024x1024 .f32) :
    sout0_B_0 c i arg3 harg3 arg4 harg4 arg5 harg5 arg6 harg6 hc0 hc1 x0 x1 xs0 = k0_pay2 x0 x1 xs0 := by
  unfold sout0_B_0
  rw [View.read_writes_eq_canon _ _ _ (scover0_B_0 c i arg3 harg3 arg4 harg4 arg5 harg5 arg6 harg6 hc0 hc1 x0 x1 xs0)]
  unfold kernelRun0_B
  dsimp only
  try sl_unfold_words
  rw [View.canon_unit_zero hz0]
  simp only [View.readAt_eq_ld, harg3.read_unread, harg4.read_unread, harg6.read_unread, View.ld_unit_zero (S := S1024x1024) hz0]

/-- At k = 2 the output block receives the accumulator after this point's product was added, in the output format. -/
theorem outC0_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 x1 : Vec F S1024x1024 .bf16) (xs0 : Vec F S1024x1024 .f32) :
    out0_C_2 c i arg3 harg3 arg4 harg4 arg5 harg5 arg6 harg6 hc0 hc1 x0 x1 xs0 = k0_pay3 (k0_pay2 x0 x1 xs0) := by
  unfold out0_C_2
  rw [View.read_writes_eq_canon _ _ _ (cover0_C_2 c i arg3 harg3 arg4 harg4 arg5 harg5 arg6 harg6 hc0 hc1 x0 x1 xs0)]
  unfold kernelRun0_C
  dsimp only
  try sl_unfold_words
  rw [View.canon_unit_zero hz0, View.readCov_unit_zero (S := S1024x1024) _ hz0]
  simp only [View.readAt_eq_ld, harg3.read_unread, harg4.read_unread, harg6.read_unread, View.ld_unit_zero (S := S1024x1024) hz0]

end Pieces0

/-! ## Where the blocks sit in their arrays -/

/-- The printed index maps over the grid, point by point: the left array's block is (i, k), the right array's (k, j),
    the output's (i, j), for the point t = 9 i + 3 j + k. -/
theorem idx0 : ∀ t : Fin cfg0.N,
    win0_0.index t (0 : Fin 2) = t.val / 9 ∧ win0_0.index t (1 : Fin 2) = t.val % 3
    ∧ win0_1.index t (0 : Fin 2) = t.val % 3 ∧ win0_1.index t (1 : Fin 2) = t.val / 3 % 3
    ∧ win0_2.index t (0 : Fin 2) = t.val / 9 ∧ win0_2.index t (1 : Fin 2) = t.val / 3 % 3 :=
  (by decide +kernel : ∀ t : Fin grid0.N,
    win0_0.index t (0 : Fin 2) = t.val / 9 ∧ win0_0.index t (1 : Fin 2) = t.val % 3
    ∧ win0_1.index t (0 : Fin 2) = t.val % 3 ∧ win0_1.index t (1 : Fin 2) = t.val / 3 % 3
    ∧ win0_2.index t (0 : Fin 2) = t.val / 9 ∧ win0_2.index t (1 : Fin 2) = t.val / 3 % 3)

section Blocks0
variable (V : (c : Dev nD) → (b : Ref sig .tc) → Buf (Elt Ideal) ((c : Thread nD τ).loc b))

/-- Element (p, k) of the left array's block at point t is the array's element (1024 (t / 9) + p, 1024 (t mod 3) + k). -/
theorem iblk0_0_apply (c : Dev nD) (A : S3072x3072.Idx → EReal) (hA : A = V c main_v5) (t : Fin cfg0.N) (p k : Fin 1024) (P K : Fin 3072)
    (hP : P.val = 1024 * (t.val / 9) + p.val) (hK : K.val = 1024 * (t.val % 3) + k.val) :
    (iblk0 V c 0 t : Vec Ideal S1024x1024 .bf16) (ix2 p k) = A (ix2 P K) := by
  subst hA
  obtain ⟨e0, e1, -⟩ := idx0 t
  unfold iblk0
  rw [View.read_apply]
  show (V c main_v5 : S3072x3072.Idx → EReal) _ = (V c main_v5 : S3072x3072.Idx → EReal) _
  congr 1
  funext a
  apply Fin.ext
  match a with
  | ⟨0, _⟩ => show win0_0.index t 0 * 1024 + 1 * p.val = P.val; rw [e0, hP]; omega
  | ⟨1, _⟩ => show win0_0.index t 1 * 1024 + 1 * k.val = K.val; rw [e1, hK]; omega

/-- Element (k, q) of the right array's block at point t is the array's element (1024 (t mod 3) + k, 1024 (t / 3 mod 3) + q). -/
theorem iblk0_1_apply (c : Dev nD) (B : S3072x3072.Idx → EReal) (hB : B = V c main_v6) (t : Fin cfg0.N) (k q : Fin 1024) (K Q : Fin 3072)
    (hK : K.val = 1024 * (t.val % 3) + k.val) (hQ : Q.val = 1024 * (t.val / 3 % 3) + q.val) :
    (iblk0 V c 1 t : Vec Ideal S1024x1024 .bf16) (ix2 k q) = B (ix2 K Q) := by
  subst hB
  obtain ⟨-, -, e2, e3, -⟩ := idx0 t
  unfold iblk0
  rw [View.read_apply]
  show (V c main_v6 : S3072x3072.Idx → EReal) _ = (V c main_v6 : S3072x3072.Idx → EReal) _
  congr 1
  funext a
  apply Fin.ext
  match a with
  | ⟨0, _⟩ => show win0_1.index t 0 * 1024 + 1 * k.val = K.val; rw [e2, hK]; omega
  | ⟨1, _⟩ => show win0_1.index t 1 * 1024 + 1 * q.val = Q.val; rw [e3, hQ]; omega

end Blocks0

/-! ## The three points of one output block -/

section Steps0
variable {F : FTy → Type} [FloatOps F]
variable (V : (c : Dev nD) → (b : Ref sig .tc) → Buf (Elt F) ((c : Thread nD τ).loc b))

/-- After the point k = 0 of an output block the accumulator holds the first product added to the zero block. -/
theorem acc0_0 (c : Dev nD) (n : ℕ) (hn : n < cfg0.N) (h3 : n % 3 = 0) :
    (outsAt0 V c n hn).2 = k0_pay2 (iblk0 V c 0 ⟨n, hn⟩) (iblk0 V c 1 ⟨n, hn⟩) k0_pay1 := by
  have h1 : ¬n % 3 = 2 := by omega
  rw [outsAt0_A V c ⟨n, hn⟩ h3 h1]
  dsimp only
  exact soutA0_eq (F := F) _ _ _ _ _ _ _ _ _ _ _ _ _ _

/-- After the point k = 1 it holds the second product added to that. -/
theorem acc0_1 (c : Dev nD) (n : ℕ) (hn : n + 1 < cfg0.N) (h3 : n % 3 = 0) :
    (outsAt0 V c (n + 1) hn).2
      = k0_pay2 (iblk0 V c 0 ⟨n + 1, hn⟩) (iblk0 V c 1 ⟨n + 1, hn⟩) (outsAt0 V c n (Nat.lt_of_succ_lt hn)).2 := by
  have h0 : ¬(n + 1) % 3 = 0 := by omega
  have h1 : ¬(n + 1) % 3 = 2 := by omega
  rw [outsAt0_B V c ⟨n + 1, hn⟩ h0 h1]
  dsimp only
  exact soutB0_eq (F := F) _ _ _ _ _ _ _ _ _ _ _ _ _ _ _

/-- At the point k = 2 the output block receives the third product added to that, in the output format. -/
theorem out0_2 (c : Dev nD) (n : ℕ) (hn : n + 2 < cfg0.N) (h3 : n % 3 = 0) :
    (outsAt0 V c (n + 2) hn).1
      = k0_pay3 (k0_pay2 (iblk0 V c 0 ⟨n + 2, hn⟩) (iblk0 V c 1 ⟨n + 2, hn⟩) (outsAt0 V c (n + 1) (Nat.lt_of_succ_lt hn)).2) := by
  have h0 : ¬(n + 2) % 3 = 0 := by omega
  have h1 : (n + 2) % 3 = 2 := by omega
  rw [outsAt0_C V c ⟨n + 2, hn⟩ h0 h1]
  dsimp only
  exact outC0_eq (F := F) _ _ _ _ _ _ _ _ _ _ _ _ _ _ _

end Steps0

/-! ## The output array -/

section Region0
variable (V : (c : Dev nD) → (b : Ref sig .tc) → Buf (Elt Ideal) ((c : Thread nD τ).loc b))

/-- Element (p, q) of the output block whose three points are n, n + 1, n + 2: the full contraction of row
    1024 (n / 9) + p of the left array with column 1024 (n / 3 mod 3) + q of the right array. -/
theorem block0_apply (c : Dev nD) (A B : S3072x3072.Idx → EReal) (hA : A = V c main_v5) (hB : B = V c main_v6)
    (n : ℕ) (hn : n + 2 < cfg0.N) (h3 : n % 3 = 0) (p q : Fin 1024) (P Q : Fin 3072)
    (hP : P.val = 1024 * (n / 9) + p.val) (hQ : Q.val = 1024 * (n / 3 % 3) + q.val) :
    (outsAt0 V c (n + 2) hn).1 (ix2 p q) = ∑ k : Fin 3072, A (ix2 P k) * B (ix2 k Q) := by
  rw [out0_2 V c n hn h3, k0_pay3_apply, k0_pay2_apply, acc0_1 V c n _ h3, k0_pay2_apply, acc0_0 V c n _ h3, k0_pay2_apply, k0_pay1_apply]
  refine Eq.trans ?_ (Cert.LibBlockSum.sum_three_blocks (fun k : Fin 3072 => A (ix2 P k) * B (ix2 k Q)))
  refine congrArg₂ (· + ·) (congrArg₂ (· + ·) (congrArg (0 + ·) ?_) ?_) ?_
  · exact Finset.sum_congr rfl fun k _ => by
      rw [iblk0_0_apply V c A hA ⟨n, _⟩ p k P ⟨k.val, by omega⟩ (by dsimp only; omega) (by dsimp only; omega),
        iblk0_1_apply V c B hB ⟨n, _⟩ k q ⟨k.val, by omega⟩ Q (by dsimp only; omega) (by dsimp only; omega)]
  · exact Finset.sum_congr rfl fun k _ => by
      rw [iblk0_0_apply V c A hA ⟨n + 1, _⟩ p k P ⟨1024 + k.val, by omega⟩ (by dsimp only; omega) (by dsimp only; omega),
        iblk0_1_apply V c B hB ⟨n + 1, _⟩ k q ⟨1024 + k.val, by omega⟩ Q (by dsimp only; omega) (by dsimp only; omega)]
  · exact Finset.sum_congr rfl fun k _ => by
      rw [iblk0_0_apply V c A hA ⟨n + 2, _⟩ p k P ⟨2048 + k.val, by omega⟩ (by dsimp only; omega) (by dsimp only; omega),
        iblk0_1_apply V c B hB ⟨n + 2, _⟩ k q ⟨2048 + k.val, by omega⟩ Q (by dsimp only; omega) (by dsimp only; omega)]

end Region0

section Final0
variable (V : (c : Dev nD) → (b : Ref sig .tc) → Buf (Elt Ideal) ((c : Thread nD τ).loc b))

/-- What a point k = 2 writes back is its block of the product array. -/
theorem flushed0_eq (c : Dev nD) (A B : S3072x3072.Idx → EReal) (hA : A = V c main_v5) (hB : B = V c main_v6)
    (t : Fin cfg0.N) (hf : (cfg0.win 2).flush t = true) :
    (dat0 V c).flushed 2 t = ((cfg0.win 2).blk t).view.read (Elt Ideal) (mm A B) := by
  have h2 : t.val % 3 = 2 := (flush0_2 t).mp hf
  obtain ⟨-, -, -, -, e4, e5⟩ := idx0 t
  show (cfg0.win 2).cut (grid0.coords t) ((dat0 V c).after 2 t) = _
  rw [after0_2]
  obtain ⟨tv, ht⟩ := t
  obtain ⟨n, rfl⟩ : ∃ n, tv = n + 2 := ⟨tv - 2, by dsimp only at h2; omega⟩
  have h3 : n % 3 = 0 := by dsimp only at h2; omega
  have ht' : n + 2 < 27 := lt_of_lt_of_eq ht (show cfg0.N = 27 from N_0)
  dsimp only at e4 e5
  funext j
  obtain ⟨p, q, rfl⟩ : ∃ (p q : Fin 1024), j = ix2 p q := ⟨j 0, j 1, eq_ix2 j⟩
  rw [View.read_apply]
  have hx : (cfg0.win 2).xinj (grid0.coords ⟨n + 2, ht⟩) (ix2 p q) = ix2 p q :=
    funext fun a => by match a with | ⟨0, _⟩ => rfl | ⟨1, _⟩ => rfl
  have he : ((cfg0.win 2).blk ⟨n + 2, ht⟩).view.emb (ix2 p q)
      = (ix2 (⟨1024 * (n / 9) + p.val, by omega⟩ : Fin 3072) (⟨1024 * (n / 3 % 3) + q.val, by omega⟩ : Fin 3072) : S3072x3072.Idx) :=
    funext fun a => Fin.ext (by
      match a with
      | ⟨0, _⟩ => show win0_2.index ⟨n + 2, ht⟩ 0 * 1024 + 1 * p.val = 1024 * (n / 9) + p.val; rw [e4]; omega
      | ⟨1, _⟩ => show win0_2.index ⟨n + 2, ht⟩ 1 * 1024 + 1 * q.val = 1024 * (n / 3 % 3) + q.val; rw [e5]; omega)
  show (outsAt0 V c (n + 2) ht).1 ((cfg0.win 2).xinj (grid0.coords ⟨n + 2, ht⟩) (ix2 p q)) = mm A B (((cfg0.win 2).blk ⟨n + 2, ht⟩).view.emb (ix2 p q))
  rw [hx, he, mm_apply]
  exact block0_apply V c A B hA hB n ht h3 p q _ _ rfl rfl

/-- Every entry of the output array lies in the block of a point k = 2: the blocks (i, j) tile it. -/
theorem cover0 (c : Dev nD) (i : ((cfg0.win 2).arr.view.loc (c.tc : Thread nD τ)).2.ty.Idx) :
    ∃ t : Fin cfg0.N, (cfg0.win 2).flush t = true ∧ i ∈ ((cfg0.win 2).blk t).view.set := by
  have h0 : (i 0 : Nat) < 3072 := (i 0).isLt
  have h1 : (i 1 : Nat) < 3072 := (i 1).isLt
  have hN : cfg0.N = 27 := N_0
  have hlt : 9 * ((i 0 : Nat) / 1024) + 3 * ((i 1 : Nat) / 1024) + 2 < cfg0.N := by rw [hN]; omega
  obtain ⟨-, -, -, -, e4, e5⟩ := idx0 ⟨_, hlt⟩
  dsimp only at e4 e5
  refine ⟨⟨_, hlt⟩, (flush0_2 _).mpr (by dsimp only; omega), ?_⟩
  show i ∈ ((View.whole main_v10).slice (win0_2.rect ⟨_, hlt⟩)).set
  rw [View.set_slice_whole, Rect.mem_set_unit]
  intro a
  match a with
  | ⟨0, _⟩ =>
    show win0_2.index ⟨_, hlt⟩ 0 * 1024 ≤ (i 0 : Nat) ∧ (i 0 : Nat) < win0_2.index ⟨_, hlt⟩ 0 * 1024 + 1024
    rw [e4]; omega
  | ⟨1, _⟩ =>
    show win0_2.index ⟨_, hlt⟩ 1 * 1024 ≤ (i 1 : Nat) ∧ (i 1 : Nat) < win0_2.index ⟨_, hlt⟩ 1 * 1024 + 1024
    rw [e5]; omega

/-- The array region 0 leaves is the product of its two input arrays as the region finds them. -/
theorem final0 (c : Dev nD) : (dat0 (F := Ideal) V c).arrAt 2 cfg0.N = mm (V c main_v5) (V c main_v6) :=
  (dat0 V c).arrAt_eq_of_cover 2 (mm (V c main_v5) (V c main_v6))
    (fun t hf => flushed0_eq V c (V c main_v5) (V c main_v6) rfl rfl t hf) (cover0 c)

end Final0

end Cert.KernelIdeal.Val

end
-- ==== Proof.KI.Value1.lean ====
/-
  Region 1 (the second tiled matrix product): the array it leaves is the product of its left input array with the
  TRANSPOSE of its right input array.

  The grid is (i, j, k) with k innermost, every block 1024 × 1024. At the three consecutive points k = 0, 1, 2 of
  one output block (i, j) the body accumulates, from zero, the products of block (i, k) of the left array with the
  transpose of block (j, k) of the right array (both blocks are contracted along their columns); at k = 2 it copies
  the accumulator into the output block. So element (p, q) of output block (i, j) is
  ((0 + Σ_k' L(1024 i + p, k') R(1024 j + q, k')) + Σ_k' L(…, 1024 + k') R(…, 1024 + k')) + Σ_k' L(…, 2048 + k') R(…, 2048 + k')
  over k' below 1024, which is the sum over all 3072 contraction positions; the output blocks tile the array, so the
  array ends holding L · Rᵀ, entry by entry.
-/
import proofs.«174643_j41497974014138_1_alg».proof.Proof.KI.Frame1
import proofs.«174643_j41497974014138_1_alg».proof.Proof.KI.Payload
import proofs.«174643_j41497974014138_1_alg».proof.Proof.LibBlockSum
import proofs.«174643_j41497974014138_1_alg».proof.Proof.KI.MatProd
import Idealize.ShloMosaic.Lib.Pipeline.Value
import Idealize.ShloMosaic.Lib.ValueIdx
import Idealize.ShloMosaic.Lib.Tactic

set_option maxRecDepth 16384

noncomputable section

open scoped BigOperators

namespace Cert.KernelIdeal.Val

open Cert.KernelIdeal Cert.KernelIdeal.Gen Cert.KernelIdeal.Payload
open Idealize.ShloMosaic Idealize.ShloMosaic.TcCoe Idealize.ShloMosaic.ValueIdx Idealize.SL.Sem
open Idealize.ShloMosaic.Pipeline (Dat)

theorem hz1 : (![0, 0] : Fin 2 → Nat) = fun _ => 0 := funext fun a => by fin_cases a <;> rfl

/-! ## What each case's stores leave, as the payloads of the blocks read -/

section Pieces1
variable {F : FTy → Type} [FloatOps F]

/-- At k = 0 the accumulator is cleared and the first product added: the accumulation step over the zero block. -/
theorem soutA1_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : cond1_0 i) (hc1 : ¬cond1_1 i)
    (x0 x1 : Vec F S1024x1024 .bf16) :
    sout1_A_0 c i arg3 harg3 arg4 harg4 arg5 harg5 arg6 harg6 hc0 hc1 x0 x1 = k1_pay2 x0 x1 k1_pay1 := by
  unfold sout1_A_0
  rw [View.read_writes_eq_canon _ _ _ (scover1_A_0 c i arg3 harg3 arg4 harg4 arg5 harg5 arg6 harg6 hc0 hc1 x0 x1)]
  unfold kernelRun1_A
  dsimp only
  try sl_unfold_words
  rw [View.canon_cons_unit_zero (S := S1024x1024) hz1, View.readCov_unit_zero (S := S1024x1024) _ hz1]
  simp only [View.readAt_eq_ld, harg3.read_unread, harg4.read_unread, View.ld_unit_zero (S := S1024x1024) hz1]

/-- At k = 1 the product is added onto what the accumulator held. -/
theorem soutB1_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond1_0 i) (hc1 : ¬cond1_1 i)
    (x0 x1 : Vec F S1024x1024 .bf16) (xs0 : Vec F S1024x1024 .f32) :
    sout1_B_0 c i arg3 harg3 arg4 harg4 arg5 harg5 arg6 harg6 hc0 hc1 x0 x1 xs0 = k1_pay2 x0 x1 xs0 := by
  unfold sout1_B_0
  rw [View.read_writes_eq_canon _ _ _ (scover1_B_0 c i arg3 harg3 arg4 harg4 arg5 harg5 arg6 harg6 hc0 hc1 x0 x1 xs0)]
  unfold kernelRun1_B
  dsimp only
  try sl_unfold_words
  rw [View.canon_unit_zero hz1]
  simp only [View.readAt_eq_ld, harg3.read_unread, harg4.read_unread, harg6.read_unread, View.ld_unit_zero (S := S1024x1024) hz1]

/-- At k = 2 the output block receives the accumulator after this point's product was added, in the output format. -/
theorem outC1_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond1_0 i) (hc1 : cond1_1 i)
    (x0 x1 : Vec F S1024x1024 .bf16) (xs0 : Vec F S1024x1024 .f32) :
    out1_C_2 c i arg3 harg3 arg4 harg4 arg5 harg5 arg6 harg6 hc0 hc1 x0 x1 xs0 = k1_pay3 (k1_pay2 x0 x1 xs0) := by
  unfold out1_C_2
  rw [View.read_writes_eq_canon _ _ _ (cover1_C_2 c i arg3 harg3 arg4 harg4 arg5 harg5 arg6 harg6 hc0 hc1 x0 x1 xs0)]
  unfold kernelRun1_C
  dsimp only
  try sl_unfold_words
  rw [View.canon_unit_zero hz1, View.readCov_unit_zero (S := S1024x1024) _ hz1]
  simp only [View.readAt_eq_ld, harg3.read_unread, harg4.read_unread, harg6.read_unread, View.ld_unit_zero (S := S1024x1024) hz1]

end Pieces1

/-! ## Where the blocks sit in their arrays -/

/-- The printed index maps over the grid, point by point: the left array's block is (i, k), the right array's (j, k),
    the output's (i, j), for the point t = 9 i + 3 j + k. -/
theorem idx1 : ∀ t : Fin cfg1.N,
    win1_0.index t (0 : Fin 2) = t.val / 9 ∧ win1_0.index t (1 : Fin 2) = t.val % 3
    ∧ win1_1.index t (0 : Fin 2) = t.val / 3 % 3 ∧ win1_1.index t (1 : Fin 2) = t.val % 3
    ∧ win1_2.index t (0 : Fin 2) = t.val / 9 ∧ win1_2.index t (1 : Fin 2) = t.val / 3 % 3 :=
  (by decide +kernel : ∀ t : Fin grid1.N,
    win1_0.index t (0 : Fin 2) = t.val / 9 ∧ win1_0.index t (1 : Fin 2) = t.val % 3
    ∧ win1_1.index t (0 : Fin 2) = t.val / 3 % 3 ∧ win1_1.index t (1 : Fin 2) = t.val % 3
    ∧ win1_2.index t (0 : Fin 2) = t.val / 9 ∧ win1_2.index t (1 : Fin 2) = t.val / 3 % 3)

section Blocks1
variable (V : (c : Dev nD) → (b : Ref sig .tc) → Buf (Elt Ideal) ((c : Thread nD τ).loc b))

/-- Element (p, k) of the left array's block at point t is the array's element (1024 (t / 9) + p, 1024 (t mod 3) + k). -/
theorem iblk1_0_apply (c : Dev nD) (A : S3072x3072.Idx → EReal) (hA : A = V c main_v9) (t : Fin cfg1.N) (p k : Fin 1024) (P : Fin 3072) (K : Fin 3072)
    (hP : P.val = 1024 * (t.val / 9) + p.val) (hK : K.val = 1024 * (t.val % 3) + k.val) :
    (iblk1 V c 0 t : Vec Ideal S1024x1024 .bf16) (ix2 p k) = A (ix2 P K) := by
  subst hA
  obtain ⟨e0, e1, -⟩ := idx1 t
  unfold iblk1
  rw [View.read_apply]
  show (V c main_v9 : S3072x3072.Idx → EReal) _ = (V c main_v9 : S3072x3072.Idx → EReal) _
  congr 1
  funext a
  apply Fin.ext
  match a with
  | ⟨0, _⟩ => show win1_0.index t 0 * 1024 + 1 * p.val = P.val; rw [e0, hP]; omega
  | ⟨1, _⟩ => show win1_0.index t 1 * 1024 + 1 * k.val = K.val; rw [e1, hK]; omega

/-- Element (q, k) of the right array's block at point t is the array's element (1024 (t / 3 mod 3) + q, 1024 (t mod 3) + k). -/
theorem iblk1_1_apply (c : Dev nD) (B : S3072x3072.Idx → EReal) (hB : B = V c main_v10) (t : Fin cfg1.N) (q k : Fin 1024) (Q K : Fin 3072)
    (hQ : Q.val = 1024 * (t.val / 3 % 3) + q.val) (hK : K.val = 1024 * (t.val % 3) + k.val) :
    (iblk1 V c 1 t : Vec Ideal S1024x1024 .bf16) (ix2 q k) = B (ix2 Q K) := by
  subst hB
  obtain ⟨-, -, e2, e3, -⟩ := idx1 t
  unfold iblk1
  rw [View.read_apply]
  show (V c main_v10 : S3072x3072.Idx → EReal) _ = (V c main_v10 : S3072x3072.Idx → EReal) _
  congr 1
  funext a
  apply Fin.ext
  match a with
  | ⟨0, _⟩ => show win1_1.index t 0 * 1024 + 1 * q.val = Q.val; rw [e2, hQ]; omega
  | ⟨1, _⟩ => show win1_1.index t 1 * 1024 + 1 * k.val = K.val; rw [e3, hK]; omega

end Blocks1

/-! ## The three points of one output block -/

section Steps1
variable {F : FTy → Type} [FloatOps F]
variable (V : (c : Dev nD) → (b : Ref sig .tc) → Buf (Elt F) ((c : Thread nD τ).loc b))

/-- After the point k = 0 of an output block the accumulator holds the first product added to the zero block. -/
theorem acc1_0 (c : Dev nD) (n : ℕ) (hn : n < cfg1.N) (h3 : n % 3 = 0) :
    (outsAt1 V c n hn).2 = k1_pay2 (iblk1 V c 0 ⟨n, hn⟩) (iblk1 V c 1 ⟨n, hn⟩) k1_pay1 := by
  have h1 : ¬n % 3 = 2 := by omega
  rw [outsAt1_A V c ⟨n, hn⟩ h3 h1]
  dsimp only
  exact soutA1_eq (F := F) _ _ _ _ _ _ _ _ _ _ _ _ _ _

/-- After the point k = 1 it holds the second product added to that. -/
theorem acc1_1 (c : Dev nD) (n : ℕ) (hn : n + 1 < cfg1.N) (h3 : n % 3 = 0) :
    (outsAt1 V c (n + 1) hn).2
      = k1_pay2 (iblk1 V c 0 ⟨n + 1, hn⟩) (iblk1 V c 1 ⟨n + 1, hn⟩) (outsAt1 V c n (Nat.lt_of_succ_lt hn)).2 := by
  have h0 : ¬(n + 1) % 3 = 0 := by omega
  have h1 : ¬(n + 1) % 3 = 2 := by omega
  rw [outsAt1_B V c ⟨n + 1, hn⟩ h0 h1]
  dsimp only
  exact soutB1_eq (F := F) _ _ _ _ _ _ _ _ _ _ _ _ _ _ _

/-- At the point k = 2 the output block receives the third product added to that, in the output format. -/
theorem out1_2 (c : Dev nD) (n : ℕ) (hn : n + 2 < cfg1.N) (h3 : n % 3 = 0) :
    (outsAt1 V c (n + 2) hn).1
      = k1_pay3 (k1_pay2 (iblk1 V c 0 ⟨n + 2, hn⟩) (iblk1 V c 1 ⟨n + 2, hn⟩) (outsAt1 V c (n + 1) (Nat.lt_of_succ_lt hn)).2) := by
  have h0 : ¬(n + 2) % 3 = 0 := by omega
  have h1 : (n + 2) % 3 = 2 := by omega
  rw [outsAt1_C V c ⟨n + 2, hn⟩ h0 h1]
  dsimp only
  exact outC1_eq (F := F) _ _ _ _ _ _ _ _ _ _ _ _ _ _ _

end Steps1

/-! ## The output array -/

section Region1
variable (V : (c : Dev nD) → (b : Ref sig .tc) → Buf (Elt Ideal) ((c : Thread nD τ).loc b))

/-- Element (p, q) of the output block whose three points are n, n + 1, n + 2: the full contraction of row
    1024 (n / 9) + p of the left array with row 1024 (n / 3 mod 3) + q of the right array. -/
theorem block1_apply (c : Dev nD) (A : S3072x3072.Idx → EReal) (B : S3072x3072.Idx → EReal) (hA : A = V c main_v9) (hB : B = V c main_v10)
    (n : ℕ) (hn : n + 2 < cfg1.N) (h3 : n % 3 = 0) (p q : Fin 1024) (P : Fin 3072) (Q : Fin 3072)
    (hP : P.val = 1024 * (n / 9) + p.val) (hQ : Q.val = 1024 * (n / 3 % 3) + q.val) :
    (outsAt1 V c (n + 2) hn).1 (ix2 p q) = ∑ k : Fin 3072, A (ix2 P k) * B (ix2 Q k) := by
  rw [out1_2 V c n hn h3, k1_pay3_apply, k1_pay2_apply, acc1_1 V c n _ h3, k1_pay2_apply, acc1_0 V c n _ h3, k1_pay2_apply, k1_pay1_apply]
  refine Eq.trans ?_ (Cert.LibBlockSum.sum_three_blocks (fun k : Fin 3072 => A (ix2 P k) * B (ix2 Q k)))
  refine congrArg₂ (· + ·) (congrArg₂ (· + ·) (congrArg (0 + ·) ?_) ?_) ?_
  · exact Finset.sum_congr rfl fun k _ => by
      rw [iblk1_0_apply V c A hA ⟨n, _⟩ p k P ⟨k.val, by omega⟩ (by dsimp only; omega) (by dsimp only; omega),
        iblk1_1_apply V c B hB ⟨n, _⟩ q k Q ⟨k.val, by omega⟩ (by dsimp only; omega) (by dsimp only; omega)]
  · exact Finset.sum_congr rfl fun k _ => by
      rw [iblk1_0_apply V c A hA ⟨n + 1, _⟩ p k P ⟨1024 + k.val, by omega⟩ (by dsimp only; omega) (by dsimp only; omega),
        iblk1_1_apply V c B hB ⟨n + 1, _⟩ q k Q ⟨1024 + k.val, by omega⟩ (by dsimp only; omega) (by dsimp only; omega)]
  · exact Finset.sum_congr rfl fun k _ => by
      rw [iblk1_0_apply V c A hA ⟨n + 2, _⟩ p k P ⟨2048 + k.val, by omega⟩ (by dsimp only; omega) (by dsimp only; omega),
        iblk1_1_apply V c B hB ⟨n + 2, _⟩ q k Q ⟨2048 + k.val, by omega⟩ (by dsimp only; omega) (by dsimp only; omega)]

end Region1

section Final1
variable (V : (c : Dev nD) → (b : Ref sig .tc) → Buf (Elt Ideal) ((c : Thread nD τ).loc b))

/-- What a point k = 2 writes back is its block of the product array. -/
theorem flushed1_eq (c : Dev nD) (A : S3072x3072.Idx → EReal) (B : S3072x3072.Idx → EReal) (hA : A = V c main_v9) (hB : B = V c main_v10)
    (t : Fin cfg1.N) (hf : (cfg1.win 2).flush t = true) :
    (dat1 V c).flushed 2 t = ((cfg1.win 2).blk t).view.read (Elt Ideal) (mmT A B) := by
  have h2 : t.val % 3 = 2 := (flush1_2 t).mp hf
  obtain ⟨-, -, -, -, e4, e5⟩ := idx1 t
  show (cfg1.win 2).cut (grid1.coords t) ((dat1 V c).after 2 t) = _
  rw [after1_2]
  obtain ⟨tv, ht⟩ := t
  obtain ⟨n, rfl⟩ : ∃ n, tv = n + 2 := ⟨tv - 2, by dsimp only at h2; omega⟩
  have h3 : n % 3 = 0 := by dsimp only at h2; omega
  have ht' : n + 2 < 27 := lt_of_lt_of_eq ht (show cfg1.N = 27 from N_1)
  dsimp only at e4 e5
  funext j
  obtain ⟨p, q, rfl⟩ : ∃ (p q : Fin 1024), j = ix2 p q := ⟨j 0, j 1, eq_ix2 j⟩
  rw [View.read_apply]
  have hx : (cfg1.win 2).xinj (grid1.coords ⟨n + 2, ht⟩) (ix2 p q) = ix2 p q :=
    funext fun a => by match a with | ⟨0, _⟩ => rfl | ⟨1, _⟩ => rfl
  have he : ((cfg1.win 2).blk ⟨n + 2, ht⟩).view.emb (ix2 p q)
      = (ix2 (⟨1024 * (n / 9) + p.val, by omega⟩ : Fin 3072) (⟨1024 * (n / 3 % 3) + q.val, by omega⟩ : Fin 3072) : S3072x3072.Idx) :=
    funext fun a => Fin.ext (by
      match a with
      | ⟨0, _⟩ => show win1_2.index ⟨n + 2, ht⟩ 0 * 1024 + 1 * p.val = 1024 * (n / 9) + p.val; rw [e4]; omega
      | ⟨1, _⟩ => show win1_2.index ⟨n + 2, ht⟩ 1 * 1024 + 1 * q.val = 1024 * (n / 3 % 3) + q.val; rw [e5]; omega)
  show (outsAt1 V c (n + 2) ht).1 ((cfg1.win 2).xinj (grid1.coords ⟨n + 2, ht⟩) (ix2 p q)) = mmT A B (((cfg1.win 2).blk ⟨n + 2, ht⟩).view.emb (ix2 p q))
  rw [hx, he, mmT_apply]
  exact block1_apply V c A B hA hB n ht h3 p q _ _ rfl rfl

/-- Every entry of the output array lies in the block of a point k = 2: the blocks (i, j) tile it. -/
theorem cover1 (c : Dev nD) (i : ((cfg1.win 2).arr.view.loc (c.tc : Thread nD τ)).2.ty.Idx) :
    ∃ t : Fin cfg1.N, (cfg1.win 2).flush t = true ∧ i ∈ ((cfg1.win 2).blk t).view.set := by
  have h0 : (i 0 : Nat) < 3072 := (i 0).isLt
  have h1 : (i 1 : Nat) < 3072 := (i 1).isLt
  have hN : cfg1.N = 27 := N_1
  have hlt : 9 * ((i 0 : Nat) / 1024) + 3 * ((i 1 : Nat) / 1024) + 2 < cfg1.N := by rw [hN]; omega
  obtain ⟨-, -, -, -, e4, e5⟩ := idx1 ⟨_, hlt⟩
  dsimp only at e4 e5
  refine ⟨⟨_, hlt⟩, (flush1_2 _).mpr (by dsimp only; omega), ?_⟩
  show i ∈ ((View.whole main_v11).slice (win1_2.rect ⟨_, hlt⟩)).set
  rw [View.set_slice_whole, Rect.mem_set_unit]
  intro a
  match a with
  | ⟨0, _⟩ =>
    show win1_2.index ⟨_, hlt⟩ 0 * 1024 ≤ (i 0 : Nat) ∧ (i 0 : Nat) < win1_2.index ⟨_, hlt⟩ 0 * 1024 + 1024
    rw [e4]; omega
  | ⟨1, _⟩ =>
    show win1_2.index ⟨_, hlt⟩ 1 * 1024 ≤ (i 1 : Nat) ∧ (i 1 : Nat) < win1_2.index ⟨_, hlt⟩ 1 * 1024 + 1024
    rw [e5]; omega

/-- The array region 1 leaves is the product of its left input array with the transpose of its right input array as the region finds them. -/
theorem final1 (c : Dev nD) : (dat1 (F := Ideal) V c).arrAt 2 cfg1.N = mmT (V c main_v9) (V c main_v10) :=
  (dat1 V c).arrAt_eq_of_cover 2 (mmT (V c main_v9) (V c main_v10))
    (fun t hf => flushed1_eq V c (V c main_v9) (V c main_v10) rfl rfl t hf) (cover1 c)

end Final1

end Cert.KernelIdeal.Val

end
-- ==== Proof.KI.Value2.lean ====
/-
  Region 2 (the third tiled matrix product, rows of activations times the weight): the array it leaves is the plain
  product of its two input arrays.

  The grid is (i, j, k) with k innermost, every block 1024 × 1024. At the three consecutive points k = 0, 1, 2 of
  one output block (i, j) the body accumulates, from zero, the products of block (i, k) of the left array with block
  (k, j) of the right array; at k = 2 it copies the accumulator into the output block. So element (p, q) of output
  block (i, j) is ((0 + Σ_k' L(1024 i + p, k') R(k', 1024 j + q)) + Σ_k' L(…, 1024 + k') R(1024 + k', …))
  + Σ_k' L(…, 2048 + k') R(2048 + k', …) over k' below 1024, which is the sum over all 3072 contraction positions (here i ranges over 16 row blocks and the
  output block is stored as the f32 accumulator itself);
  the output blocks tile the array, so the array ends holding the product, entry by entry.
-/
import proofs.«174643_j41497974014138_1_alg».proof.Proof.KI.Frame2
import proofs.«174643_j41497974014138_1_alg».proof.Proof.KI.Payload
import proofs.«174643_j41497974014138_1_alg».proof.Proof.LibBlockSum
import proofs.«174643_j41497974014138_1_alg».proof.Proof.KI.MatProd
import Idealize.ShloMosaic.Lib.Pipeline.Value
import Idealize.ShloMosaic.Lib.ValueIdx
import Idealize.ShloMosaic.Lib.Tactic

set_option maxRecDepth 16384

noncomputable section

open scoped BigOperators

namespace Cert.KernelIdeal.Val

open Cert.KernelIdeal Cert.KernelIdeal.Gen Cert.KernelIdeal.Payload
open Idealize.ShloMosaic Idealize.ShloMosaic.TcCoe Idealize.ShloMosaic.ValueIdx Idealize.SL.Sem
open Idealize.ShloMosaic.Pipeline (Dat)

theorem hz2 : (![0, 0] : Fin 2 → Nat) = fun _ => 0 := funext fun a => by fin_cases a <;> rfl

/-! ## What each case's stores leave, as the payloads of the blocks read -/

section Pieces2
variable {F : FTy → Type} [FloatOps F]

/-- At k = 0 the accumulator is cleared and the first product added: the accumulation step over the zero block. -/
theorem soutA2_eq (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond2_0 i) (hc1 : ¬cond2_1 i)
    (x0 x1 : Vec F S1024x1024 .bf16) :
    sout2_A_0 c i arg3 harg3 arg4 harg4 arg5 harg5 arg6 harg6 hc0 hc1 x0 x1 = k2_pay2 x0 x1 k2_pay1 := by
  unfold sout2_A_0
  rw [View.read_writes_eq_canon _ _ _ (scover2_A_0 c i arg3 harg3 arg4 harg4 arg5 harg5 arg6 harg6 hc0 hc1 x0 x1)]
  unfold kernelRun2_A
  dsimp only
  try sl_unfold_words
  rw [View.canon_cons_unit_zero (S := S1024x1024) hz2, View.readCov_unit_zero (S := S1024x1024) _ hz2]
  simp only [View.readAt_eq_ld, harg3.read_unread, harg4.read_unread, View.ld_unit_zero (S := S1024x1024) hz2]

/-- At k = 1 the product is added onto what the accumulator held. -/
theorem soutB2_eq (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond2_0 i) (hc1 : ¬cond2_1 i)
    (x0 x1 : Vec F S1024x1024 .bf16) (xs0 : Vec F S1024x1024 .f32) :
    sout2_B_0 c i arg3 harg3 arg4 harg4 arg5 harg5 arg6 harg6 hc0 hc1 x0 x1 xs0 = k2_pay2 x0 x1 xs0 := by
  unfold sout2_B_0
  rw [View.read_writes_eq_canon _ _ _ (scover2_B_0 c i arg3 harg3 arg4 harg4 arg5 harg5 arg6 harg6 hc0 hc1 x0 x1 xs0)]
  unfold kernelRun2_B
  dsimp only
  try sl_unfold_words
  rw [View.canon_unit_zero hz2]
  simp only [View.readAt_eq_ld, harg3.read_unread, harg4.read_unread, harg6.read_unread, View.ld_unit_zero (S := S1024x1024) hz2]

/-- At k = 2 the output block receives the accumulator after this point's product was added, as it is. -/
theorem outC2_eq (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond2_0 i) (hc1 : cond2_1 i)
    (x0 x1 : Vec F S1024x1024 .bf16) (xs0 : Vec F S1024x1024 .f32) :
    out2_C_2 c i arg3 harg3 arg4 harg4 arg5 harg5 arg6 harg6 hc0 hc1 x0 x1 xs0 = k2_pay2 x0 x1 xs0 := by
  unfold out2_C_2
  rw [View.read_writes_eq_canon _ _ _ (cover2_C_2 c i arg3 harg3 arg4 harg4 arg5 harg5 arg6 harg6 hc0 hc1 x0 x1 xs0)]
  unfold kernelRun2_C
  dsimp only
  try sl_unfold_words
  rw [View.canon_unit_zero hz2, View.readCov_unit_zero (S := S1024x1024) _ hz2]
  simp only [View.readAt_eq_ld, harg3.read_unread, harg4.read_unread, harg6.read_unread, View.ld_unit_zero (S := S1024x1024) hz2]

end Pieces2

/-! ## Where the blocks sit in their arrays -/

/-- The printed index maps over the grid, point by point: the left array's block is (i, k), the right array's (k, j),
    the output's (i, j), for the point t = 9 i + 3 j + k. -/
theorem idx2 : ∀ t : Fin cfg2.N,
    win2_0.index t (0 : Fin 2) = t.val / 9 ∧ win2_0.index t (1 : Fin 2) = t.val % 3
    ∧ win2_1.index t (0 : Fin 2) = t.val % 3 ∧ win2_1.index t (1 : Fin 2) = t.val / 3 % 3
    ∧ win2_2.index t (0 : Fin 2) = t.val / 9 ∧ win2_2.index t (1 : Fin 2) = t.val / 3 % 3 :=
  (by decide +kernel : ∀ t : Fin grid2.N,
    win2_0.index t (0 : Fin 2) = t.val / 9 ∧ win2_0.index t (1 : Fin 2) = t.val % 3
    ∧ win2_1.index t (0 : Fin 2) = t.val % 3 ∧ win2_1.index t (1 : Fin 2) = t.val / 3 % 3
    ∧ win2_2.index t (0 : Fin 2) = t.val / 9 ∧ win2_2.index t (1 : Fin 2) = t.val / 3 % 3)

section Blocks2
variable (V : (c : Dev nD) → (b : Ref sig .tc) → Buf (Elt Ideal) ((c : Thread nD τ).loc b))

/-- Element (p, k) of the left array's block at point t is the array's element (1024 (t / 9) + p, 1024 (t mod 3) + k). -/
theorem iblk2_0_apply (c : Dev nD) (A : S16384x3072.Idx → EReal) (hA : A = V c main_v13) (t : Fin cfg2.N) (p k : Fin 1024) (P : Fin 16384) (K : Fin 3072)
    (hP : P.val = 1024 * (t.val / 9) + p.val) (hK : K.val = 1024 * (t.val % 3) + k.val) :
    (iblk2 V c 0 t : Vec Ideal S1024x1024 .bf16) (ix2 p k) = A (ix2 P K) := by
  subst hA
  obtain ⟨e0, e1, -⟩ := idx2 t
  unfold iblk2
  rw [View.read_apply]
  show (V c main_v13 : S16384x3072.Idx → EReal) _ = (V c main_v13 : S16384x3072.Idx → EReal) _
  congr 1
  funext a
  apply Fin.ext
  match a with
  | ⟨0, _⟩ => show win2_0.index t 0 * 1024 + 1 * p.val = P.val; rw [e0, hP]; omega
  | ⟨1, _⟩ => show win2_0.index t 1 * 1024 + 1 * k.val = K.val; rw [e1, hK]; omega

/-- Element (k, q) of the right array's block at point t is the array's element (1024 (t mod 3) + k, 1024 (t / 3 mod 3) + q). -/
theorem iblk2_1_apply (c : Dev nD) (B : S3072x3072.Idx → EReal) (hB : B = V c main_v11) (t : Fin cfg2.N) (k q : Fin 1024) (K Q : Fin 3072)
    (hK : K.val = 1024 * (t.val % 3) + k.val) (hQ : Q.val = 1024 * (t.val / 3 % 3) + q.val) :
    (iblk2 V c 1 t : Vec Ideal S1024x1024 .bf16) (ix2 k q) = B (ix2 K Q) := by
  subst hB
  obtain ⟨-, -, e2, e3, -⟩ := idx2 t
  unfold iblk2
  rw [View.read_apply]
  show (V c main_v11 : S3072x3072.Idx → EReal) _ = (V c main_v11 : S3072x3072.Idx → EReal) _
  congr 1
  funext a
  apply Fin.ext
  match a with
  | ⟨0, _⟩ => show win2_1.index t 0 * 1024 + 1 * k.val = K.val; rw [e2, hK]; omega
  | ⟨1, _⟩ => show win2_1.index t 1 * 1024 + 1 * q.val = Q.val; rw [e3, hQ]; omega

end Blocks2

/-! ## The three points of one output block -/

section Steps2
variable {F : FTy → Type} [FloatOps F]
variable (V : (c : Dev nD) → (b : Ref sig .tc) → Buf (Elt F) ((c : Thread nD τ).loc b))

/-- After the point k = 0 of an output block the accumulator holds the first product added to the zero block. -/
theorem acc2_0 (c : Dev nD) (n : ℕ) (hn : n < cfg2.N) (h3 : n % 3 = 0) :
    (outsAt2 V c n hn).2 = k2_pay2 (iblk2 V c 0 ⟨n, hn⟩) (iblk2 V c 1 ⟨n, hn⟩) k2_pay1 := by
  have h1 : ¬n % 3 = 2 := by omega
  rw [outsAt2_A V c ⟨n, hn⟩ h3 h1]
  dsimp only
  exact soutA2_eq (F := F) _ _ _ _ _ _ _ _ _ _ _ _ _ _

/-- After the point k = 1 it holds the second product added to that. -/
theorem acc2_1 (c : Dev nD) (n : ℕ) (hn : n + 1 < cfg2.N) (h3 : n % 3 = 0) :
    (outsAt2 V c (n + 1) hn).2
      = k2_pay2 (iblk2 V c 0 ⟨n + 1, hn⟩) (iblk2 V c 1 ⟨n + 1, hn⟩) (outsAt2 V c n (Nat.lt_of_succ_lt hn)).2 := by
  have h0 : ¬(n + 1) % 3 = 0 := by omega
  have h1 : ¬(n + 1) % 3 = 2 := by omega
  rw [outsAt2_B V c ⟨n + 1, hn⟩ h0 h1]
  dsimp only
  exact soutB2_eq (F := F) _ _ _ _ _ _ _ _ _ _ _ _ _ _ _

/-- At the point k = 2 the output block receives the third product added to that. -/
theorem out2_2 (c : Dev nD) (n : ℕ) (hn : n + 2 < cfg2.N) (h3 : n % 3 = 0) :
    (outsAt2 V c (n + 2) hn).1
      = k2_pay2 (iblk2 V c 0 ⟨n + 2, hn⟩) (iblk2 V c 1 ⟨n + 2, hn⟩) (outsAt2 V c (n + 1) (Nat.lt_of_succ_lt hn)).2 := by
  have h0 : ¬(n + 2) % 3 = 0 := by omega
  have h1 : (n + 2) % 3 = 2 := by omega
  rw [outsAt2_C V c ⟨n + 2, hn⟩ h0 h1]
  dsimp only
  exact outC2_eq (F := F) _ _ _ _ _ _ _ _ _ _ _ _ _ _ _

end Steps2

/-! ## The output array -/

section Region2
variable (V : (c : Dev nD) → (b : Ref sig .tc) → Buf (Elt Ideal) ((c : Thread nD τ).loc b))

/-- Element (p, q) of the output block whose three points are n, n + 1, n + 2: the full contraction of row
    1024 (n / 9) + p of the left array with column 1024 (n / 3 mod 3) + q of the right array. -/
theorem block2_apply (c : Dev nD) (A : S16384x3072.Idx → EReal) (B : S3072x3072.Idx → EReal) (hA : A = V c main_v13) (hB : B = V c main_v11)
    (n : ℕ) (hn : n + 2 < cfg2.N) (h3 : n % 3 = 0) (p q : Fin 1024) (P : Fin 16384) (Q : Fin 3072)
    (hP : P.val = 1024 * (n / 9) + p.val) (hQ : Q.val = 1024 * (n / 3 % 3) + q.val) :
    (outsAt2 V c (n + 2) hn).1 (ix2 p q) = ∑ k : Fin 3072, A (ix2 P k) * B (ix2 k Q) := by
  rw [out2_2 V c n hn h3, k2_pay2_apply, acc2_1 V c n _ h3, k2_pay2_apply, acc2_0 V c n _ h3, k2_pay2_apply, k2_pay1_apply]
  refine Eq.trans ?_ (Cert.LibBlockSum.sum_three_blocks (fun k : Fin 3072 => A (ix2 P k) * B (ix2 k Q)))
  refine congrArg₂ (· + ·) (congrArg₂ (· + ·) (congrArg (0 + ·) ?_) ?_) ?_
  · exact Finset.sum_congr rfl fun k _ => by
      rw [iblk2_0_apply V c A hA ⟨n, _⟩ p k P ⟨k.val, by omega⟩ (by dsimp only; omega) (by dsimp only; omega),
        iblk2_1_apply V c B hB ⟨n, _⟩ k q ⟨k.val, by omega⟩ Q (by dsimp only; omega) (by dsimp only; omega)]
  · exact Finset.sum_congr rfl fun k _ => by
      rw [iblk2_0_apply V c A hA ⟨n + 1, _⟩ p k P ⟨1024 + k.val, by omega⟩ (by dsimp only; omega) (by dsimp only; omega),
        iblk2_1_apply V c B hB ⟨n + 1, _⟩ k q ⟨1024 + k.val, by omega⟩ Q (by dsimp only; omega) (by dsimp only; omega)]
  · exact Finset.sum_congr rfl fun k _ => by
      rw [iblk2_0_apply V c A hA ⟨n + 2, _⟩ p k P ⟨2048 + k.val, by omega⟩ (by dsimp only; omega) (by dsimp only; omega),
        iblk2_1_apply V c B hB ⟨n + 2, _⟩ k q ⟨2048 + k.val, by omega⟩ Q (by dsimp only; omega) (by dsimp only; omega)]

end Region2

section Final2
variable (V : (c : Dev nD) → (b : Ref sig .tc) → Buf (Elt Ideal) ((c : Thread nD τ).loc b))

/-- What a point k = 2 writes back is its block of the product array. -/
theorem flushed2_eq (c : Dev nD) (A : S16384x3072.Idx → EReal) (B : S3072x3072.Idx → EReal) (hA : A = V c main_v13) (hB : B = V c main_v11)
    (t : Fin cfg2.N) (hf : (cfg2.win 2).flush t = true) :
    (dat2 V c).flushed 2 t = ((cfg2.win 2).blk t).view.read (Elt Ideal) (mmR A B) := by
  have h2 : t.val % 3 = 2 := (flush2_2 t).mp hf
  obtain ⟨-, -, -, -, e4, e5⟩ := idx2 t
  show (cfg2.win 2).cut (grid2.coords t) ((dat2 V c).after 2 t) = _
  rw [after2_2]
  obtain ⟨tv, ht⟩ := t
  obtain ⟨n, rfl⟩ : ∃ n, tv = n + 2 := ⟨tv - 2, by dsimp only at h2; omega⟩
  have h3 : n % 3 = 0 := by dsimp only at h2; omega
  have ht' : n + 2 < 144 := lt_of_lt_of_eq ht (show cfg2.N = 144 from N_2)
  dsimp only at e4 e5
  funext j
  obtain ⟨p, q, rfl⟩ : ∃ (p q : Fin 1024), j = ix2 p q := ⟨j 0, j 1, eq_ix2 j⟩
  rw [View.read_apply]
  have hx : (cfg2.win 2).xinj (grid2.coords ⟨n + 2, ht⟩) (ix2 p q) = ix2 p q :=
    funext fun a => by match a with | ⟨0, _⟩ => rfl | ⟨1, _⟩ => rfl
  have he : ((cfg2.win 2).blk ⟨n + 2, ht⟩).view.emb (ix2 p q)
      = (ix2 (⟨1024 * (n / 9) + p.val, by omega⟩ : Fin 16384) (⟨1024 * (n / 3 % 3) + q.val, by omega⟩ : Fin 3072) : S16384x3072.Idx) :=
    funext fun a => Fin.ext (by
      match a with
      | ⟨0, _⟩ => show win2_2.index ⟨n + 2, ht⟩ 0 * 1024 + 1 * p.val = 1024 * (n / 9) + p.val; rw [e4]; omega
      | ⟨1, _⟩ => show win2_2.index ⟨n + 2, ht⟩ 1 * 1024 + 1 * q.val = 1024 * (n / 3 % 3) + q.val; rw [e5]; omega)
  show (outsAt2 V c (n + 2) ht).1 ((cfg2.win 2).xinj (grid2.coords ⟨n + 2, ht⟩) (ix2 p q)) = mmR A B (((cfg2.win 2).blk ⟨n + 2, ht⟩).view.emb (ix2 p q))
  rw [hx, he, mmR_apply]
  exact block2_apply V c A B hA hB n ht h3 p q _ _ rfl rfl

/-- Every entry of the output array lies in the block of a point k = 2: the blocks (i, j) tile it. -/
theorem cover2 (c : Dev nD) (i : ((cfg2.win 2).arr.view.loc (c.tc : Thread nD τ)).2.ty.Idx) :
    ∃ t : Fin cfg2.N, (cfg2.win 2).flush t = true ∧ i ∈ ((cfg2.win 2).blk t).view.set := by
  have h0 : (i 0 : Nat) < 16384 := (i 0).isLt
  have h1 : (i 1 : Nat) < 3072 := (i 1).isLt
  have hN : cfg2.N = 144 := N_2
  have hlt : 9 * ((i 0 : Nat) / 1024) + 3 * ((i 1 : Nat) / 1024) + 2 < cfg2.N := by rw [hN]; omega
  obtain ⟨-, -, -, -, e4, e5⟩ := idx2 ⟨_, hlt⟩
  dsimp only at e4 e5
  refine ⟨⟨_, hlt⟩, (flush2_2 _).mpr (by dsimp only; omega), ?_⟩
  show i ∈ ((View.whole main_v14).slice (win2_2.rect ⟨_, hlt⟩)).set
  rw [View.set_slice_whole, Rect.mem_set_unit]
  intro a
  match a with
  | ⟨0, _⟩ =>
    show win2_2.index ⟨_, hlt⟩ 0 * 1024 ≤ (i 0 : Nat) ∧ (i 0 : Nat) < win2_2.index ⟨_, hlt⟩ 0 * 1024 + 1024
    rw [e4]; omega
  | ⟨1, _⟩ =>
    show win2_2.index ⟨_, hlt⟩ 1 * 1024 ≤ (i 1 : Nat) ∧ (i 1 : Nat) < win2_2.index ⟨_, hlt⟩ 1 * 1024 + 1024
    rw [e5]; omega

/-- The array region 2 leaves is the product of its two input arrays as the region finds them. -/
theorem final2 (c : Dev nD) : (dat2 (F := Ideal) V c).arrAt 2 cfg2.N = mmR (V c main_v13) (V c main_v11) :=
  (dat2 V c).arrAt_eq_of_cover 2 (mmR (V c main_v13) (V c main_v11))
    (fun t hf => flushed2_eq V c (V c main_v13) (V c main_v11) rfl rfl t hf) (cover2 c)

end Final2

end Cert.KernelIdeal.Val

end
-- ==== Proof.RefValue.lean ====
/-
  The reference program's result, read at one element.

  The reference multiplies the input, flattened over its two leading axes, by a 3072 × 3072 matrix that is itself the
  product of a Kronecker-product matrix and the TRANSPOSE of a product of two matrices, and then multiplies every
  element by the constant one. Reading the host operations one at a time from the last to the first, the element
  (b, s, o) of the result is

      ( Σ_a  x (b, s, a) · ( Σ_b'  K (a, b') · ( Σ_k  L (o, k) · V (k, b') ) ) ) · 1,

  where K is the Kronecker-product matrix, L the left matrix with its columns scaled, and V the right matrix: the
  innermost sum is the element (o, b') of L · V, read through the transpose at (b', o). The two matrices K and L are
  kept as opaque functions of the arguments they are computed from; the constant is kept as the word it is printed as.
  Each product is written left operand times right operand, in the order the operations apply them.
-/
import proofs.«174643_j41497974014138_1_alg».proof.Proof.Gen.ReferenceIdeal.Read

noncomputable section

open scoped BigOperators

namespace Cert.RefValue

open Cert.ReferenceIdeal Cert.ReferenceIdeal.Gen Idealize.ShloMosaic Idealize.ShloMosaic.ValueIdx Idealize.SL.Sem Idealize.ShloMosaic.StableHlo

/-! ## The operand indices of the three contractions and of the transpose, by coordinates -/

/-- The last contraction reads the input at the output's two leading coordinates and the contraction position … -/
theorem lidx_v10 (b : Fin 4) (s : Fin 4096) (o a : Fin 3072) : Read.lidx_main_v10 (ix3 b s o) a = ix3 b s a :=
  funext fun d => Fin.ext (by match d with | ⟨0, _⟩ => rfl | ⟨1, _⟩ => rfl | ⟨2, _⟩ => rfl)
/-- … and the matrix at (contraction position, output's last coordinate). -/
theorem ridx_v10 (b : Fin 4) (s : Fin 4096) (o a : Fin 3072) : Read.ridx_main_v10 (ix3 b s o) a = ix2 a o :=
  funext fun d => Fin.ext (by match d with | ⟨0, _⟩ => rfl | ⟨1, _⟩ => rfl)
/-- The middle contraction reads its left matrix at (row, contraction position) … -/
theorem lidx_v9 (a o b' : Fin 3072) : Read.lidx_main_v9 (ix2 a o) b' = ix2 a b' :=
  funext fun d => Fin.ext (by match d with | ⟨0, _⟩ => rfl | ⟨1, _⟩ => rfl)
/-- … and its right matrix at (contraction position, column). -/
theorem ridx_v9 (a o b' : Fin 3072) : Read.ridx_main_v9 (ix2 a o) b' = ix2 b' o :=
  funext fun d => Fin.ext (by match d with | ⟨0, _⟩ => rfl | ⟨1, _⟩ => rfl)
/-- The transpose reads its operand at the swapped coordinates. -/
theorem idx_v8 (b' o : Fin 3072) : Read.idx_main_v8 (ix2 b' o) = ix2 o b' :=
  funext fun d => Fin.ext (by match d with | ⟨0, _⟩ => rfl | ⟨1, _⟩ => rfl)
/-- The first contraction reads its left matrix at (row, contraction position) … -/
theorem lidx_v5 (o b' k : Fin 3072) : Read.lidx_main_v5 (ix2 o b') k = ix2 o k :=
  funext fun d => Fin.ext (by match d with | ⟨0, _⟩ => rfl | ⟨1, _⟩ => rfl)
/-- … and its right matrix at (contraction position, column). -/
theorem ridx_v5 (o b' k : Fin 3072) : Read.ridx_main_v5 (ix2 o b') k = ix2 k b' :=
  funext fun d => Fin.ext (by match d with | ⟨0, _⟩ => rfl | ⟨1, _⟩ => rfl)

/-! ## The result at an element -/

/-- Element (b, s, o) of the reference's result: the input's row (b, s) against column o of the combined matrix, times
    the constant one; the combined matrix's element (a, o) is Σ_b' K (a, b') · (L · V) (o, b'). -/
theorem ref_apply (x0 : (⟨S4x4096x3072, .f32⟩ : BufTy).Contents (Elt Ideal)) (x1 : (⟨S3072x3072, .f32⟩ : BufTy).Contents (Elt Ideal))
    (x2 : (⟨S3072, .f32⟩ : BufTy).Contents (Elt Ideal)) (x3 : (⟨S3072x3072, .f32⟩ : BufTy).Contents (Elt Ideal))
    (x4 : (⟨S3072, .f32⟩ : BufTy).Contents (Elt Ideal)) (x5 x6 : (⟨S16x16, .f32⟩ : BufTy).Contents (Elt Ideal))
    (x7 : (⟨S12x12, .f32⟩ : BufTy).Contents (Elt Ideal)) (b : Fin 4) (s : Fin 4096) (o : Fin 3072) :
    Read.val_main_v12 (F := Ideal) x0 x1 x2 x3 x4 x5 x6 x7 (ix3 b s o)
      = (∑ a : Fin 3072, x0 (ix3 b s a) * (∑ b' : Fin 3072, Read.val_main_v7 (F := Ideal) x5 x6 x7 (ix2 a b')
            * (∑ k : Fin 3072, Read.val_main_v4 (F := Ideal) x1 x2 x4 (ix2 o k) * x3 (ix2 k b'))))
          * FloatOps.ofBits (F := Ideal) .f32 0x3F800000#32 := by
  rw [Read.val_main_v12_apply, Read.val_main_v10_apply, Read.val_main_v11_apply, Read.val_main_cst_apply, Ideal.mulf_def]
  refine congrArg (· * FloatOps.ofBits (F := Ideal) .f32 0x3F800000#32) ?_
  refine Finset.sum_congr rfl fun a _ => ?_
  rw [lidx_v10, ridx_v10, Read.val_main_v9_apply]
  refine congrArg (x0 (ix3 b s a) * ·) ?_
  refine Finset.sum_congr rfl fun b' _ => ?_
  rw [lidx_v9, ridx_v9, Read.val_main_v8_apply, idx_v8, Read.val_main_v5_apply]
  refine congrArg (Read.val_main_v7 (F := Ideal) x5 x6 x7 (ix2 a b') * ·) ?_
  refine Finset.sum_congr rfl fun k _ => ?_
  rw [lidx_v5, ridx_v5]

end Cert.RefValue

end
-- ==== Proof.KI.Assemble.lean ====
/-
  The algebraic claim. At the ideal values the kernel program's result array is the product with the constant one of the
  reshape of region 2's output, region 2's output is X · Wt with X the activations flattened to rows, Wt = ortho · Wᵀ is
  region 1's output and W = Us · V region 0's (each a whole matrix product: the tiled sums re-associated), and the host
  operands Us (U scaled columnwise by relu(S + δ)) and ortho (the Kronecker product) are the reference's own terms. Read
  at an index (b, s, o) this is the reference's result at that index: the sum over a of x(b, s, a) times the sum over b'
  of ortho(a, b') times the sum over k of Us(o, k) · V(k, b'), times one.
-/
import proofs.«174643_j41497974014138_1_alg».proof.Defs
import proofs.«174643_j41497974014138_1_alg».proof.Proof.Gen.Pre_finite_inputs
import proofs.«174643_j41497974014138_1_alg».proof.Proof.Gen.ReferenceIdeal
import proofs.«174643_j41497974014138_1_alg».proof.Proof.KI.Host
import proofs.«174643_j41497974014138_1_alg».proof.Proof.KI.MatProd
import proofs.«174643_j41497974014138_1_alg».proof.Proof.KI.Value0
import proofs.«174643_j41497974014138_1_alg».proof.Proof.KI.Value1
import proofs.«174643_j41497974014138_1_alg».proof.Proof.KI.Value2
import proofs.«174643_j41497974014138_1_alg».proof.Proof.RefValue
import Idealize.ShloMosaic.Lib.ValueIdx
import Idealize.ShloMosaic.Lib.Pipeline.Value
noncomputable section
namespace Cert.KernelIdeal.Val
open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- Row r = 4096·b + s of the flattened activations. -/
abbrev rowOf (b : Fin 4) (s : Fin 4096) : Fin 16384 := ⟨4096 * b.val + s.val, by have := b.isLt; have := s.isLt; omega⟩

/-- The reshape [16384, 3072] → [4, 4096, 3072] read at (b, s, o): row 4096·b + s, column o. -/
theorem unflatten_apply {α : Type} (X : S16384x3072.Idx → α) (b : Fin 4) (s : Fin 4096) (o : Fin 3072) :
    shapeCast S4x4096x3072 X shapeCasts_S16384x3072_S4x4096x3072 (ix3 b s o) = X (ix2 (rowOf b s) o) := by
  refine shapeCast_apply X _ (ix3 b s o) (ix2 (rowOf b s) o) ?_
  rw [Shape.rowMajor_val_two, Shape.rowMajor_val_three]
  show (4096 * b.val + s.val) * 3072 + o.val = (b.val * 4096 + s.val) * 3072 + o.val
  rw [Nat.mul_comm 4096 b.val]

/-- The reshape [4, 4096, 3072] → [16384, 3072] read at (4096·b + s, a): entry (b, s, a). -/
theorem flatten_apply {α : Type} (X : S4x4096x3072.Idx → α) (b : Fin 4) (s : Fin 4096) (a : Fin 3072) :
    shapeCast S16384x3072 X shapeCasts_S4x4096x3072_S16384x3072 (ix2 (rowOf b s) a) = X (ix3 b s a) := by
  refine shapeCast_apply X _ (ix2 (rowOf b s) a) (ix3 b s a) ?_
  rw [Shape.rowMajor_val_two, Shape.rowMajor_val_three]
  show (b.val * 4096 + s.val) * 3072 + a.val = (4096 * b.val + s.val) * 3072 + a.val
  rw [Nat.mul_comm 4096 b.val]

/-- The kernel program's result array: the three tiled products, each the whole matrix product of its operands. -/
theorem kernel_res (c : Dev nD) : (Wq11 (F := Ideal) m c (Proc.devRef .tc main_v17) : FVec Ideal S4x4096x3072 .f32)
    = mulf (shapeCast S4x4096x3072
          (mmR (shapeCast S16384x3072 (m ((c : Thread nD τ).loc main_arg0)) shapeCasts_S4x4096x3072_S16384x3072)
            (mmT (Cert.ReferenceIdeal.Read.val_main_v7 (F := Ideal) (m ((c : Thread nD τ).loc main_arg5)) (m ((c : Thread nD τ).loc main_arg6)) (m ((c : Thread nD τ).loc main_arg7)))
              (mm (Cert.ReferenceIdeal.Read.val_main_v4 (F := Ideal) (m ((c : Thread nD τ).loc main_arg1)) (m ((c : Thread nD τ).loc main_arg2)) (m ((c : Thread nD τ).loc main_arg4)))
                (m ((c : Thread nD τ).loc main_arg3)))))
          shapeCasts_S16384x3072_S4x4096x3072)
        (broadcastInDim S4x4096x3072 ![] bcast_S_S4x4096x3072 (constant (F := Ideal) S_ .f32 0x3F800000#32)) := by
  rw [v17_eq, v14_eq, final2, v13_eq, v11_eq, final1, v9_eq, v10_eq, final0, v5_eq, v6_eq]

/-- The kernel program's result at an index is the reference's. -/
theorem kernel_apply (c : Dev nD) (b : Fin 4) (s : Fin 4096) (o : Fin 3072) :
    (Wq11 (F := Ideal) m c (Proc.devRef .tc main_v17) : FVec Ideal S4x4096x3072 .f32) (ix3 b s o)
      = Cert.ReferenceIdeal.Read.val_main_v12 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix3 b s o) := by
  rw [kernel_res, Cert.RefValue.ref_apply]
  show (shapeCast S4x4096x3072 _ shapeCasts_S16384x3072_S4x4096x3072 (ix3 b s o) : EReal) * _ = _
  rw [unflatten_apply, mmR_apply]
  congr 1
  · refine Finset.sum_congr rfl fun a _ => ?_
    rw [flatten_apply, mmT_apply]
    rfl

/-- The run with the result named: the result array at the last boundary's contents, every argument as launched. -/
theorem run_res (ρ : Dev nD → PrngReg) : θ_run defs (onTc (τ := τ) (main (F := Ideal))) ⟨m, fun _ => 0, ρ⟩ (fun r => ∀ c : Dev nD,
      r.2.mem ((c.tc : Thread nD τ).loc main_v17) = Wq11 (F := Ideal) m c (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  run_all m ρ fun s h c =>
    ⟨h c _ (mem_ucH main_v17 (by decide)),
     (h c _ (mem_ucH main_arg0 (by decide))).trans (Wq11_kept m c main_arg0 (by decide) (by decide) (by decide) (by decide) (by decide) (by decide) (by decide) (by decide) (by decide) (by decide) (by decide)),
     (h c _ (mem_ucH main_arg1 (by decide))).trans (Wq11_kept m c main_arg1 (by decide) (by decide) (by decide) (by decide) (by decide) (by decide) (by decide) (by decide) (by decide) (by decide) (by decide)),
     (h c _ (mem_ucH main_arg2 (by decide))).trans (Wq11_kept m c main_arg2 (by decide) (by decide) (by decide) (by decide) (by decide) (by decide) (by decide) (by decide) (by decide) (by decide) (by decide)),
     (h c _ (mem_ucH main_arg3 (by decide))).trans (Wq11_kept m c main_arg3 (by decide) (by decide) (by decide) (by decide) (by decide) (by decide) (by decide) (by decide) (by decide) (by decide) (by decide)),
     (h c _ (mem_ucH main_arg4 (by decide))).trans (Wq11_kept m c main_arg4 (by decide) (by decide) (by decide) (by decide) (by decide) (by decide) (by decide) (by decide) (by decide) (by decide) (by decide)),
     (h c _ (mem_ucH main_arg5 (by decide))).trans (Wq11_kept m c main_arg5 (by decide) (by decide) (by decide) (by decide) (by decide) (by decide) (by decide) (by decide) (by decide) (by decide) (by decide)),
     (h c _ (mem_ucH main_arg6 (by decide))).trans (Wq11_kept m c main_arg6 (by decide) (by decide) (by decide) (by decide) (by decide) (by decide) (by decide) (by decide) (by decide) (by decide) (by decide)),
     (h c _ (mem_ucH main_arg7 (by decide))).trans (Wq11_kept m c main_arg7 (by decide) (by decide) (by decide) (by decide) (by decide) (by decide) (by decide) (by decide) (by decide) (by decide) (by decide))⟩

/-- The two idealized programs, run from memories that agree on the arguments, end with equal results: entry by
    entry both are x · (ortho · Wᵀ) with W = (U ⊙ relu(S + δ)) · V, every product a whole sum. -/
theorem algebraic : Cert.algebraic_KernelIdeal_ReferenceIdeal := by
  intro m ρ m' ρ' _ hagree
  refine ⟨fun c => Wq11 (F := Ideal) m c (Proc.devRef .tc main_v17), run_res m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2, Cert.ReferenceIdeal.Read.val_main_v12_eq]
  funext i
  obtain ⟨b, s, o, rfl⟩ : ∃ (b : Fin 4) (s : Fin 4096) (o : Fin 3072), i = ix3 b s o := ⟨i 0, i 1, i 2, eq_ix3 i⟩
  exact (kernel_apply m c b s o).symm
end Cert.KernelIdeal.Val
end
-- ==== Proof.lean ====
/-
  The certificate's five claims. The kernel program computes out = x · (ortho · Wᵀ) with W = (U ⊙ relu(S + δ)) · V and
  ortho the Kronecker product of three small factors, by three tiled matrix products (blocks of 1024, the inner dimension
  accumulated over three grid steps); the reference computes the same formula with three whole matrix products. At the
  ideal values a tiled product's entry is ((0 + P₀) + P₁) + P₂ of three partial sums of 1024 terms, the reference's the
  whole sum of 3072 terms: equal on the extended reals by associativity of addition alone, so finiteness of the inputs
  is never used. The frames are the program's run read at the argument arrays.
-/
import proofs.«174643_j41497974014138_1_alg».proof.Defs
import proofs.«174643_j41497974014138_1_alg».proof.Proof.Gen.Kernel
import proofs.«174643_j41497974014138_1_alg».proof.Proof.Gen.KernelIdeal
import proofs.«174643_j41497974014138_1_alg».proof.Proof.Gen.ReferenceIdeal
import proofs.«174643_j41497974014138_1_alg».proof.Proof.Gen.Pre_finite_inputs
import proofs.«174643_j41497974014138_1_alg».proof.Proof.KB.Run
import proofs.«174643_j41497974014138_1_alg».proof.Proof.KI.Run
import proofs.«174643_j41497974014138_1_alg».proof.Proof.RefRead
import proofs.«174643_j41497974014138_1_alg».proof.Proof.KI.Assemble
import Idealize.ShloMosaic.Adequacy
import Idealize.ShloMosaic.Init

noncomputable section

namespace Cert.Proof

open Idealize.ShloMosaic Idealize.SL.Sem

/-- The word-level kernel program runs to the end and leaves its arguments as launched. -/
theorem frame_k : Cert.frame_Kernel := fun m ρ _ => Cert.Kernel.Gen.frameH m ρ
/-- So does its idealization. -/
theorem frame_ki : Cert.frame_KernelIdeal := fun m ρ _ => Cert.KernelIdeal.Gen.frameH m ρ
/-- The reference is a straight line of host operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)
/-- The ideal pass rewrote nothing. -/
theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts,
  frame_k, frame_ki, frame_ri, preserves, Cert.KernelIdeal.Val.algebraic⟩

end Cert.Proof

end
